-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x9 : Shape := ⟨2, ![10000, 9]⟩
abbrev S10000x2048 : Shape := ⟨2, ![10000, 2048]⟩
abbrev S10000x256 : Shape := ⟨2, ![10000, 256]⟩
abbrev S2x80000 : Shape := ⟨2, ![2, 80000]⟩
abbrev S9x32 : Shape := ⟨2, ![9, 32]⟩
abbrev S32 : Shape := ⟨1, ![32]⟩
abbrev S_ : Shape := ⟨0, ![]⟩
abbrev S32x32 : Shape := ⟨2, ![32, 32]⟩
abbrev S32x1 : Shape := ⟨2, ![32, 1]⟩
abbrev S1 : Shape := ⟨1, ![1]⟩

class Facts : Prop where
  bcast_S_S10000x9 : S_.BroadcastsInDim S10000x9 (![] : Fin 0 → Fin S10000x9.rank)
  reducesTo_S10000x9_S_d0_1 : S10000x9.ReducesTo [0, 1] S_
  h_S_ : 0 < S_.numel
  bcast_S_S10000x2048 : S_.BroadcastsInDim S10000x2048 (![] : Fin 0 → Fin S10000x2048.rank)
  reducesTo_S10000x2048_S_d0_1 : S10000x2048.ReducesTo [0, 1] S_
  bcast_S_S10000x256 : S_.BroadcastsInDim S10000x256 (![] : Fin 0 → Fin S10000x256.rank)
  reducesTo_S10000x256_S_d0_1 : S10000x256.ReducesTo [0, 1] S_
  bcast_S_S9x32 : S_.BroadcastsInDim S9x32 (![] : Fin 0 → Fin S9x32.rank)
  reducesTo_S9x32_S_d0_1 : S9x32.ReducesTo [0, 1] S_
  bcast_S_S32 : S_.BroadcastsInDim S32 (![] : Fin 0 → Fin S32.rank)
  reducesTo_S32_S_d0 : S32.ReducesTo [0] S_
  reducesTo_S_S_d : S_.ReducesTo [] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S1 .f32) (main_v97 : IVec S_ 1) (main_v101 : IVec S_ 1) : IVec S_ 1 :=
  let main_v102 : IVec S_ 1 := andi main_v97 main_v101
  let main_v103 : FVec F S1 .f32 := Host.absf main_arg23
  let main_cst_40 : FVec F S_ .f32 := constant S_ .f32 0x7F800000#32
  let main_v104 : FVec F S1 .f32 := broadcastInDim S1 ![] bcast_S_S1 main_cst_40
  let main_v105 : IVec S1 1 := cmpf .olt main_v103 main_v104
  let main_c_41 : IVec S_ 1 := constantI S_ 1 1#1
  let main_v106 : IVec S_ 1 := (fun x v => Host.reduce IntOp.andi x v reducesTo_S1_S_d0 h_S_) main_v105 main_c_41
  let main_v107 : IVec S_ 1 := andi main_v102 main_v106
  main_v107

def fn_part5 {F : FTy → Type} [FloatOps F] (main_arg20 : FVec F S32x1 .f32) (main_arg21 : FVec F S1 .f32) (main_arg22 : FVec F S32x1 .f32) (main_arg23 : FVec F S1 .f32) (main_v82 : IVec S_ 1) (main_v83 : FVec F S32 .f32) (main_v84 : FVec F S32 .f32) : IVec S_ 1 :=
  let main_v85 : IVec S32 1 := cmpf .olt main_v83 main_v84
  let main_c_33 : IVec S_ 1 := constantI S_ 1 1#1
  let main_v86 : IVec S_ 1 := (fun x v => Host.reduce IntOp.andi x v reducesTo_S32_S_d0 h_S_) main_v85 main_c_33
  let main_v87 : IVec S_ 1 := andi main_v82 main_v86
  let main_v88 : FVec F S32x1 .f32 := Host.absf main_arg20
  let main_cst_34 : FVec F S_ .f32 := constant S_ .f32 0x7F800000#32
  let main_v89 : FVec F S32x1 .f32 := broadcastInDim S32x1 ![] bcast_S_S32x1 main_cst_34
  let main_v90 : IVec S32x1 1 := cmpf .olt main_v88 main_v89
  let main_c_35 : IVec S_ 1 := constantI S_ 1 1#1
  let main_v91 : IVec S_ 1 := (fun x v => Host.reduce IntOp.andi x v reducesTo_S32x1_S_d0_1 h_S_) main_v90 main_c_35
  let main_v92 : IVec S_ 1 := andi main_v87 main_v91
  let main_v93 : FVec F S1 .f32 := Host.absf main_arg21
  let main_cst_36 : FVec F S_ .f32 := constant S_ .f32 0x7F800000#32
  let main_v94 : FVec F S1 .f32 := broadcastInDim S1 ![] bcast_S_S1 main_cst_36
  let main_v95 : IVec S1 1 := cmpf .olt main_v93 main_v94
  let main_c_37 : IVec S_ 1 := constantI S_ 1 1#1
  let main_v96 : IVec S_ 1 := (fun x v => Host.reduce IntOp.andi x v reducesTo_S1_S_d0 h_S_) main_v95 main_c_37
  let main_v97 : IVec S_ 1 := andi main_v92 main_v96
  let main_v98 : FVec F S32x1 .f32 := Host.absf main_arg22
  let main_cst_38 : FVec F S_ .f32 := constant S_ .f32 0x7F800000#32
  let main_v99 : FVec F S32x1 .f32 := broadcastInDim S32x1 ![] bcast_S_S32x1 main_cst_38
  let main_v100 : IVec S32x1 1 := cmpf .olt main_v98 main_v99
  let main_c_39 : IVec S_ 1 := constantI S_ 1 1#1
  let main_v101 : IVec S_ 1 := (fun x v => Host.reduce IntOp.andi x v reducesTo_S32x1_S_d0_1 h_S_) main_v100 main_c_39
  fn_part6 (F := F) main_arg23 main_v97 main_v101

def fn_part4 {F : FTy → Type} [FloatOps F] (main_arg16 : FVec F S32x32 .f32) (main_arg17 : FVec F S32 .f32) (main_arg18 : FVec F S32x32 .f32) (main_arg19 : FVec F S32 .f32) (main_arg20 : FVec F S32x1 .f32) (main_arg21 : FVec F S1 .f32) (main_arg22 : FVec F S32x1 .f32) (main_arg23 : FVec F S1 .f32) (main_v67 : IVec S_ 1) : IVec S_ 1 :=
  let main_v68 : FVec F S32x32 .f32 := Host.absf main_arg16
  let main_cst_26 : FVec F S_ .f32 := constant S_ .f32 0x7F800000#32
  let main_v69 : FVec F S32x32 .f32 := broadcastInDim S32x32 ![] bcast_S_S32x32 main_cst_26
  let main_v70 : IVec S32x32 1 := cmpf .olt main_v68 main_v69
  let main_c_27 : IVec S_ 1 := constantI S_ 1 1#1
  let main_v71 : IVec S_ 1 := (fun x v => Host.reduce IntOp.andi x v reducesTo_S32x32_S_d0_1 h_S_) main_v70 main_c_27
  let main_v72 : IVec S_ 1 := andi main_v67 main_v71
  let main_v73 : FVec F S32 .f32 := Host.absf main_arg17
  let main_cst_28 : FVec F S_ .f32 := constant S_ .f32 0x7F800000#32
  let main_v74 : FVec F S32 .f32 := broadcastInDim S32 ![] bcast_S_S32 main_cst_28
  let main_v75 : IVec S32 1 := cmpf .olt main_v73 main_v74
  let main_c_29 : IVec S_ 1 := constantI S_ 1 1#1
  let main_v76 : IVec S_ 1 := (fun x v => Host.reduce IntOp.andi x v reducesTo_S32_S_d0 h_S_) main_v75 main_c_29
  let main_v77 : IVec S_ 1 := andi main_v72 main_v76
  let main_v78 : FVec F S32x32 .f32 := Host.absf main_arg18
  let main_cst_30 : FVec F S_ .f32 := constant S_ .f32 0x7F800000#32
  let main_v79 : FVec F S32x32 .f32 := broadcastInDim S32x32 ![] bcast_S_S32x32 main_cst_30
  let main_v80 : IVec S32x32 1 := cmpf .olt main_v78 main_v79
  let main_c_31 : IVec S_ 1 := constantI S_ 1 1#1
  let main_v81 : IVec S_ 1 := (fun x v => Host.reduce IntOp.andi x v reducesTo_S32x32_S_d0_1 h_S_) main_v80 main_c_31
  let main_v82 : IVec S_ 1 := andi main_v77 main_v81
  let main_v83 : FVec F S32 .f32 := Host.absf main_arg19
  let main_cst_32 : FVec F S_ .f32 := constant S_ .f32 0x7F800000#32
  let main_v84 : FVec F S32 .f32 := broadcastInDim S32 ![] bcast_S_S32 main_cst_32
  fn_part5 (F := F) main_arg20 main_arg21 main_arg22 main_arg23 main_v82 main_v83 main_v84

def fn_part3 {F : FTy → Type} [FloatOps F] (main_arg13 : FVec F S32 .f32) (main_arg14 : FVec F S32x1 .f32) (main_arg15 : FVec F S1 .f32) (main_arg16 : FVec F S32x32 .f32) (main_arg17 : FVec F S32 .f32) (main_arg18 : FVec F S32x32 .f32) (main_arg19 : FVec F S32 .f32) (main_arg20 : FVec F S32x1 .f32) (main_arg21 : FVec F S1 .f32) (main_arg22 : FVec F S32x1 .f32) (main_arg23 : FVec F S1 .f32) (main_v47 : IVec S_ 1) (main_v50 : IVec S32x32 1) : IVec S_ 1 :=
  let main_c_19 : IVec S_ 1 := constantI S_ 1 1#1
  let main_v51 : IVec S_ 1 := (fun x v => Host.reduce IntOp.andi x v reducesTo_S32x32_S_d0_1 h_S_) main_v50 main_c_19
  let main_v52 : IVec S_ 1 := andi main_v47 main_v51
  let main_v53 : FVec F S32 .f32 := Host.absf main_arg13
  let main_cst_20 : FVec F S_ .f32 := constant S_ .f32 0x7F800000#32
  let main_v54 : FVec F S32 .f32 := broadcastInDim S32 ![] bcast_S_S32 main_cst_20
  let main_v55 : IVec S32 1 := cmpf .olt main_v53 main_v54
  let main_c_21 : IVec S_ 1 := constantI S_ 1 1#1
  let main_v56 : IVec S_ 1 := (fun x v => Host.reduce IntOp.andi x v reducesTo_S32_S_d0 h_S_) main_v55 main_c_21
  let main_v57 : IVec S_ 1 := andi main_v52 main_v56
  let main_v58 : FVec F S32x1 .f32 := Host.absf main_arg14
  let main_cst_22 : FVec F S_ .f32 := constant S_ .f32 0x7F800000#32
  let main_v59 : FVec F S32x1 .f32 := broadcastInDim S32x1 ![] bcast_S_S32x1 main_cst_22
  let main_v60 : IVec S32x1 1 := cmpf .olt main_v58 main_v59
  let main_c_23 : IVec S_ 1 := constantI S_ 1 1#1
  let main_v61 : IVec S_ 1 := (fun x v => Host.reduce IntOp.andi x v reducesTo_S32x1_S_d0_1 h_S_) main_v60 main_c_23
  let main_v62 : IVec S_ 1 := andi main_v57 main_v61
  let main_v63 : FVec F S1 .f32 := Host.absf main_arg15
  let main_cst_24 : FVec F S_ .f32 := constant S_ .f32 0x7F800000#32
  let main_v64 : FVec F S1 .f32 := broadcastInDim S1 ![] bcast_S_S1 main_cst_24
  let main_v65 : IVec S1 1 := cmpf .olt main_v63 main_v64
  let main_c_25 : IVec S_ 1 := constantI S_ 1 1#1
  let main_v66 : IVec S_ 1 := (fun x v => Host.reduce IntOp.andi x v reducesTo_S1_S_d0 h_S_) main_v65 main_c_25
  let main_v67 : IVec S_ 1 := andi main_v62 main_v66
  fn_part4 (F := F) main_arg16 main_arg17 main_arg18 main_arg19 main_arg20 main_arg21 main_arg22 main_arg23 main_v67

def fn_part2 {F : FTy → Type} [FloatOps F] (main_arg9 : FVec F S32 .f32) (main_arg10 : FVec F S32 .f32) (main_arg11 : FVec F S_ .f32) (main_arg12 : FVec F S32x32 .f32) (main_arg13 : FVec F S32 .f32) (main_arg14 : FVec F S32x1 .f32) (main_arg15 : FVec F S1 .f32) (main_arg16 : FVec F S32x32 .f32) (main_arg17 : FVec F S32 .f32) (main_arg18 : FVec F S32x32 .f32) (main_arg19 : FVec F S32 .f32) (main_arg20 : FVec F S32x1 .f32) (main_arg21 : FVec F S1 .f32) (main_arg22 : FVec F S32x1 .f32) (main_arg23 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S_ .f32 := Host.absf main_arg11
  let main_cst_16 : FVec F S_ .f32 := constant S_ .f32 0x7F800000#32
  let main_v45 : IVec S_ 1 := cmpf .olt main_v44 main_cst_16
  let main_c_17 : IVec S_ 1 := constantI S_ 1 1#1
  let main_v46 : IVec S_ 1 := (fun x v => Host.reduce IntOp.andi x v reducesTo_S_S_d h_S_) main_v45 main_c_17
  let main_v47 : IVec S_ 1 := andi main_v43 main_v46
  let main_v48 : FVec F S32x32 .f32 := Host.absf main_arg12
  let main_cst_18 : FVec F S_ .f32 := constant S_ .f32 0x7F800000#32
  let main_v49 : FVec F S32x32 .f32 := broadcastInDim S32x32 ![] bcast_S_S32x32 main_cst_18
  let main_v50 : IVec S32x32 1 := cmpf .olt main_v48 main_v49
  fn_part3 (F := F) main_arg13 main_arg14 main_arg15 main_arg16 main_arg17 main_arg18 main_arg19 main_arg20 main_arg21 main_arg22 main_arg23 main_v47 main_v50

def fn_part1 {F : FTy → Type} [FloatOps F] (main_arg6 : FVec F S32 .f32) (main_arg7 : FVec F S32 .f32) (main_arg8 : FVec F S32 .f32) (main_arg9 : FVec F S32 .f32) (main_arg10 : FVec F S32 .f32) (main_arg11 : FVec F S_ .f32) (main_arg12 : FVec F S32x32 .f32) (main_arg13 : FVec F S32 .f32) (main_arg14 : FVec F S32x1 .f32) (main_arg15 : FVec F S1 .f32) (main_arg16 : FVec F S32x32 .f32) (main_arg17 : FVec F S32 .f32) (main_arg18 : FVec F S32x32 .f32) (main_arg19 : FVec F S32 .f32) (main_arg20 : FVec F S32x1 .f32) (main_arg21 : FVec F S1 .f32) (main_arg22 : FVec F S32x1 .f32) (main_arg23 : FVec F S1 .f32) (main_v13 : IVec S_ 1) (main_v16 : IVec S9x32 1) : IVec S_ 1 :=
  let main_c_5 : IVec S_ 1 := constantI S_ 1 1#1
  let main_v17 : IVec S_ 1 := (fun x v => Host.reduce IntOp.andi x v reducesTo_S9x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S10000x9 .f32) (main_arg1 : FVec F S10000x2048 .f32) (main_arg2 : FVec F S10000x256 .f32) (main_arg3 : IVec S2x80000 32) (main_arg4 : IVec S2x80000 32) (main_arg5 : FVec F S9x32 .f32) (main_arg6 : FVec F S32 .f32) (main_arg7 : FVec F S32 .f32) (main_arg8 : FVec F S32 .f32) (main_arg9 : FVec F S32 .f32) (main_arg10 : FVec F S32 .f32) (main_arg11 : FVec F S_ .f32) (main_arg12 : FVec F S32x32 .f32) (main_arg13 : FVec F S32 .f32) (main_arg14 : FVec F S32x1 .f32) (main_arg15 : FVec F S1 .f32) (main_arg16 : FVec F S32x32 .f32) (main_arg17 : FVec F S32 .f32) (main_arg18 : FVec F S32x32 .f32) (main_arg19 : FVec F S32 .f32) (main_arg20 : FVec F S32x1 .f32) (main_arg21 : FVec F S1 .f32) (main_arg22 : FVec F S32x1 .f32) (main_arg23 : FVec F S1 .f32) : IVec S_ 1 :=
  let main_v0 : FVec F S10000x9 .f32 := Host.absf main_arg0
  let main_cst : FVec F S_ .f32 := constant S_ .f32 0x7F800000#32
  let main_v1 : FVec F S10000x9 .f32 := broadcastInDim S10000x9 ![] bcast_S_S10000x9 main_cst
  let main_v2 : IVec S10000x9 1 := cmpf .olt main_v0 main_v1
  let main_c : IVec S_ 1 := constantI S_ 1 1#1
  let main_v3 : IVec S_ 1 := (fun x v => Host.reduce IntOp.andi x v reducesTo_S10000x9_S_d0_1 h_S_) main_v2 main_c
  let main_v4 : FVec F S10000x2048 .f32 := Host.absf main_arg1
  let main_cst_0 : FVec F S_ .f32 := constant S_ .f32 0x7F800000#32
  let main_v5 : FVec F S10000x2048 .f32 := broadcastInDim S10000x2048 ![] bcast_S_S10000x2048 main_cst_0
  let main_v6 : IVec S10000x2048 1 := cmpf .olt main_v4 main_v5
  let main_c_1 : IVec S_ 1 := constantI S_ 1 1#1
  let main_v7 : IVec S_ 1 := (fun x v => Host.reduce IntOp.andi x v reducesTo_S10000x2048_S_d0_1 h_S_) main_v6 main_c_1
  let main_v8 : IVec S_ 1 := andi main_v3 main_v7
  let main_v9 : FVec F S10000x256 .f32 := Host.absf main_arg2
  let main_cst_2 : FVec F S_ .f32 := constant S_ .f32 0x7F800000#32
  let main_v10 : FVec F S10000x256 .f32 := broadcastInDim S10000x256 ![] bcast_S_S10000x256 main_cst_2
  let main_v11 : IVec S10000x256 1 := cmpf .olt main_v9 main_v10
  let main_c_3 : IVec S_ 1 := constantI S_ 1 1#1
  let main_v12 : IVec S_ 1 := (fun x v => Host.reduce IntOp.andi x v reducesTo_S10000x256_S_d0_1 h_S_) main_v11 main_c_3
  let main_v13 : IVec S_ 1 := andi main_v8 main_v12
  let main_v14 : FVec F S9x32 .f32 := Host.absf main_arg5
  let main_cst_4 : FVec F S_ .f32 := constant S_ .f32 0x7F800000#32
  let main_v15 : FVec F S9x32 .f32 := broadcastInDim S9x32 ![] bcast_S_S9x32 main_cst_4
  let main_v16 : IVec S9x32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S10000x9 : Shape := ⟨2, ![10000, 9]⟩
abbrev S10000x2048 : Shape := ⟨2, ![10000, 2048]⟩
abbrev S10000x256 : Shape := ⟨2, ![10000, 256]⟩
abbrev S2x80000 : Shape := ⟨2, ![2, 80000]⟩
abbrev S9x32 : Shape := ⟨2, ![9, 32]⟩
abbrev S32 : Shape := ⟨1, ![32]⟩
abbrev S_ : Shape := ⟨0, ![]⟩
abbrev S32x32 : Shape := ⟨2, ![32, 32]⟩
abbrev S32x1 : Shape := ⟨2, ![32, 1]⟩
abbrev S1 : Shape := ⟨1, ![1]⟩
abbrev S1x1 : Shape := ⟨2, ![1, 1]⟩
abbrev S10000x32 : Shape := ⟨2, ![10000, 32]⟩
abbrev S10000x1 : Shape := ⟨2, ![10000, 1]⟩
abbrev S1000x9 : Shape := ⟨2, ![1000, 9]⟩
abbrev S1000x32 : Shape := ⟨2, ![1000, 32]⟩
abbrev S1000x1 : Shape := ⟨2, ![1000, 1]⟩
abbrev S1x32 : Shape := ⟨2, ![1, 32]⟩
abbrev S400x2048 : Shape := ⟨2, ![400, 2048]⟩
abbrev S400 : Shape := ⟨1, ![400]⟩
abbrev S400x1 : Shape := ⟨2, ![400, 1]⟩
abbrev S2000x256 : Shape := ⟨2, ![2000, 256]⟩
abbrev S2000 : Shape := ⟨1, ![2000]⟩
abbrev S2000x1 : Shape := ⟨2, ![2000, 1]⟩
abbrev S1x80000 : Shape := ⟨2, ![1, 80000]⟩
abbrev S80000 : Shape := ⟨1, ![80000]⟩
abbrev S80000x1 : Shape := ⟨2, ![80000, 1]⟩
abbrev S80000x2048 : Shape := ⟨2, ![80000, 2048]⟩
abbrev S80000x32 : Shape := ⟨2, ![80000, 32]⟩
abbrev S80000x256 : Shape := ⟨2, ![80000, 256]⟩
abbrev S400x32 : Shape := ⟨2, ![400, 32]⟩
abbrev S4000x256 : Shape := ⟨2, ![4000, 256]⟩
abbrev S4000x32 : Shape := ⟨2, ![4000, 32]⟩
abbrev S4000 : Shape := ⟨1, ![4000]⟩
abbrev S4000x1 : Shape := ⟨2, ![4000, 1]⟩
abbrev S2000x32 : Shape := ⟨2, ![2000, 32]⟩
abbrev S10000 : Shape := ⟨1, ![10000]⟩

abbrev nBuf : Space → Nat
  | .hbm => 103
  | .vmem => 57
  | .smem => 0
  | _ => 0

abbrev bufTy : (tb : Table) → Fin (tcTables nBuf tb) → BufTy
  | .hbm, ⟨0, _⟩ => ⟨S10000x9, .f32⟩
  | .hbm, ⟨1, _⟩ => ⟨S10000x2048, .f32⟩
  | .hbm, ⟨2, _⟩ => ⟨S10000x256, .f32⟩
  | .hbm, ⟨3, _⟩ => ⟨S2x80000, .i32⟩
  | .hbm, ⟨4, _⟩ => ⟨S2x80000, .i32⟩
  | .hbm, ⟨5, _⟩ => ⟨S9x32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32x32, .f32⟩
  | .hbm, ⟨13, _⟩ => ⟨S32, .f32⟩
  | .hbm, ⟨14, _⟩ => ⟨S32x1, .f32⟩
  | .hbm, ⟨15, _⟩ => ⟨S1, .f32⟩
  | .hbm, ⟨16, _⟩ => ⟨S32x32, .f32⟩
  | .hbm, ⟨17, _⟩ => ⟨S32, .f32⟩
  | .hbm, ⟨18, _⟩ => ⟨S32x32, .f32⟩
  | .hbm, ⟨19, _⟩ => ⟨S32, .f32⟩
  | .hbm, ⟨20, _⟩ => ⟨S32x1, .f32⟩
  | .hbm, ⟨21, _⟩ => ⟨S1, .f32⟩
  | .hbm, ⟨22, _⟩ => ⟨S32x1, .f32⟩
  | .hbm, ⟨23, _⟩ => ⟨S1, .f32⟩
  | .hbm, ⟨24, _⟩ => ⟨S1x1, .f32⟩
  | .hbm, ⟨25, _⟩ => ⟨S10000x32, .f32⟩
  | .hbm, ⟨26, _⟩ => ⟨S10000x1, .f32⟩
  | .hbm, ⟨27, _⟩ => ⟨S10000x2048, .f32⟩
  | .hbm, ⟨28, _⟩ => ⟨S10000x256, .f32⟩
  | .hbm, ⟨29, _⟩ => ⟨S1x80000, .i32⟩
  | .hbm, ⟨30, _⟩ => ⟨S80000, .i32⟩
  | .hbm, ⟨31, _⟩ => ⟨S1x80000, .i32⟩
  | .hbm, ⟨32, _⟩ => ⟨S80000, .i32⟩
  | .hbm, ⟨33, _⟩ => ⟨S1x80000, .i32⟩
  | .hbm, ⟨34, _⟩ => ⟨S80000, .i32⟩
  | .hbm, ⟨35, _⟩ => ⟨S1x80000, .i32⟩
  | .hbm, ⟨36, _⟩ => ⟨S80000, .i32⟩
  | .hbm, ⟨37, _⟩ => ⟨S_, .i32⟩
  | .hbm, ⟨38, _⟩ => ⟨S80000, .i32⟩
  | .hbm, ⟨39, _⟩ => ⟨S80000, .i1⟩
  | .hbm, ⟨40, _⟩ => ⟨S_, .i32⟩
  | .hbm, ⟨41, _⟩ => ⟨S80000, .i32⟩
  | .hbm, ⟨42, _⟩ => ⟨S80000, .i32⟩
  | .hbm, ⟨43, _⟩ => ⟨S80000, .i32⟩
  | .hbm, ⟨44, _⟩ => ⟨S80000x1, .i32⟩
  | .hbm, ⟨45, _⟩ => ⟨S80000x2048, .f32⟩
  | .hbm, ⟨46, _⟩ => ⟨S_, .i32⟩
  | .hbm, ⟨47, _⟩ => ⟨S80000, .i32⟩
  | .hbm, ⟨48, _⟩ => ⟨S80000, .i1⟩
  | .hbm, ⟨49, _⟩ => ⟨S_, .i32⟩
  | .hbm, ⟨50, _⟩ => ⟨S80000, .i32⟩
  | .hbm, ⟨51, _⟩ => ⟨S80000, .i32⟩
  | .hbm, ⟨52, _⟩ => ⟨S80000, .i32⟩
  | .hbm, ⟨53, _⟩ => ⟨S80000x1, .i32⟩
  | .hbm, ⟨54, _⟩ => ⟨S80000x2048, .f32⟩
  | .hbm, ⟨55, _⟩ => ⟨S_, .i32⟩
  | .hbm, ⟨56, _⟩ => ⟨S80000, .i32⟩
  | .hbm, ⟨57, _⟩ => ⟨S80000, .i1⟩
  | .hbm, ⟨58, _⟩ => ⟨S_, .i32⟩
  | .hbm, ⟨59, _⟩ => ⟨S80000, .i32⟩
  | .hbm, ⟨60, _⟩ => ⟨S80000, .i32⟩
  | .hbm, ⟨61, _⟩ => ⟨S80000, .i32⟩
  | .hbm, ⟨62, _⟩ => ⟨S80000x1, .i32⟩
  | .hbm, ⟨63, _⟩ => ⟨S80000x32, .f32⟩
  | .hbm, ⟨64, _⟩ => ⟨S_, .i32⟩
  | .hbm, ⟨65, _⟩ => ⟨S80000, .i32⟩
  | .hbm, ⟨66, _⟩ => ⟨S80000, .i1⟩
  | .hbm, ⟨67, _⟩ => ⟨S_, .i32⟩
  | .hbm, ⟨68, _⟩ => ⟨S80000, .i32⟩
  | .hbm, ⟨69, _⟩ => ⟨S80000, .i32⟩
  | .hbm, ⟨70, _⟩ => ⟨S80000, .i32⟩
  | .hbm, ⟨71, _⟩ => ⟨S80000x1, .i32⟩
  | .hbm, ⟨72, _⟩ => ⟨S80000x256, .f32⟩
  | .hbm, ⟨73, _⟩ => ⟨S_, .i32⟩
  | .hbm, ⟨74, _⟩ => ⟨S80000, .i32⟩
  | .hbm, ⟨75, _⟩ => ⟨S80000, .i1⟩
  | .hbm, ⟨76, _⟩ => ⟨S_, .i32⟩
  | .hbm, ⟨77, _⟩ => ⟨S80000, .i32⟩
  | .hbm, ⟨78, _⟩ => ⟨S80000, .i32⟩
  | .hbm, ⟨79, _⟩ => ⟨S80000, .i32⟩
  | .hbm, ⟨80, _⟩ => ⟨S80000x1, .i32⟩
  | .hbm, ⟨81, _⟩ => ⟨S80000x256, .f32⟩
  | .hbm, ⟨82, _⟩ => ⟨S_, .i32⟩
  | .hbm, ⟨83, _⟩ => ⟨S80000, .i32⟩
  | .hbm, ⟨84, _⟩ => ⟨S80000, .i1⟩
  | .hbm, ⟨85, _⟩ => ⟨S_, .i32⟩
  | .hbm, ⟨86, _⟩ => ⟨S80000, .i32⟩
  | .hbm, ⟨87, _⟩ => ⟨S80000, .i32⟩
  | .hbm, ⟨88, _⟩ => ⟨S80000, .i32⟩
  | .hbm, ⟨89, _⟩ => ⟨S80000x1, .i32⟩
  | .hbm, ⟨90, _⟩ => ⟨S80000x32, .f32⟩
  | .hbm, ⟨91, _⟩ => ⟨S80000x32, .f32⟩
  | .hbm, ⟨92, _⟩ => ⟨S80000x32, .f32⟩
  | .hbm, ⟨93, _⟩ => ⟨S_, .f32⟩
  | .hbm, ⟨94, _⟩ => ⟨S10000x32, .f32⟩
  | .hbm, ⟨95, _⟩ => ⟨S80000x1, .i32⟩
  | .hbm, ⟨96, _⟩ => ⟨S10000x32, .f32⟩
  | .hbm, ⟨97, _⟩ => ⟨S_, .f32⟩
  | .hbm, ⟨98, _⟩ => ⟨S10000x32, .f32⟩
  | .hbm, ⟨99, _⟩ => ⟨S80000x1, .i32⟩
  | .hbm, ⟨100, _⟩ => ⟨S10000x32, .f32⟩
  | .hbm, ⟨101, _⟩ => ⟨S10000x1, .f32⟩
  | .hbm, ⟨102, _⟩ => ⟨S10000, .f32⟩
  | .local _ .vmem, ⟨0, _⟩ => ⟨S1000x9, .f32⟩
  | .local _ .vmem, ⟨1, _⟩ => ⟨S1000x9, .f32⟩
  | .local _ .vmem, ⟨2, _⟩ => ⟨S9x32, .f32⟩
  | .local _ .vmem, ⟨3, _⟩ => ⟨S32, .f32⟩
  | .local _ .vmem, ⟨4, _⟩ => ⟨S32, .f32⟩
  | .local _ .vmem, ⟨5, _⟩ => ⟨S32, .f32⟩
  | .local _ .vmem, ⟨6, _⟩ => ⟨S32, .f32⟩
  | .local _ .vmem, ⟨7, _⟩ => ⟨S32, .f32⟩
  | .local _ .vmem, ⟨8, _⟩ => ⟨S1x1, .f32⟩
  | .local _ .vmem, ⟨9, _⟩ => ⟨S32x32, .f32⟩
  | .local _ .vmem, ⟨10, _⟩ => ⟨S32, .f32⟩
  | .local _ .vmem, ⟨11, _⟩ => ⟨S32x1, .f32⟩
  | .local _ .vmem, ⟨12, _⟩ => ⟨S1, .f32⟩
  | .local _ .vmem, ⟨13, _⟩ => ⟨S1000x32, .f32⟩
  | .local _ .vmem, ⟨14, _⟩ => ⟨S1000x32, .f32⟩
  | .local _ .vmem, ⟨15, _⟩ => ⟨S1000x1, .f32⟩
  | .local _ .vmem, ⟨16, _⟩ => ⟨S1000x1, .f32⟩
  | .local _ .vmem, ⟨17, _⟩ => ⟨S400x2048, .f32⟩
  | .local _ .vmem, ⟨18, _⟩ => ⟨S400x2048, .f32⟩
  | .local _ .vmem, ⟨19, _⟩ => ⟨S400x2048, .f32⟩
  | .local _ .vmem, ⟨20, _⟩ => ⟨S400x2048, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S400x2048, .f32⟩
  | .local _ .vmem, ⟨26, _⟩ => ⟨S400x2048, .f32⟩
  | .local _ .vmem, ⟨27, _⟩ => ⟨S400x2048, .f32⟩
  | .local _ .vmem, ⟨28, _⟩ => ⟨S400x2048, .f32⟩
  | .local _ .vmem, ⟨29, _⟩ => ⟨S400x32, .f32⟩
  | .local _ .vmem, ⟨30, _⟩ => ⟨S400x32, .f32⟩
  | .local _ .vmem, ⟨31, _⟩ => ⟨S400x32, .f32⟩
  | .local _ .vmem, ⟨32, _⟩ => ⟨S400x32, .f32⟩
  | .local _ .vmem, ⟨33, _⟩ => ⟨S4000x256, .f32⟩
  | .local _ .vmem, ⟨34, _⟩ => ⟨S4000x256, .f32⟩
  | .local _ .vmem, ⟨35, _⟩ => ⟨S4000x256, .f32⟩
  | .local _ .vmem, ⟨36, _⟩ => ⟨S4000x256, .f32⟩
  | .local _ .vmem, ⟨37, _⟩ => ⟨S4000x32, .f32⟩
  | .local _ .vmem, ⟨38, _⟩ => ⟨S4000x32, .f32⟩
  | .local _ .vmem, ⟨39, _⟩ => ⟨S4000x32, .f32⟩
  | .local _ .vmem, ⟨40, _⟩ => ⟨S4000x32, .f32⟩
  | .local _ .vmem, ⟨41, _⟩ => ⟨S2000x32, .f32⟩
  | .local _ .vmem, ⟨42, _⟩ => ⟨S2000x32, .f32⟩
  | .local _ .vmem, ⟨43, _⟩ => ⟨S2000x32, .f32⟩
  | .local _ .vmem, ⟨44, _⟩ => ⟨S2000x32, .f32⟩
  | .local _ .vmem, ⟨45, _⟩ => ⟨S2000x1, .f32⟩
  | .local _ .vmem, ⟨46, _⟩ => ⟨S2000x1, .f32⟩
  | .local _ .vmem, ⟨47, _⟩ => ⟨S32x32, .f32⟩
  | .local _ .vmem, ⟨48, _⟩ => ⟨S32, .f32⟩
  | .local _ .vmem, ⟨49, _⟩ => ⟨S32x32, .f32⟩
  | .local _ .vmem, ⟨50, _⟩ => ⟨S32, .f32⟩
  | .local _ .vmem, ⟨51, _⟩ => ⟨S32x1, .f32⟩
  | .local _ .vmem, ⟨52, _⟩ => ⟨S1, .f32⟩
  | .local _ .vmem, ⟨53, _⟩ => ⟨S32x1, .f32⟩
  | .local _ .vmem, ⟨54, _⟩ => ⟨S1, .f32⟩
  | .local _ .vmem, ⟨55, _⟩ => ⟨S2000x1, .f32⟩
  | .local _ .vmem, ⟨56, _⟩ => ⟨S2000x1, .f32⟩
  | _, _ => ⟨S10000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1_0 : Ref sig .tc := ⟨.hbm, 25, rfl⟩
abbrev main_v1_1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_v13 : Ref sig .tc := ⟨.hbm, 39, rfl⟩
abbrev main_c_0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_1 : Ref sig .tc := ⟨.hbm, 46, rfl⟩
abbrev main_v19 : Ref sig .tc := ⟨.hbm, 47, rfl⟩
abbrev main_v20 : Ref sig .tc := ⟨.hbm, 48, rfl⟩
abbrev main_c_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_3 : Ref sig .tc := ⟨.hbm, 55, rfl⟩
abbrev main_v26 : Ref sig .tc := ⟨.hbm, 56, rfl⟩
abbrev main_v27 : Ref sig .tc := ⟨.hbm, 57, rfl⟩
abbrev main_c_4 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_5 : Ref sig .tc := ⟨.hbm, 64, rfl⟩
abbrev main_v33 : Ref sig .tc := ⟨.hbm, 65, rfl⟩
abbrev main_v34 : Ref sig .tc := ⟨.hbm, 66, rfl⟩
abbrev main_c_6 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_7 : Ref sig .tc := ⟨.hbm, 73, rfl⟩
abbrev main_v40 : Ref sig .tc := ⟨.hbm, 74, rfl⟩
abbrev main_v41 : Ref sig .tc := ⟨.hbm, 75, rfl⟩
abbrev main_c_8 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_9 : Ref sig .tc := ⟨.hbm, 82, rfl⟩
abbrev main_v47 : Ref sig .tc := ⟨.hbm, 83, rfl⟩
abbrev main_v48 : Ref sig .tc := ⟨.hbm, 84, rfl⟩
abbrev main_c_10 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_11 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg3_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg7_0 : Ref sig .tc := ⟨.vmem, 51, rfl⟩
abbrev cc5_stg8_0 : Ref sig .tc := ⟨.vmem, 52, rfl⟩
abbrev cc5_stg9_0 : Ref sig .tc := ⟨.vmem, 53, rfl⟩
abbrev cc5_stg10_0 : Ref sig .tc := ⟨.vmem, 54, rfl⟩
abbrev cc5_stg11_0 : Ref sig .tc := ⟨.vmem, 55, rfl⟩
abbrev cc5_stg11_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem3_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem7_0 : DmaSem sig := 51
abbrev cc5_sem8_0 : DmaSem sig := 52
abbrev cc5_sem9_0 : DmaSem sig := 53
abbrev cc5_sem10_0 : DmaSem sig := 54
abbrev cc5_sem11_0 : DmaSem sig := 55
abbrev cc5_sem11_1 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1000x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1000x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S400x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S400x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S32x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S32x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S32 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S32x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S32x1 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 2 → Memref sig .tc .vmem S2000x1 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

class Facts₀ : Prop where
  shapeCasts_S_S1x1 : S_.ShapeCasts S1x1
  inb_S1000x9_S1000x9_0_0 : ∀ a, (![0, 0] : Fin 2 → Nat) a + S1000x9.size a ≤ S1000x9.size a
  h_S1000x9 : 0 < S1000x9.numel
  bitsLt_bf16_f32 : FTy.bits .bf16 < FTy.bits .f32
  inb_S9x32_S9x32_0_0 : ∀ a, (![0, 0] : Fin 2 → Nat) a + S9x32.size a ≤ S9x32.size a
  h_S9x32 : 0 < S9x32.numel
  inb_S32_S32_0 : ∀ a, (![0] : Fin 1 → Nat) a + S32.size a ≤ S32.size a
  h_S32 : 0 < S32.numel
  shapeCasts_S32_S1x32 : S32.ShapeCasts S1x32
  broadcasts_S1x32_S1000x32 : S1x32.Broadcasts S1000x32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S32x32_S32x32_0_0 : ∀ a, (![0, 0] : Fin 2 → Nat) a + S32x32.size a ≤ S32x32.size a
  h_S32x32 : 0 < S32x32.numel
  inb_S1000x32_S1000x32_0_0 : ∀ a, (![0, 0] : Fin 2 → Nat) a + S1000x32.size a ≤ S1000x32.size a
  h_S1000x32 : 0 < S1000x32.numel
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  inb_S400x2048_S400x2048_0_0 : ∀ a, (![0, 0] : Fin 2 → Nat) a + S400x2048.size a ≤ S400x2048.size a
  h_S400x2048 : 0 < S400x2048.numel
  reduces_S400x2048_S400 : S400x2048.Reduces [1] S400
  shapeCasts_S400_S400x1 : S400.ShapeCasts S400x1
  broadcasts_S400x1_S400x2048 : S400x1.Broadcasts S400x2048
  inb_S2000x256_S2000x256_0_0 : ∀ a, (![0, 0] : Fin 2 → Nat) a + S2000x256.size a ≤ S2000x256.size a
  h_S2000x256 : 0 < S2000x256.numel
  reduces_S2000x256_S2000 : S2000x256.Reduces [1] S2000
  shapeCasts_S2000_S2000x1 : S2000.ShapeCasts S2000x1
  broadcasts_S2000x1_S2000x256 : S2000x1.Broadcasts S2000x256
  slices_S2x80000_S1x80000_0_0 : S2x80000.Slices ![0, 0] S1x80000
  shapeCasts_S1x80000_S80000 : S1x80000.ShapeCasts S80000
  slices_S2x80000_S1x80000_1_0 : S2x80000.Slices ![1, 0] S1x80000
  bcast_S_S80000 : S_.BroadcastsInDim S80000 (![] : Fin 0 → Fin S80000.rank)
  bcast_S80000_S80000x1_0 : S80000.BroadcastsInDim S80000x1 (![0] : Fin 1 → Fin S80000x1.rank)
  shapeCasts_S400x2048_S400x2048 : S400x2048.ShapeCasts S400x2048
  inb_S400x32_S400x32_0_0 : ∀ a, (![0, 0] : Fin 2 → Nat) a + S400x32.size a ≤ S400x32.size a
  h_S400x32 : 0 < S400x32.numel
  shapeCasts_S400x32_S400x32 : S400x32.ShapeCasts S400x32
  broadcasts_S400x1_S400x32 : S400x1.Broadcasts S400x32
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  reduces_S4000x256_S4000 : S4000x256.Reduces [1] S4000
  shapeCasts_S4000_S4000x1 : S4000.ShapeCasts S4000x1
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  broadcasts_S4000x1_S4000x32 : S4000x1.Broadcasts S4000x32
  bcast_S_S10000x32 : S_.BroadcastsInDim S10000x32 (![] : Fin 0 → Fin S10000x32.rank)
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  broadcasts_S1x32_S2000x32 : S1x32.Broadcasts S2000x32
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S10000x1_S10000 : S10000x1.ShapeCasts S10000
  dot_S1000x9_S9x32_S1000x32_1_0_0_1_n_n_wf : DotDims.WF S1000x9 S9x32 S1000x32 [1] [0] [0] [1] [] []
  dot_S1000x32_S32x32_S1000x32_1_0_0_1_n_n_wf : DotDims.WF S1000x32 S32x32 S1000x32 [1] [0] [0] [1] [] []
  dot_S1000x32_S32x1_S1000x1_1_0_0_1_n_n_wf : DotDims.WF S1000x32 S32x1 S1000x1 [1] [0] [0] [1] [] []
  gather_S10000x2048_S80000x1_S80000x2048_1_0_n_n_0_1_12048_wf : GatherDims.WF S10000x2048 S80000x1 S80000x2048 [1] [0] [] [0] [] 1 ![1, 2048]
  gather_S10000x32_S80000x1_S80000x32_1_0_n_n_0_1_132_wf : GatherDims.WF S10000x32 S80000x1 S80000x32 [1] [0] [] [0] [] 1 ![1, 32]
  gather_S10000x256_S80000x1_S80000x256_1_0_n_n_0_1_1256_wf : GatherDims.WF S10000x256 S80000x1 S80000x256 [1] [0] [] [0] [] 1 ![1, 256]
  scatter_S10000x32_S80000x1_S80000x32_1_0_0_1_wf : ScatterDims.WF S10000x32 S80000x1 S80000x32 [1] [0] [0] 1
  dot_S2000x32_S32x32_S2000x32_1_0_0_1_n_n_wf : DotDims.WF S2000x32 S32x32 S2000x32 [1] [0] [0] [1] [] []
  dot_S2000x32_S32x1_S2000x1_1_0_0_1_n_n_wf : DotDims.WF S2000x32 S32x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x9.size a ≤ S10000x9.size a
  hwx0_0 : ∀ i : grid0.Coords, EltTy.bits .f32 = 32 ∨ (Rect.block (s := S10000x9) S1000x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x32.size a ≤ S9x32.size a
  hwx0_1 : ∀ i : grid0.Coords, EltTy.bits .f32 = 32 ∨ (Rect.block (s := S9x32) S9x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x1.size a ≤ S32x1.size a
  hwx0_10 : ∀ i : grid0.Coords, EltTy.bits .f32 = 32 ∨ (Rect.block (s := S32x1) S32x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x32.size a ≤ S10000x32.size a
  hwx0_12 : ∀ i : grid0.Coords, EltTy.bits .f32 = 32 ∨ (Rect.block (s := S10000x32) S1000x32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1000x1.size a ≤ S10000x1.size a
  hwx0_13 : ∀ i : grid0.Coords, EltTy.bits .f32 = 32 ∨ (Rect.block (s := S10000x1) S1000x1.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x2048.size a ≤ S10000x2048.size a
  hwx1_0 : ∀ i : grid1.Coords, EltTy.bits .f32 = 32 ∨ (Rect.block (s := S10000x2048) S400x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x2048.size a ≤ S10000x2048.size a
  hwx1_1 : ∀ i : grid1.Coords, EltTy.bits .f32 = 32 ∨ (Rect.block (s := S10000x2048) S400x2048.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S10000x256.size a
  hwx2_0 : ∀ i : grid2.Coords, EltTy.bits .f32 = 32 ∨ (Rect.block (s := S10000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S10000x256.size a
  hwx2_1 : ∀ i : grid2.Coords, EltTy.bits .f32 = 32 ∨ (Rect.block (s := S10000x256) S2000x256.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x2048.size a ≤ S80000x2048.size a
  hwx3_0 : ∀ i : grid3.Coords, EltTy.bits .f32 = 32 ∨ (Rect.block (s := S80000x2048) S400x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S400x2048.size a ≤ S80000x2048.size a
  hwx3_1 : ∀ i : grid3.Coords, EltTy.bits .f32 = 32 ∨ (Rect.block (s := S80000x2048) S400x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x32.size a ≤ S80000x32.size a
  hwx3_2 : ∀ i : grid3.Coords, EltTy.bits .f32 = 32 ∨ (Rect.block (s := S80000x32) S400x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x32.size a ≤ S80000x32.size a
  hwx3_3 : ∀ i : grid3.Coords, EltTy.bits .f32 = 32 ∨ (Rect.block (s := S80000x32) S400x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S80000x256.size a
  hwx4_0 : ∀ i : grid4.Coords, EltTy.bits .f32 = 32 ∨ (Rect.block (s := S80000x256) S4000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x256.size a ≤ S80000x256.size a
  hwx4_1 : ∀ i : grid4.Coords, EltTy.bits .f32 = 32 ∨ (Rect.block (s := S80000x256) S4000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x32.size a ≤ S80000x32.size a
  hwx4_2 : ∀ i : grid4.Coords, EltTy.bits .f32 = 32 ∨ (Rect.block (s := S80000x32) S4000x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x32.size a ≤ S80000x32.size a
  hwx4_3 : ∀ i : grid4.Coords, EltTy.bits .f32 = 32 ∨ (Rect.block (s := S80000x32) S4000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S10000x32.size a
  hwx5_0 : ∀ i : grid5.Coords, EltTy.bits .f32 = 32 ∨ (Rect.block (s := S10000x32) S2000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x32.size a ≤ S10000x32.size a
  hwx5_1 : ∀ i : grid5.Coords, EltTy.bits .f32 = 32 ∨ (Rect.block (s := S10000x32) S2000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S10000x1.size a
  hwx5_2 : ∀ i : grid5.Coords, EltTy.bits .f32 = 32 ∨ (Rect.block (s := S10000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x32.size a ≤ S32x32.size a
  hwx5_3 : ∀ i : grid5.Coords, EltTy.bits .f32 = 32 ∨ (Rect.block (s := S32x32) S32x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S32.size a ≤ S32.size a
  hwx5_4 : ∀ i : grid5.Coords, EltTy.bits .f32 = 32 ∨ (Rect.block (s := S32) S32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S32x32.size a ≤ S32x32.size a
  hwx5_5 : ∀ i : grid5.Coords, EltTy.bits .f32 = 32 ∨ (Rect.block (s := S32x32) S32x32.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S32.size a ≤ S32.size a
  hwx5_6 : ∀ i : grid5.Coords, EltTy.bits .f32 = 32 ∨ (Rect.block (s := S32) S32.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S32x1.size a ≤ S32x1.size a
  hwx5_7 : ∀ i : grid5.Coords, EltTy.bits .f32 = 32 ∨ (Rect.block (s := S32x1) S32x1.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1.size a ≤ S1.size a
  hwx5_8 : ∀ i : grid5.Coords, EltTy.bits .f32 = 32 ∨ (Rect.block (s := S1) S1.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S32x1.size a ≤ S32x1.size a
  hwx5_9 : ∀ i : grid5.Coords, EltTy.bits .f32 = 32 ∨ (Rect.block (s := S32x1) S32x1.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1.size a ≤ S1.size a
  hwx5_10 : ∀ i : grid5.Coords, EltTy.bits .f32 = 32 ∨ (Rect.block (s := S1) S1.size (cc5_transform_10 i) (hinb5_10 i)).WholeWords (EltTy.packing .f32)
  hstage5_11 : ∀ j, (stage5_11 j).IsWhole
  nbuf5_11 : grid5.bufCount reads5_11 false = 2
  hreads5_11 : ∀ i i' : grid5.Coords, (∀ a, reads5_11 a = true → i a = i' a) → cc5_transform_11 i = cc5_transform_11 i'
  hinb5_11 : ∀ (i : grid5.Coords) a, (cc5_transform_11 i a + 1) * S2000x1.size a ≤ S10000x1.size a
  hwx5_11 : ∀ i : grid5.Coords, EltTy.bits .f32 = 32 ∨ (Rect.block (s := S10000x1) S2000x1.size (cc5_transform_11 i) (hinb5_11 i)).WholeWords (EltTy.packing .f32)

variable [Facts₀]

def dot_S1000x9_S9x32_S1000x32_1_0_0_1_n_n : DotDims S1000x9 S9x32 S1000x32 where
  lhsContracting := [1]
  rhsContracting := [0]
  lhsNonContracting := [0]
  rhsNonContracting := [1]
  lhsBatch := []
  rhsBatch := []
  wf := dot_S1000x9_S9x32_S1000x32_1_0_0_1_n_n_wf
def dot_S1000x32_S32x32_S1000x32_1_0_0_1_n_n : DotDims S1000x32 S32x32 S1000x32 where
  lhsContracting := [1]
  rhsContracting := [0]
  lhsNonContracting := [0]
  rhsNonContracting := [1]
  lhsBatch := []
  rhsBatch := []
  wf := dot_S1000x32_S32x32_S1000x32_1_0_0_1_n_n_wf
def dot_S1000x32_S32x1_S1000x1_1_0_0_1_n_n : DotDims S1000x32 S32x1 S1000x1 where
  lhsContracting := [1]
  rhsContracting := [0]
  lhsNonContracting := [0]
  rhsNonContracting := [1]
  lhsBatch := []
  rhsBatch := []
  wf := dot_S1000x32_S32x1_S1000x1_1_0_0_1_n_n_wf
def gather_S10000x2048_S80000x1_S80000x2048_1_0_n_n_0_1_12048 : GatherDims S10000x2048 S80000x1 S80000x2048 where
  offsetDims := [1]
  collapsedSliceDims := [0]
  operandBatchingDims := []
  startIndicesBatchingDims := []
  startIndexMap := [0]
  indexVectorDim := 1
  sliceSizes := ![1, 2048]
  wf := gather_S10000x2048_S80000x1_S80000x2048_1_0_n_n_0_1_12048_wf
def gather_S10000x32_S80000x1_S80000x32_1_0_n_n_0_1_132 : GatherDims S10000x32 S80000x1 S80000x32 where
  offsetDims := [1]
  collapsedSliceDims := [0]
  operandBatchingDims := []
  startIndicesBatchingDims := []
  startIndexMap := [0]
  indexVectorDim := 1
  sliceSizes := ![1, 32]
  wf := gather_S10000x32_S80000x1_S80000x32_1_0_n_n_0_1_132_wf
def gather_S10000x256_S80000x1_S80000x256_1_0_n_n_0_1_1256 : GatherDims S10000x256 S80000x1 S80000x256 where
  offsetDims := [1]
  collapsedSliceDims := [0]
  operandBatchingDims := []
  startIndicesBatchingDims := []
  startIndexMap := [0]
  indexVectorDim := 1
  sliceSizes := ![1, 256]
  wf := gather_S10000x256_S80000x1_S80000x256_1_0_n_n_0_1_1256_wf
def scatter_S10000x32_S80000x1_S80000x32_1_0_0_1 : ScatterDims S10000x32 S80000x1 S80000x32 where
  updateWindowDims := [1]
  insertedWindowDims := [0]
  scatterDimsToOperandDims := [0]
  indexVectorDim := 1
  wf := scatter_S10000x32_S80000x1_S80000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

abbrev win0_0 : Pipeline.Window sig grid0 :=
  Pipeline.Window.ofSpec (Memref.whole main_arg0) S1000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S9x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S32x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v1_0) S1000x32.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v1_1) S1000x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg1) S400x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S400x2048.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2000x256.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v18) S400x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S400x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S400x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v54) S400x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v39) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S4000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S4000x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v55) S4000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v58) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S2000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v1_1) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg16) S32x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg17) S32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg18) S32x32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg19) S32.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg20) S32x1.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg21) S1.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg22) S32x1.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_arg23) S1.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v62) S2000x1.size cc5_transform_11 reads5_11 true false 2 stage5_11 sem5_11
    hrank5 hreads5_11 hinb5_11 nbuf5_11 (Memref.isWhole_whole _) hwx5_11 hstage5_11

abbrev win5 : Fin 12 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | ⟨_ + 12, h⟩ => absurd h (Nat.not_lt.2 (Nat.le_add_left _ _))
abbrev spec5 : Fin 12 → Pipeline.WinSpec sig grid5.rank := fun w => (win5 w).toWinSpec

class Facts : Prop extends Facts₀ where

variable [Facts]
-- ==== ReferenceIdeal.lean ====
abbrev S10000x9 : Shape := ⟨2, ![10000, 9]⟩
abbrev S10000x2048 : Shape := ⟨2, ![10000, 2048]⟩
abbrev S10000x256 : Shape := ⟨2, ![10000, 256]⟩
abbrev S2x80000 : Shape := ⟨2, ![2, 80000]⟩
abbrev S9x32 : Shape := ⟨2, ![9, 32]⟩
abbrev S32 : Shape := ⟨1, ![32]⟩
abbrev S_ : Shape := ⟨0, ![]⟩
abbrev S32x32 : Shape := ⟨2, ![32, 32]⟩
abbrev S32x1 : Shape := ⟨2, ![32, 1]⟩
abbrev S1 : Shape := ⟨1, ![1]⟩
abbrev S10000x32 : Shape := ⟨2, ![10000, 32]⟩
abbrev S1x32 : Shape := ⟨2, ![1, 32]⟩
abbrev S10000x1 : Shape := ⟨2, ![10000, 1]⟩
abbrev S1x1 : Shape := ⟨2, ![1, 1]⟩
abbrev S10000 : Shape := ⟨1, ![10000]⟩
abbrev S1x80000 : Shape := ⟨2, ![1, 80000]⟩
abbrev S80000 : Shape := ⟨1, ![80000]⟩
abbrev S80000x1 : Shape := ⟨2, ![80000, 1]⟩
abbrev S80000x2048 : Shape := ⟨2, ![80000, 2048]⟩
abbrev S80000x32 : Shape := ⟨2, ![80000, 32]⟩
abbrev S80000x256 : Shape := ⟨2, ![80000, 256]⟩

abbrev nBuf : Space → Nat
  | .hbm => 181
  | .vmem => 0
  | .smem => 0
  | _ => 0

abbrev hbmTy0_0 (i : Nat) : BufTy := match i % 128 with
  | 0 => ⟨S10000x9, .f32⟩
  | 1 => ⟨S10000x2048, .f32⟩
  | 2 => ⟨S10000x256, .f32⟩
  | 3 => ⟨S2x80000, .i32⟩
  | 4 => ⟨S2x80000, .i32⟩
  | 5 => ⟨S9x32, .f32⟩
  | 6 => ⟨S32, .f32⟩
  | 7 => ⟨S32, .f32⟩
  | 8 => ⟨S32, .f32⟩
  | 9 => ⟨S32, .f32⟩
  | 10 => ⟨S32, .f32⟩
  | 11 => ⟨S_, .f32⟩
  | 12 => ⟨S32x32, .f32⟩
  | 13 => ⟨S32, .f32⟩
  | 14 => ⟨S32x1, .f32⟩
  | 15 => ⟨S1, .f32⟩
  | 16 => ⟨S32x32, .f32⟩
  | 17 => ⟨S32, .f32⟩
  | 18 => ⟨S32x32, .f32⟩
  | 19 => ⟨S32, .f32⟩
  | 20 => ⟨S32x1, .f32⟩
  | 21 => ⟨S1, .f32⟩
  | 22 => ⟨S32x1, .f32⟩
  | 23 => ⟨S1, .f32⟩
  | 24 => ⟨S10000x32, .f32⟩
  | 25 => ⟨S1x32, .f32⟩
  | 26 => ⟨S10000x32, .f32⟩
  | 27 => ⟨S10000x32, .f32⟩
  | 28 => ⟨S1x32, .f32⟩
  | 29 => ⟨S10000x32, .f32⟩
  | 30 => ⟨S10000x32, .f32⟩
  | 31 => ⟨S1x32, .f32⟩
  | 32 => ⟨S10000x32, .f32⟩
  | 33 => ⟨S10000x32, .f32⟩
  | 34 => ⟨S_, .f32⟩
  | 35 => ⟨S32, .f32⟩
  | 36 => ⟨S32, .f32⟩
  | 37 => ⟨S32, .f32⟩
  | 38 => ⟨S1x32, .f32⟩
  | 39 => ⟨S10000x32, .f32⟩
  | 40 => ⟨S10000x32, .f32⟩
  | 41 => ⟨S1x32, .f32⟩
  | 42 => ⟨S10000x32, .f32⟩
  | 43 => ⟨S10000x32, .f32⟩
  | 44 => ⟨S_, .f32⟩
  | 45 => ⟨S10000x32, .f32⟩
  | 46 => ⟨S10000x32, .i1⟩
  | 47 => ⟨S10000x32, .f32⟩
  | 48 => ⟨S10000x32, .f32⟩
  | 49 => ⟨S10000x32, .f32⟩
  | 50 => ⟨S10000x32, .f32⟩
  | 51 => ⟨S1x32, .f32⟩
  | 52 => ⟨S10000x32, .f32⟩
  | 53 => ⟨S10000x32, .f32⟩
  | 54 => ⟨S10000x1, .f32⟩
  | 55 => ⟨S1x1, .f32⟩
  | 56 => ⟨S10000x1, .f32⟩
  | 57 => ⟨S10000x1, .f32⟩
  | 58 => ⟨S10000, .f32⟩
  | 59 => ⟨S1x80000, .i32⟩
  | 60 => ⟨S80000, .i32⟩
  | 61 => ⟨S1x80000, .i32⟩
  | 62 => ⟨S80000, .i32⟩
  | 63 => ⟨S10000x2048, .f32⟩
  | 64 => ⟨S_, .f32⟩
  | 65 => ⟨S10000, .f32⟩
  | 66 => ⟨S10000x1, .f32⟩
  | 67 => ⟨S_, .f32⟩
  | 68 => ⟨S10000x1, .f32⟩
  | 69 => ⟨S10000x1, .f32⟩
  | 70 => ⟨S10000x1, .f32⟩
  | 71 => ⟨S10000x2048, .f32⟩
  | 72 => ⟨S10000x2048, .f32⟩
  | 73 => ⟨S_, .i32⟩
  | 74 => ⟨S80000, .i32⟩
  | 75 => ⟨S80000, .i1⟩
  | 76 => ⟨S_, .i32⟩
  | 77 => ⟨S80000, .i32⟩
  | 78 => ⟨S80000, .i32⟩
  | 79 => ⟨S80000, .i32⟩
  | 80 => ⟨S80000x1, .i32⟩
  | 81 => ⟨S80000x2048, .f32⟩
  | 82 => ⟨S_, .i32⟩
  | 83 => ⟨S80000, .i32⟩
  | 84 => ⟨S80000, .i1⟩
  | 85 => ⟨S_, .i32⟩
  | 86 => ⟨S80000, .i32⟩
  | 87 => ⟨S80000, .i32⟩
  | 88 => ⟨S80000, .i32⟩
  | 89 => ⟨S80000x1, .i32⟩
  | 90 => ⟨S80000x2048, .f32⟩
  | 91 => ⟨S80000x2048, .f32⟩
  | 92 => ⟨S_, .f32⟩
  | 93 => ⟨S80000, .f32⟩
  | 94 => ⟨S_, .i32⟩
  | 95 => ⟨S80000, .i32⟩
  | 96 => ⟨S80000, .i1⟩
  | 97 => ⟨S_, .i32⟩
  | 98 => ⟨S80000, .i32⟩
  | 99 => ⟨S80000, .i32⟩
  | 100 => ⟨S80000, .i32⟩
  | 101 => ⟨S80000x1, .i32⟩
  | 102 => ⟨S80000x32, .f32⟩
  | 103 => ⟨S80000x1, .f32⟩
  | 104 => ⟨S80000x32, .f32⟩
  | 105 => ⟨S80000x32, .f32⟩
  | 106 => ⟨S_, .f32⟩
  | 107 => ⟨S10000x32, .f32⟩
  | 108 => ⟨S80000x1, .i32⟩
  | 109 => ⟨S10000x32, .f32⟩
  | 110 => ⟨S10000x32, .f32⟩
  | 111 => ⟨S1x32, .f32⟩
  | 112 => ⟨S10000x32, .f32⟩
  | 113 => ⟨S10000x32, .f32⟩
  | 114 => ⟨S1x80000, .i32⟩
  | 115 => ⟨S80000, .i32⟩
  | 116 => ⟨S1x80000, .i32⟩
  | 117 => ⟨S80000, .i32⟩
  | 118 => ⟨S10000x256, .f32⟩
  | 119 => ⟨S_, .f32⟩
  | 120 => ⟨S10000, .f32⟩
  | 121 => ⟨S10000x1, .f32⟩
  | 122 => ⟨S_, .f32⟩
  | 123 => ⟨S10000x1, .f32⟩
  | 124 => ⟨S10000x1, .f32⟩
  | 125 => ⟨S10000x1, .f32⟩
  | 126 => ⟨S10000x256, .f32⟩
  | 127 => ⟨S10000x256, .f32⟩
  | _ => ⟨S10000x9, .f32⟩

abbrev hbmTy0_1 (i : Nat) : BufTy := match i % 128 with
  | 0 => ⟨S_, .i32⟩
  | 1 => ⟨S80000, .i32⟩
  | 2 => ⟨S80000, .i1⟩
  | 3 => ⟨S_, .i32⟩
  | 4 => ⟨S80000, .i32⟩
  | 5 => ⟨S80000, .i32⟩
  | 6 => ⟨S80000, .i32⟩
  | 7 => ⟨S80000x1, .i32⟩
  | 8 => ⟨S80000x256, .f32⟩
  | 9 => ⟨S_, .i32⟩
  | 10 => ⟨S80000, .i32⟩
  | 11 => ⟨S80000, .i1⟩
  | 12 => ⟨S_, .i32⟩
  | 13 => ⟨S80000, .i32⟩
  | 14 => ⟨S80000, .i32⟩
  | 15 => ⟨S80000, .i32⟩
  | 16 => ⟨S80000x1, .i32⟩
  | 17 => ⟨S80000x256, .f32⟩
  | 18 => ⟨S80000x256, .f32⟩
  | 19 => ⟨S_, .f32⟩
  | 20 => ⟨S80000, .f32⟩
  | 21 => ⟨S_, .i32⟩
  | 22 => ⟨S80000, .i32⟩
  | 23 => ⟨S80000, .i1⟩
  | 24 => ⟨S_, .i32⟩
  | 25 => ⟨S80000, .i32⟩
  | 26 => ⟨S80000, .i32⟩
  | 27 => ⟨S80000, .i32⟩
  | 28 => ⟨S80000x1, .i32⟩
  | 29 => ⟨S80000x32, .f32⟩
  | 30 => ⟨S80000x1, .f32⟩
  | 31 => ⟨S80000x32, .f32⟩
  | 32 => ⟨S80000x32, .f32⟩
  | 33 => ⟨S_, .f32⟩
  | 34 => ⟨S10000x32, .f32⟩
  | 35 => ⟨S80000x1, .i32⟩
  | 36 => ⟨S10000x32, .f32⟩
  | 37 => ⟨S10000x32, .f32⟩
  | 38 => ⟨S1x32, .f32⟩
  | 39 => ⟨S10000x32, .f32⟩
  | 40 => ⟨S10000x32, .f32⟩
  | 41 => ⟨S10000x1, .f32⟩
  | 42 => ⟨S1x1, .f32⟩
  | 43 => ⟨S10000x1, .f32⟩
  | 44 => ⟨S10000x1, .f32⟩
  | 45 => ⟨S10000, .f32⟩
  | 46 => ⟨S10000x1, .f32⟩
  | 47 => ⟨S1x1, .f32⟩
  | 48 => ⟨S10000x1, .f32⟩
  | 49 => ⟨S10000x1, .f32⟩
  | 50 => ⟨S10000, .f32⟩
  | 51 => ⟨S10000, .f32⟩
  | 52 => ⟨S10000, .f32⟩
  | _ => ⟨S10000x9, .f32⟩

abbrev hbmTy (i : Nat) : BufTy := match i / 128 with
  | 0 => hbmTy0_0 i
  | 1 => hbmTy0_1 i
  | _ => ⟨S10000x9, .f32⟩

abbrev bufTy : (tb : Table) → Fin (tcTables nBuf tb) → BufTy
  | .hbm, ⟨i, _⟩ => hbmTy i
  | _, _ => ⟨S10000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_1 : Ref sig .tc := ⟨.hbm, 64, rfl⟩
abbrev main_v38 : Ref sig .tc := ⟨.hbm, 65, rfl⟩
abbrev main_v39 : Ref sig .tc := ⟨.hbm, 66, rfl⟩
abbrev main_cst_2 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c : Ref sig .tc := ⟨.hbm, 73, rfl⟩
abbrev main_v45 : Ref sig .tc := ⟨.hbm, 74, rfl⟩
abbrev main_v46 : Ref sig .tc := ⟨.hbm, 75, rfl⟩
abbrev main_c_3 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_4 : Ref sig .tc := ⟨.hbm, 82, rfl⟩
abbrev main_v52 : Ref sig .tc := ⟨.hbm, 83, rfl⟩
abbrev main_v53 : Ref sig .tc := ⟨.hbm, 84, rfl⟩
abbrev main_c_5 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_6 : Ref sig .tc := ⟨.hbm, 92, rfl⟩
abbrev main_v60 : Ref sig .tc := ⟨.hbm, 93, rfl⟩
abbrev main_c_7 : Ref sig .tc := ⟨.hbm, 94, rfl⟩
abbrev main_v61 : Ref sig .tc := ⟨.hbm, 95, rfl⟩
abbrev main_v62 : Ref sig .tc := ⟨.hbm, 96, rfl⟩
abbrev main_c_8 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_9 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_10 : Ref sig .tc := ⟨.hbm, 119, rfl⟩
abbrev main_v83 : Ref sig .tc := ⟨.hbm, 120, rfl⟩
abbrev main_v84 : Ref sig .tc := ⟨.hbm, 121, rfl⟩
abbrev main_cst_11 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_12 : Ref sig .tc := ⟨.hbm, 128, rfl⟩
abbrev main_v90 : Ref sig .tc := ⟨.hbm, 129, rfl⟩
abbrev main_v91 : Ref sig .tc := ⟨.hbm, 130, rfl⟩
abbrev main_c_13 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_14 : Ref sig .tc := ⟨.hbm, 137, rfl⟩
abbrev main_v97 : Ref sig .tc := ⟨.hbm, 138, rfl⟩
abbrev main_v98 : Ref sig .tc := ⟨.hbm, 139, rfl⟩
abbrev main_c_15 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_16 : Ref sig .tc := ⟨.hbm, 147, rfl⟩
abbrev main_v105 : Ref sig .tc := ⟨.hbm, 148, rfl⟩
abbrev main_c_17 : Ref sig .tc := ⟨.hbm, 149, rfl⟩
abbrev main_v106 : Ref sig .tc := ⟨.hbm, 150, rfl⟩
abbrev main_v107 : Ref sig .tc := ⟨.hbm, 151, rfl⟩
abbrev main_c_18 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_19 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S32 : S_.BroadcastsInDim S32 (![] : Fin 0 → Fin S32.rank)
  bcast_S_S10000x32 : S_.BroadcastsInDim S10000x32 (![] : Fin 0 → Fin S10000x32.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S10000 : S10000x1.ShapeCasts S10000
  slices_S2x80000_S1x80000_0_0 : S2x80000.Slices ![0, 0] S1x80000
  shapeCasts_S1x80000_S80000 : S1x80000.ShapeCasts S80000
  slices_S2x80000_S1x80000_1_0 : S2x80000.Slices ![1, 0] S1x80000
  reducesTo_S10000x2048_S10000_d1 : S10000x2048.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x2048_0_1 : S10000x1.BroadcastsInDim S10000x2048 (![0, 1] : Fin 2 → Fin S10000x2048.rank)
  bcast_S_S80000 : S_.BroadcastsInDim S80000 (![] : Fin 0 → Fin S80000.rank)
  bcast_S80000_S80000x1_0 : S80000.BroadcastsInDim S80000x1 (![0] : Fin 1 → Fin S80000x1.rank)
  reducesTo_S80000x2048_S80000_d1 : S80000x2048.ReducesTo [1] S80000
  bcast_S80000x1_S80000x32_0_1 : S80000x1.BroadcastsInDim S80000x32 (![0, 1] : Fin 2 → Fin S80000x32.rank)
  reducesTo_S10000x256_S10000_d1 : S10000x256.ReducesTo [1] S10000
  bcast_S10000x1_S10000x256_0_1 : S10000x1.BroadcastsInDim S10000x256 (![0, 1] : Fin 2 → Fin S10000x256.rank)
  reducesTo_S80000x256_S80000_d1 : S80000x256.ReducesTo [1] S80000
  dot_S10000x9_S9x32_S10000x32_1_0_0_1_n_n_wf : DotDims.WF S10000x9 S9x32 S10000x32 [1] [0] [0] [1] [] []
  dot_S10000x32_S32x32_S10000x32_1_0_0_1_n_n_wf : DotDims.WF S10000x32 S32x32 S10000x32 [1] [0] [0] [1] [] []
  dot_S10000x32_S32x1_S10000x1_1_0_0_1_n_n_wf : DotDims.WF S10000x32 S32x1 S10000x1 [1] [0] [0] [1] [] []
  gather_S10000x2048_S80000x1_S80000x2048_1_0_n_n_0_1_12048_wf : GatherDims.WF S10000x2048 S80000x1 S80000x2048 [1] [0] [] [0] [] 1 ![1, 2048]
  gather_S10000x32_S80000x1_S80000x32_1_0_n_n_0_1_132_wf : GatherDims.WF S10000x32 S80000x1 S80000x32 [1] [0] [] [0] [] 1 ![1, 32]
  scatter_S10000x32_S80000x1_S80000x32_1_0_0_1_wf : ScatterDims.WF S10000x32 S80000x1 S80000x32 [1] [0] [0] 1
  gather_S10000x256_S80000x1_S80000x256_1_0_n_n_0_1_1256_wf : GatherDims.WF S10000x256 S80000x1 S80000x256 [1] [0] [] [0] [] 1 ![1, 256]

variable [Facts₀]

def dot_S10000x9_S9x32_S10000x32_1_0_0_1_n_n : DotDims S10000x9 S9x32 S10000x32 where
  lhsContracting := [1]
  rhsContracting := [0]
  lhsNonContracting := [0]
  rhsNonContracting := [1]
  lhsBatch := []
  rhsBatch := []
  wf := dot_S10000x9_S9x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S10000x2048_S80000x1_S80000x2048_1_0_n_n_0_1_12048 : GatherDims S10000x2048 S80000x1 S80000x2048 where
  offsetDims := [1]
  collapsedSliceDims := [0]
  operandBatchingDims := []
  startIndicesBatchingDims := []
  startIndexMap := [0]
  indexVectorDim := 1
  sliceSizes := ![1, 2048]
  wf := gather_S10000x2048_S80000x1_S80000x2048_1_0_n_n_0_1_12048_wf
def gather_S10000x32_S80000x1_S80000x32_1_0_n_n_0_1_132 : GatherDims S10000x32 S80000x1 S80000x32 where
  offsetDims := [1]
  collapsedSliceDims := [0]
  operandBatchingDims := []
  startIndicesBatchingDims := []
  startIndexMap := [0]
  indexVectorDim := 1
  sliceSizes := ![1, 32]
  wf := gather_S10000x32_S80000x1_S80000x32_1_0_n_n_0_1_132_wf
def scatter_S10000x32_S80000x1_S80000x32_1_0_0_1 : ScatterDims S10000x32 S80000x1 S80000x32 where
  updateWindowDims := [1]
  insertedWindowDims := [0]
  scatterDimsToOperandDims := [0]
  indexVectorDim := 1
  wf := scatter_S10000x32_S80000x1_S80000x32_1_0_0_1_wf
def gather_S10000x256_S80000x1_S80000x256_1_0_n_n_0_1_1256 : GatherDims S10000x256 S80000x1 S80000x256 where
  offsetDims := [1]
  collapsedSliceDims := [0]
  operandBatchingDims := []
  startIndicesBatchingDims := []
  startIndexMap := [0]
  indexVectorDim := 1
  sliceSizes := ![1, 256]
  wf := gather_S10000x256_S80000x1_S80000x256_1_0_n_n_0_1_1256_wf

class Facts : Prop extends Facts₀ where

variable [Facts]
-- ==== Proof.Spec.lean ====
/-
  The functions the two programs are compared through, stated once over the reference's own host operations.

  Both programs compute, for a graph of 10000 nodes with two edge lists of 80000 edges each:
  a hidden row per node (an affine map, a batch normalization at fixed statistics, a leaky rectifier with one
  learned slope, a second affine map), a node score from it, and per edge list a message passing step — every
  edge carries its source node's hidden row scaled by the cosine of the two endpoints' visual rows, the messages
  are summed at their destination nodes, and the sum goes through an affine map and a scoring head.  The answer is
  the node score plus the two heads' scores.

  Three pieces of that computation take operands that are themselves results of gathers and scatters, so they are
  named here as functions of arbitrary operand arrays: the edge messages (one per visual width), a conv head, and
  the final sum.  Each is spelt exactly as the reference's operations spell it, so the reference's stages are
  these functions of earlier stages by unfolding alone.
-/
import proofs.«103407_j20023137534010_2_alg».proof.Proof.Gen.ReferenceIdeal.Read

noncomputable section

namespace Cert.Spec

open Idealize.ShloMosaic Cert.ReferenceIdeal Cert.ReferenceIdeal.Gen Cert.ReferenceIdeal.Read

variable {F : FTy → Type} [FloatOps F]

/-- The messages of the first edge list (visual width 2048): entry (e, j) is the gathered hidden entry
    hs (e, j) times the inner product over the width of the two gathered, normalized visual rows of edge e. -/
def edgeMsg0 (vs vd : (⟨S80000x2048, .f32⟩ : BufTy).Contents (Elt F)) (hs : (⟨S80000x32, .f32⟩ : BufTy).Contents (Elt F)) :
    (⟨S80000x32, .f32⟩ : BufTy).Contents (Elt F) :=
  mulf hs (broadcastInDim S80000x32 ![0, 1] bcast_S80000x1_S80000x32_0_1 (broadcastInDim S80000x1 ![0] bcast_S80000_S80000x1_0
    (Host.reduceAdd (mulf vs vd) (constant S_ .f32 0x00000000#32) reducesTo_S80000x2048_S80000_d1 h_S_)))

/-- The messages of the second edge list (visual width 256), the same function at the other width. -/
def edgeMsg1 (vs vd : (⟨S80000x256, .f32⟩ : BufTy).Contents (Elt F)) (hs : (⟨S80000x32, .f32⟩ : BufTy).Contents (Elt F)) :
    (⟨S80000x32, .f32⟩ : BufTy).Contents (Elt F) :=
  mulf hs (broadcastInDim S80000x32 ![0, 1] bcast_S80000x1_S80000x32_0_1 (broadcastInDim S80000x1 ![0] bcast_S80000_S80000x1_0
    (Host.reduceAdd (mulf vs vd) (constant S_ .f32 0x00000000#32) reducesTo_S80000x256_S80000_d1 h_S_)))

/-- A conv head: the aggregated messages through an affine map 32 → 32 and then an affine scoring map 32 → 1,
    one score per node, kept as a column. -/
def convHead (agg : (⟨S10000x32, .f32⟩ : BufTy).Contents (Elt F)) (wc : (⟨S32x32, .f32⟩ : BufTy).Contents (Elt F))
    (bc : (⟨S32, .f32⟩ : BufTy).Contents (Elt F)) (wp : (⟨S32x1, .f32⟩ : BufTy).Contents (Elt F)) (bp : (⟨S1, .f32⟩ : BufTy).Contents (Elt F)) :
    (⟨S10000x1, .f32⟩ : BufTy).Contents (Elt F) :=
  addf (Host.dotGeneral dot_S10000x32_S32x1_S10000x1_1_0_0_1_n_n none
      (addf (Host.dotGeneral dot_S10000x32_S32x32_S10000x32_1_0_0_1_n_n none agg wc)
        (broadcastInDim S10000x32 ![0, 1] bcast_S1x32_S10000x32_0_1 (broadcastInDim S1x32 ![1] bcast_S32_S1x32_1 bc))) wp)
    (broadcastInDim S10000x1 ![0, 1] bcast_S1x1_S10000x1_0_1 (broadcastInDim S1x1 ![1] bcast_S1_S1x1_1 bp))

/-- The final column: the node score plus the first head's score plus the second head's score, in that grouping. -/
def projOut (agg0 agg1 : (⟨S10000x32, .f32⟩ : BufTy).Contents (Elt F)) (ns : (⟨S10000x1, .f32⟩ : BufTy).Contents (Elt F))
    (wc0 : (⟨S32x32, .f32⟩ : BufTy).Contents (Elt F)) (bc0 : (⟨S32, .f32⟩ : BufTy).Contents (Elt F))
    (wc1 : (⟨S32x32, .f32⟩ : BufTy).Contents (Elt F)) (bc1 : (⟨S32, .f32⟩ : BufTy).Contents (Elt F))
    (wp0 : (⟨S32x1, .f32⟩ : BufTy).Contents (Elt F)) (bp0 : (⟨S1, .f32⟩ : BufTy).Contents (Elt F))
    (wp1 : (⟨S32x1, .f32⟩ : BufTy).Contents (Elt F)) (bp1 : (⟨S1, .f32⟩ : BufTy).Contents (Elt F)) :
    (⟨S10000x1, .f32⟩ : BufTy).Contents (Elt F) :=
  addf (addf ns (convHead agg0 wc0 bc0 wp0 bp0)) (convHead agg1 wc1 bc1 wp1 bp1)

end Cert.Spec

end
-- ==== Proof.EncodeForm.lean ====
/-
  The encoder, one entry at a time, over the extended reals.

  A node has nine features.  They go through an affine map to 32 channels; each channel is normalized with
  fixed statistics (subtract the mean, scale by gamma and by the reciprocal square root of the variance plus a
  small constant, add beta); a leaky rectifier keeps a nonnegative value and multiplies a negative one by one
  learned slope; a second affine map gives the node's hidden row of 32 entries; and the hidden row's inner
  product with one column plus one constant is the node's score.

  The functions below spell one entry of each of those stages from the node's feature row and the parameter
  arrays, in exactly the order of operations both programs use (products and sums in the same grouping), so each
  program's result read at an index is one of them by unfolding its pointwise operations and by reading each
  contraction as a finite sum.
-/
import Idealize.ShloMosaic.Lib.ValueIdx
import Idealize.ShloMosaic.PureOps.Ideal.Laws

noncomputable section

namespace Cert.KernelIdeal.RegionValue.Encode

open Idealize.ShloMosaic Idealize.ShloMosaic.ValueIdx

/-- One normalized channel from its ingredients: the first affine map's value `m + b1`, the mean `mu`, the scale
    `g`, the reciprocal root `r` and the shift `be`, grouped as `((g * ((m + b1) - mu)) * r) + be`. -/
def preOf (m b1 mu g r be : EReal) : EReal := g * (m + b1 - mu) * r + be

/-- The leaky rectifier with slope `s`: `h` where `h` is at least zero, `s * h` elsewhere. -/
def actOf (s h : EReal) : EReal :=
  Scalar.select (Ideal.cmp .oge h (Ideal.ofBits .f32 0x00000000#32)) h (s * h)

/-- Channel `k` of a node after the first affine map and the normalization: the feature row `xr` against column
    `k` of the first weight matrix, then the channel's statistics. -/
def encPre (xr : Fin 9 → EReal) (w1 : (⟨2, ![9, 32]⟩ : Shape).Idx → EReal)
    (b1 g be mu var : (⟨1, ![32]⟩ : Shape).Idx → EReal) (k : Fin 32) : EReal :=
  preOf (∑ j : Fin 9, xr j * w1 (ix2 j k)) (b1 (ix1 k)) (mu (ix1 k)) (g (ix1 k))
    (Ideal.rsqrt (var (ix1 k) + Ideal.ofBits .f32 0x3727C5AC#32)) (be (ix1 k))

/-- Channel `k` after the rectifier with slope `s`. -/
def encAct (xr : Fin 9 → EReal) (w1 : (⟨2, ![9, 32]⟩ : Shape).Idx → EReal)
    (b1 g be mu var : (⟨1, ![32]⟩ : Shape).Idx → EReal) (s : EReal) (k : Fin 32) : EReal :=
  actOf s (encPre xr w1 b1 g be mu var k)

/-- Entry `q` of the node's hidden row: the rectified channels against column `q` of the second weight matrix,
    plus the second bias. -/
def encHidden (xr : Fin 9 → EReal) (w1 : (⟨2, ![9, 32]⟩ : Shape).Idx → EReal)
    (b1 g be mu var : (⟨1, ![32]⟩ : Shape).Idx → EReal) (s : EReal)
    (w2 : (⟨2, ![32, 32]⟩ : Shape).Idx → EReal) (b2 : (⟨1, ![32]⟩ : Shape).Idx → EReal) (q : Fin 32) : EReal :=
  (∑ k : Fin 32, encAct xr w1 b1 g be mu var s k * w2 (ix2 k q)) + b2 (ix1 q)

/-- The node's score: its hidden row against the scoring column, plus the scoring constant. -/
def encScore (xr : Fin 9 → EReal) (w1 : (⟨2, ![9, 32]⟩ : Shape).Idx → EReal)
    (b1 g be mu var : (⟨1, ![32]⟩ : Shape).Idx → EReal) (s : EReal)
    (w2 : (⟨2, ![32, 32]⟩ : Shape).Idx → EReal) (b2 : (⟨1, ![32]⟩ : Shape).Idx → EReal)
    (wn : (⟨2, ![32, 1]⟩ : Shape).Idx → EReal) (bn : (⟨1, ![1]⟩ : Shape).Idx → EReal) : EReal :=
  (∑ q : Fin 32, encHidden xr w1 b1 g be mu var s w2 b2 q * wn (ix2 q (0 : Fin 1))) + bn (ix1 (0 : Fin 1))

end Cert.KernelIdeal.RegionValue.Encode

end
-- ==== Proof.EncodeArith.lean ====
/-
  What the encoder's body computes, read at one entry of a block of 1000 nodes.

  The body's values are named payloads over the blocks it loads.  At the exact arithmetic every narrowing to a
  shorter format is the identity and every pointwise operation is the extended reals' own, so a payload read at
  row p and column q unfolds to arithmetic on entries; the three non-pointwise steps are read by one lemma each:
  a vector of 32 entries cast to one row and repeated down the block reads its entry at the column, a vector of
  one entry cast and repeated reads that entry, and a matrix product into a zero accumulator is the finite sum
  over the one contracted axis of the products of the two operands' entries.  Put together, the stored hidden
  block at (p, q) is the hidden entry q of the node in row p, and the stored score block at row p is that node's
  score, as functions of row p of the feature block and of the parameter arrays.
-/
import proofs.«103407_j20023137534010_2_alg».proof.Proof.Gen.KernelIdeal.Skeleton
import proofs.«103407_j20023137534010_2_alg».proof.Proof.EncodeForm
import Idealize.ShloMosaic.Lib.Pipeline.Value
import Idealize.ShloMosaic.Lib.ValueIdx
import Idealize.ShloMosaic.PureOps.Ideal.Laws

noncomputable section

namespace Cert.KernelIdeal.RegionValue.Encode

open Idealize.ShloMosaic Idealize.ShloMosaic.ValueIdx
open Cert.KernelIdeal Cert.KernelIdeal.Gen

/-! ## Layout steps -/

/-- A vector of 32 entries, cast to a single row and repeated down 1000 rows, reads at (p, k) its entry k. -/
theorem row32_apply (v : FVec Ideal S32 .f32) (h1 : S32.ShapeCasts S1x32) (h2 : S1x32.Broadcasts S1000x32)
    (p : Fin 1000) (k : Fin 32) :
    broadcastTo S1000x32 (shapeCast S1x32 v h1) h2 (ix2 p k) = v (ix1 k) := by
  refine (broadcastTo_apply _ h2 (ix2 p k) (ix2 (0 : Fin 1) k) fun a => ?_).trans
    (shapeCast_apply v h1 (ix2 (0 : Fin 1) k) (ix1 k) ?_)
  · match a with
    | ⟨0, _⟩ => show (0 : Nat) = if (1 : Nat) = 1 then 0 else _; rw [if_pos rfl]
    | ⟨1, _⟩ => show k.val = if (32 : Nat) = 1 then 0 else k.val; rw [if_neg (by decide)]
  · rw [Shape.rowMajor_val_one, Shape.rowMajor_val_two]
    show k.val = 0 * 32 + k.val
    omega

/-- A vector of one entry, cast to a 1 × 1 array and repeated down 1000 rows, reads that entry everywhere. -/
theorem one_apply (v : FVec Ideal S1 .f32) (h1 : S1.ShapeCasts S1x1) (h2 : S1x1.Broadcasts S1000x1) (p : Fin 1000) :
    broadcastTo S1000x1 (shapeCast S1x1 v h1) h2 (ix2 p (0 : Fin 1)) = v (ix1 (0 : Fin 1)) := by
  refine (broadcastTo_apply _ h2 (ix2 p (0 : Fin 1)) (ix2 (0 : Fin 1) (0 : Fin 1)) fun a => ?_).trans
    (shapeCast_apply v h1 (ix2 (0 : Fin 1) (0 : Fin 1)) (ix1 (0 : Fin 1)) ?_)
  · match a with
    | ⟨0, _⟩ => show (0 : Nat) = if (1 : Nat) = 1 then 0 else _; rw [if_pos rfl]
    | ⟨1, _⟩ => show (0 : Nat) = if (1 : Nat) = 1 then 0 else _; rw [if_pos rfl]
  · rw [Shape.rowMajor_val_one, Shape.rowMajor_val_two]
    rfl

/-! ## The three matrix products

  Each contracts the left operand's columns with the right operand's rows.  The operand indices the product
  reads at output entry (p, q) and contraction coordinate k are (p, k) and (k, q); re-indexing the sum over
  the contraction's index set by its one coordinate gives the plain sum over k. -/

theorem mmIn_lhs0 (i : S1000x32.Idx) (c : dot_S1000x9_S9x32_S1000x32_1_0_0_1_n_n.contr.Idx) :
    (dot_S1000x9_S9x32_S1000x32_1_0_0_1_n_n.lhsIdx i c 0).val = (i 0).val := by
  unfold DotDims.lhsIdx
  rw [dif_neg (show ¬(0 : Fin S1000x9.rank) ∈ dot_S1000x9_S9x32_S1000x32_1_0_0_1_n_n.lhsBatch by decide), dif_pos (show (0 : Fin S1000x9.rank) ∈ dot_S1000x9_S9x32_S1000x32_1_0_0_1_n_n.lhsNonContracting by decide)]
  rfl
theorem mmIn_lhs1 (i : S1000x32.Idx) (c : dot_S1000x9_S9x32_S1000x32_1_0_0_1_n_n.contr.Idx) :
    (dot_S1000x9_S9x32_S1000x32_1_0_0_1_n_n.lhsIdx i c 1).val = (c ⟨0, by decide⟩).val :=
  dot_S1000x9_S9x32_S1000x32_1_0_0_1_n_n.lhsIdx_val_of_single rfl i c
theorem mmIn_rhs0 (i : S1000x32.Idx) (c : dot_S1000x9_S9x32_S1000x32_1_0_0_1_n_n.contr.Idx) :
    (dot_S1000x9_S9x32_S1000x32_1_0_0_1_n_n.rhsIdx i c 0).val = (c ⟨0, by decide⟩).val :=
  dot_S1000x9_S9x32_S1000x32_1_0_0_1_n_n.rhsIdx_val_of_single rfl i c
theorem mmIn_rhs1 (i : S1000x32.Idx) (c : dot_S1000x9_S9x32_S1000x32_1_0_0_1_n_n.contr.Idx) :
    (dot_S1000x9_S9x32_S1000x32_1_0_0_1_n_n.rhsIdx i c 1).val = (i 1).val := by
  unfold DotDims.rhsIdx
  rw [dif_neg (show ¬(1 : Fin S9x32.rank) ∈ dot_S1000x9_S9x32_S1000x32_1_0_0_1_n_n.rhsBatch by decide), dif_pos (show (1 : Fin S9x32.rank) ∈ dot_S1000x9_S9x32_S1000x32_1_0_0_1_n_n.rhsNonContracting by decide)]
  rfl

/-- The first product, features [1000, 9] by weights [9, 32]: entry (p, q) is the sum over the nine features. -/
theorem mmIn_apply (l : FVec Ideal S1000x9 .bf16) (r : FVec Ideal S9x32 .bf16) (p : Fin 1000) (q : Fin 32) :
    matmul dot_S1000x9_S9x32_S1000x32_1_0_0_1_n_n none l r (constant (F := Ideal) S1000x32 .f32 0x00000000#32) (ix2 p q)
      = ∑ k : Fin 9, l (ix2 p k) * r (ix2 k q) := by
  refine (Ideal.matmul_constant_zero_apply dot_S1000x9_S9x32_S1000x32_1_0_0_1_n_n none l r (ix2 p q)).trans ?_
  rw [← Equiv.sum_comp (contrEquiv1 dot_S1000x9_S9x32_S1000x32_1_0_0_1_n_n 9 rfl rfl).symm]
  refine Finset.sum_congr rfl fun k _ => ?_
  have hk := contrEquiv1_symm_val dot_S1000x9_S9x32_S1000x32_1_0_0_1_n_n 9 rfl rfl k
  have el : dot_S1000x9_S9x32_S1000x32_1_0_0_1_n_n.lhsIdx (ix2 p q) ((contrEquiv1 dot_S1000x9_S9x32_S1000x32_1_0_0_1_n_n 9 rfl rfl).symm k) = ix2 p k := funext fun a => Fin.ext (by
    match a with
    | ⟨0, _⟩ => exact mmIn_lhs0 _ _
    | ⟨1, _⟩ => exact (mmIn_lhs1 _ _).trans hk)
  have er : dot_S1000x9_S9x32_S1000x32_1_0_0_1_n_n.rhsIdx (ix2 p q) ((contrEquiv1 dot_S1000x9_S9x32_S1000x32_1_0_0_1_n_n 9 rfl rfl).symm k) = ix2 k q := funext fun a => Fin.ext (by
    match a with
    | ⟨0, _⟩ => exact (mmIn_rhs0 _ _).trans hk
    | ⟨1, _⟩ => exact mmIn_rhs1 _ _)
  rw [el, er]

theorem mmMid_lhs0 (i : S1000x32.Idx) (c : dot_S1000x32_S32x32_S1000x32_1_0_0_1_n_n.contr.Idx) :
    (dot_S1000x32_S32x32_S1000x32_1_0_0_1_n_n.lhsIdx i c 0).val = (i 0).val := by
  unfold DotDims.lhsIdx
  rw [dif_neg (show ¬(0 : Fin S1000x32.rank) ∈ dot_S1000x32_S32x32_S1000x32_1_0_0_1_n_n.lhsBatch by decide), dif_pos (show (0 : Fin S1000x32.rank) ∈ dot_S1000x32_S32x32_S1000x32_1_0_0_1_n_n.lhsNonContracting by decide)]
  rfl
theorem mmMid_lhs1 (i : S1000x32.Idx) (c : dot_S1000x32_S32x32_S1000x32_1_0_0_1_n_n.contr.Idx) :
    (dot_S1000x32_S32x32_S1000x32_1_0_0_1_n_n.lhsIdx i c 1).val = (c ⟨0, by decide⟩).val :=
  dot_S1000x32_S32x32_S1000x32_1_0_0_1_n_n.lhsIdx_val_of_single rfl i c
theorem mmMid_rhs0 (i : S1000x32.Idx) (c : dot_S1000x32_S32x32_S1000x32_1_0_0_1_n_n.contr.Idx) :
    (dot_S1000x32_S32x32_S1000x32_1_0_0_1_n_n.rhsIdx i c 0).val = (c ⟨0, by decide⟩).val :=
  dot_S1000x32_S32x32_S1000x32_1_0_0_1_n_n.rhsIdx_val_of_single rfl i c
theorem mmMid_rhs1 (i : S1000x32.Idx) (c : dot_S1000x32_S32x32_S1000x32_1_0_0_1_n_n.contr.Idx) :
    (dot_S1000x32_S32x32_S1000x32_1_0_0_1_n_n.rhsIdx i c 1).val = (i 1).val := by
  unfold DotDims.rhsIdx
  rw [dif_neg (show ¬(1 : Fin S32x32.rank) ∈ dot_S1000x32_S32x32_S1000x32_1_0_0_1_n_n.rhsBatch by decide), dif_pos (show (1 : Fin S32x32.rank) ∈ dot_S1000x32_S32x32_S1000x32_1_0_0_1_n_n.rhsNonContracting by decide)]
  rfl

/-- The second product, channels [1000, 32] by weights [32, 32]: entry (p, q) is the sum over the 32 channels. -/
theorem mmMid_apply (l : FVec Ideal S1000x32 .bf16) (r : FVec Ideal S32x32 .bf16) (p : Fin 1000) (q : Fin 32) :
    matmul dot_S1000x32_S32x32_S1000x32_1_0_0_1_n_n none l r (constant (F := Ideal) S1000x32 .f32 0x00000000#32) (ix2 p q)
      = ∑ k : Fin 32, l (ix2 p k) * r (ix2 k q) := by
  refine (Ideal.matmul_constant_zero_apply dot_S1000x32_S32x32_S1000x32_1_0_0_1_n_n none l r (ix2 p q)).trans ?_
  rw [← Equiv.sum_comp (contrEquiv1 dot_S1000x32_S32x32_S1000x32_1_0_0_1_n_n 32 rfl rfl).symm]
  refine Finset.sum_congr rfl fun k _ => ?_
  have hk := contrEquiv1_symm_val dot_S1000x32_S32x32_S1000x32_1_0_0_1_n_n 32 rfl rfl k
  have el : dot_S1000x32_S32x32_S1000x32_1_0_0_1_n_n.lhsIdx (ix2 p q) ((contrEquiv1 dot_S1000x32_S32x32_S1000x32_1_0_0_1_n_n 32 rfl rfl).symm k) = ix2 p k := funext fun a => Fin.ext (by
    match a with
    | ⟨0, _⟩ => exact mmMid_lhs0 _ _
    | ⟨1, _⟩ => exact (mmMid_lhs1 _ _).trans hk)
  have er : dot_S1000x32_S32x32_S1000x32_1_0_0_1_n_n.rhsIdx (ix2 p q) ((contrEquiv1 dot_S1000x32_S32x32_S1000x32_1_0_0_1_n_n 32 rfl rfl).symm k) = ix2 k q := funext fun a => Fin.ext (by
    match a with
    | ⟨0, _⟩ => exact (mmMid_rhs0 _ _).trans hk
    | ⟨1, _⟩ => exact mmMid_rhs1 _ _)
  rw [el, er]

theorem mmOut_lhs0 (i : S1000x1.Idx) (c : dot_S1000x32_S32x1_S1000x1_1_0_0_1_n_n.contr.Idx) :
    (dot_S1000x32_S32x1_S1000x1_1_0_0_1_n_n.lhsIdx i c 0).val = (i 0).val := by
  unfold DotDims.lhsIdx
  rw [dif_neg (show ¬(0 : Fin S1000x32.rank) ∈ dot_S1000x32_S32x1_S1000x1_1_0_0_1_n_n.lhsBatch by decide), dif_pos (show (0 : Fin S1000x32.rank) ∈ dot_S1000x32_S32x1_S1000x1_1_0_0_1_n_n.lhsNonContracting by decide)]
  rfl
theorem mmOut_lhs1 (i : S1000x1.Idx) (c : dot_S1000x32_S32x1_S1000x1_1_0_0_1_n_n.contr.Idx) :
    (dot_S1000x32_S32x1_S1000x1_1_0_0_1_n_n.lhsIdx i c 1).val = (c ⟨0, by decide⟩).val :=
  dot_S1000x32_S32x1_S1000x1_1_0_0_1_n_n.lhsIdx_val_of_single rfl i c
theorem mmOut_rhs0 (i : S1000x1.Idx) (c : dot_S1000x32_S32x1_S1000x1_1_0_0_1_n_n.contr.Idx) :
    (dot_S1000x32_S32x1_S1000x1_1_0_0_1_n_n.rhsIdx i c 0).val = (c ⟨0, by decide⟩).val :=
  dot_S1000x32_S32x1_S1000x1_1_0_0_1_n_n.rhsIdx_val_of_single rfl i c
theorem mmOut_rhs1 (i : S1000x1.Idx) (c : dot_S1000x32_S32x1_S1000x1_1_0_0_1_n_n.contr.Idx) :
    (dot_S1000x32_S32x1_S1000x1_1_0_0_1_n_n.rhsIdx i c 1).val = (i 1).val := by
  unfold DotDims.rhsIdx
  rw [dif_neg (show ¬(1 : Fin S32x1.rank) ∈ dot_S1000x32_S32x1_S1000x1_1_0_0_1_n_n.rhsBatch by decide), dif_pos (show (1 : Fin S32x1.rank) ∈ dot_S1000x32_S32x1_S1000x1_1_0_0_1_n_n.rhsNonContracting by decide)]
  rfl

/-- The scoring product, hidden rows [1000, 32] by one column [32, 1]: entry (p, 0) is the sum over the row. -/
theorem mmOut_apply (l : FVec Ideal S1000x32 .bf16) (r : FVec Ideal S32x1 .bf16) (p : Fin 1000) (q : Fin 1) :
    matmul dot_S1000x32_S32x1_S1000x1_1_0_0_1_n_n none l r (constant (F := Ideal) S1000x1 .f32 0x00000000#32) (ix2 p q)
      = ∑ k : Fin 32, l (ix2 p k) * r (ix2 k q) := by
  refine (Ideal.matmul_constant_zero_apply dot_S1000x32_S32x1_S1000x1_1_0_0_1_n_n none l r (ix2 p q)).trans ?_
  rw [← Equiv.sum_comp (contrEquiv1 dot_S1000x32_S32x1_S1000x1_1_0_0_1_n_n 32 rfl rfl).symm]
  refine Finset.sum_congr rfl fun k _ => ?_
  have hk := contrEquiv1_symm_val dot_S1000x32_S32x1_S1000x1_1_0_0_1_n_n 32 rfl rfl k
  have el : dot_S1000x32_S32x1_S1000x1_1_0_0_1_n_n.lhsIdx (ix2 p q) ((contrEquiv1 dot_S1000x32_S32x1_S1000x1_1_0_0_1_n_n 32 rfl rfl).symm k) = ix2 p k := funext fun a => Fin.ext (by
    match a with
    | ⟨0, _⟩ => exact mmOut_lhs0 _ _
    | ⟨1, _⟩ => exact (mmOut_lhs1 _ _).trans hk)
  have er : dot_S1000x32_S32x1_S1000x1_1_0_0_1_n_n.rhsIdx (ix2 p q) ((contrEquiv1 dot_S1000x32_S32x1_S1000x1_1_0_0_1_n_n 32 rfl rfl).symm k) = ix2 k q := funext fun a => Fin.ext (by
    match a with
    | ⟨0, _⟩ => exact (mmOut_rhs0 _ _).trans hk
    | ⟨1, _⟩ => exact mmOut_rhs1 _ _)
  rw [el, er]

/-! ## The payloads at an entry -/

/-- The second product's value at (p, q): the rectified, normalized channels of row p against column q of the
    second weight matrix.  The slope is the one entry of the 1 × 1 block the body extracts. -/
theorem pay3_apply (x0 : Vec Ideal S1000x9 .f32) (w1 : Vec Ideal S9x32 .f32) (b1 g be mu var : Vec Ideal S32 .f32)
    (a : Vec Ideal S1x1 .f32) (w2 : Vec Ideal S32x32 .f32) (p : Fin 1000) (q : Fin 32) :
    k0_pay3 (F := Ideal) x0 w1 b1 g be mu var a w2 (ix2 p q)
      = ∑ k : Fin 32, encAct (fun j => x0 (ix2 p j)) w1 b1 g be mu var (extractAt ![0, 0] a inpos_S1x1_p0_0) k * w2 (ix2 k q) := by
  unfold k0_pay3
  refine (mmMid_apply _ _ p q).trans (Finset.sum_congr rfl fun k _ => ?_)
  simp only [truncf_apply, select_apply, cmpf_apply, mulf_apply, addf_apply, subf_apply, broadcast_apply,
    row32_apply, mmIn_apply]
  rfl

/-- The stored hidden block at (p, q): the second product plus the second bias at column q. -/
theorem pay1_apply (v38 : FVec Ideal S1000x32 .f32) (b2 : Vec Ideal S32 .f32) (p : Fin 1000) (q : Fin 32) :
    k0_pay1 (F := Ideal) v38 (k0_pay4 b2) (ix2 p q) = v38 (ix2 p q) + b2 (ix1 q) := by
  unfold k0_pay1 k0_pay4
  simp only [addf_apply, row32_apply]

/-- THE HIDDEN BLOCK at (p, q) is hidden entry q of the node whose features are row p of the feature block. -/
theorem hidden_block_apply (x0 : Vec Ideal S1000x9 .f32) (w1 : Vec Ideal S9x32 .f32) (b1 g be mu var : Vec Ideal S32 .f32)
    (a : Vec Ideal S1x1 .f32) (w2 : Vec Ideal S32x32 .f32) (b2 : Vec Ideal S32 .f32) (p : Fin 1000) (q : Fin 32) :
    k0_pay1 (F := Ideal) (k0_pay3 x0 w1 b1 g be mu var a w2) (k0_pay4 b2) (ix2 p q)
      = encHidden (fun j => x0 (ix2 p j)) w1 b1 g be mu var (extractAt ![0, 0] a inpos_S1x1_p0_0) w2 b2 q := by
  rw [pay1_apply, pay3_apply]
  rfl

/-- The stored score block at row p: the stored hidden row p against the scoring column, plus the constant. -/
theorem pay2_apply (v38 : FVec Ideal S1000x32 .f32) (v40 : FVec Ideal S1x32 .f32) (wn : Vec Ideal S32x1 .f32)
    (bn : Vec Ideal S1 .f32) (p : Fin 1000) :
    k0_pay2 (F := Ideal) v38 v40 wn bn (ix2 p (0 : Fin 1))
      = (∑ q : Fin 32, k0_pay1 v38 v40 (ix2 p q) * wn (ix2 q (0 : Fin 1))) + bn (ix1 (0 : Fin 1)) := by
  unfold k0_pay2
  simp only [addf_apply, one_apply, mmOut_apply, truncf_apply]

/-- THE SCORE BLOCK at row p is the score of the node whose features are row p of the feature block. -/
theorem score_block_apply (x0 : Vec Ideal S1000x9 .f32) (w1 : Vec Ideal S9x32 .f32) (b1 g be mu var : Vec Ideal S32 .f32)
    (a : Vec Ideal S1x1 .f32) (w2 : Vec Ideal S32x32 .f32) (b2 : Vec Ideal S32 .f32) (wn : Vec Ideal S32x1 .f32)
    (bn : Vec Ideal S1 .f32) (p : Fin 1000) :
    k0_pay2 (F := Ideal) (k0_pay3 x0 w1 b1 g be mu var a w2) (k0_pay4 b2) wn bn (ix2 p (0 : Fin 1))
      = encScore (fun j => x0 (ix2 p j)) w1 b1 g be mu var (extractAt ![0, 0] a inpos_S1x1_p0_0) w2 b2 wn bn := by
  rw [pay2_apply]
  unfold encScore
  refine congrArg (· + bn (ix1 (0 : Fin 1))) (Finset.sum_congr rfl fun q _ => ?_)
  rw [hidden_block_apply]

end Cert.KernelIdeal.RegionValue.Encode

end
-- ==== Proof.EncodeRef.lean ====
/-
  The reference's encoder stages, read at one entry.

  The reference computes the hidden rows and the node scores of all 10000 nodes with whole-array host
  operations: three contractions, row vectors broadcast down the rows, and pointwise arithmetic.  Each stage
  read at an index is given by the stage before it at an index; chaining those readings from the last stage
  back to the arguments, and naming the composed index functions by coordinates (row r of the features, entry k
  of a parameter vector, entry (k, q) of a weight matrix), the hidden stage at (r, q) is hidden entry q of the
  node whose features are row r, and the score stage at row r is that node's score.
-/
import proofs.«103407_j20023137534010_2_alg».proof.Proof.Gen.ReferenceIdeal.Read
import proofs.«103407_j20023137534010_2_alg».proof.Proof.EncodeForm
import Idealize.ShloMosaic.Lib.ValueIdx
import Idealize.ShloMosaic.PureOps.Ideal.Laws

noncomputable section

namespace Cert.KernelIdeal.RegionValue.Encode

open Idealize.ShloMosaic Idealize.ShloMosaic.ValueIdx
open Cert.ReferenceIdeal.Read

/-- An index of a 32-vector whose coordinate is k is the index built from k. -/
theorem idx32_eq (f : (⟨1, ![32]⟩ : Shape).Idx) (k : Fin 32) (h : (f 0).val = k.val) : f = ix1 k :=
  funext fun a => Fin.ext (by match a with | ⟨0, _⟩ => exact h)

/-- An index of a rank-2 array whose coordinates are a and b is the index built from them. -/
theorem idx2_eq {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- The rectified stage at (r, k): channel k, after normalization and the rectifier, of the node in row r. -/
theorem ref_act_apply (x0 : (⟨Cert.ReferenceIdeal.S10000x9, .f32⟩ : BufTy).Contents (Elt Ideal)) (x5 : (⟨Cert.ReferenceIdeal.S9x32, .f32⟩ : BufTy).Contents (Elt Ideal))
    (x6 x7 x8 x9 x10 : (⟨Cert.ReferenceIdeal.S32, .f32⟩ : BufTy).Contents (Elt Ideal)) (x11 : (⟨Cert.ReferenceIdeal.S_, .f32⟩ : BufTy).Contents (Elt Ideal))
    (r : Fin 10000) (k : Fin 32) :
    val_main_v23 (F := Ideal) x0 x5 x6 x7 x8 x9 x10 x11 (ix2 r k)
      = encAct (fun j => x0 (ix2 r j)) x5 x6 x7 x8 x9 x10 (x11 ix0) k := by
  have el : ∀ j : Fin 9, lidx_main_v0 (ix2 r k) j = ix2 r j := fun j => idx2_eq _ r j rfl rfl
  have er : ∀ j : Fin 9, ridx_main_v0 (ix2 r k) j = ix2 j k := fun j => idx2_eq _ j k rfl rfl
  have e2 : idx_main_v1 (idx_main_v2 (ix2 r k)) = ix1 k := idx32_eq _ k rfl
  have e5 : idx_main_v4 (idx_main_v5 (ix2 r k)) = ix1 k := idx32_eq _ k rfl
  have e8 : idx_main_v7 (idx_main_v8 (ix2 r k)) = ix1 k := idx32_eq _ k rfl
  have e14 : idx_main_v13 (idx_main_v14 (ix2 r k)) = ix1 k := idx32_eq _ k rfl
  have e17 : idx_main_v16 (idx_main_v17 (ix2 r k)) = ix1 k := idx32_eq _ k rfl
  rw [val_main_v23_apply, val_main_v20_apply, val_main_v22_apply, val_main_v21_apply, val_main_v19_apply,
    val_main_cst_0_apply, val_main_v18_apply, val_main_v17_apply, val_main_v16_apply, val_main_v15_apply,
    val_main_v14_apply, val_main_v13_apply, val_main_v12_apply, val_main_v11_apply, val_main_v10_apply,
    val_main_cst_apply, val_main_v9_apply, val_main_v8_apply, val_main_v7_apply, val_main_v6_apply,
    val_main_v5_apply, val_main_v4_apply, val_main_v3_apply, val_main_v2_apply, val_main_v1_apply,
    val_main_v0_apply, e2, e5, e8, e14, e17]
  simp only [el, er]
  rfl

/-- THE HIDDEN STAGE at (r, q) is hidden entry q of the node whose features are row r. -/
theorem ref_hidden_apply (x0 : (⟨Cert.ReferenceIdeal.S10000x9, .f32⟩ : BufTy).Contents (Elt Ideal)) (x5 : (⟨Cert.ReferenceIdeal.S9x32, .f32⟩ : BufTy).Contents (Elt Ideal))
    (x6 x7 x8 x9 x10 : (⟨Cert.ReferenceIdeal.S32, .f32⟩ : BufTy).Contents (Elt Ideal)) (x11 : (⟨Cert.ReferenceIdeal.S_, .f32⟩ : BufTy).Contents (Elt Ideal))
    (x12 : (⟨Cert.ReferenceIdeal.S32x32, .f32⟩ : BufTy).Contents (Elt Ideal)) (x13 : (⟨Cert.ReferenceIdeal.S32, .f32⟩ : BufTy).Contents (Elt Ideal))
    (r : Fin 10000) (q : Fin 32) :
    val_main_v27 (F := Ideal) x0 x5 x6 x7 x8 x9 x10 x11 x12 x13 (ix2 r q)
      = encHidden (fun j => x0 (ix2 r j)) x5 x6 x7 x8 x9 x10 (x11 ix0) x12 x13 q := by
  have el : ∀ k : Fin 32, lidx_main_v24 (ix2 r q) k = ix2 r k := fun k => idx2_eq _ r k rfl rfl
  have er : ∀ k : Fin 32, ridx_main_v24 (ix2 r q) k = ix2 k q := fun k => idx2_eq _ k q rfl rfl
  have e26 : idx_main_v25 (idx_main_v26 (ix2 r q)) = ix1 q := idx32_eq _ q rfl
  rw [val_main_v27_apply, val_main_v24_apply, val_main_v26_apply, val_main_v25_apply, e26]
  simp only [el, er, ref_act_apply]
  rfl

/-- THE SCORE STAGE at row r is the score of the node whose features are row r. -/
theorem ref_score_apply (x0 : (⟨Cert.ReferenceIdeal.S10000x9, .f32⟩ : BufTy).Contents (Elt Ideal)) (x5 : (⟨Cert.ReferenceIdeal.S9x32, .f32⟩ : BufTy).Contents (Elt Ideal))
    (x6 x7 x8 x9 x10 : (⟨Cert.ReferenceIdeal.S32, .f32⟩ : BufTy).Contents (Elt Ideal)) (x11 : (⟨Cert.ReferenceIdeal.S_, .f32⟩ : BufTy).Contents (Elt Ideal))
    (x12 : (⟨Cert.ReferenceIdeal.S32x32, .f32⟩ : BufTy).Contents (Elt Ideal)) (x13 : (⟨Cert.ReferenceIdeal.S32, .f32⟩ : BufTy).Contents (Elt Ideal))
    (x14 : (⟨Cert.ReferenceIdeal.S32x1, .f32⟩ : BufTy).Contents (Elt Ideal)) (x15 : (⟨Cert.ReferenceIdeal.S1, .f32⟩ : BufTy).Contents (Elt Ideal))
    (r : Fin 10000) :
    val_main_v31 (F := Ideal) x0 x5 x6 x7 x8 x9 x10 x11 x12 x13 x14 x15 (ix2 r (0 : Fin 1))
      = encScore (fun j => x0 (ix2 r j)) x5 x6 x7 x8 x9 x10 (x11 ix0) x12 x13 x14 x15 := by
  have el : ∀ q : Fin 32, lidx_main_v28 (ix2 r (0 : Fin 1)) q = ix2 r q := fun q => idx2_eq _ r q rfl rfl
  have er : ∀ q : Fin 32, ridx_main_v28 (ix2 r (0 : Fin 1)) q = ix2 q (0 : Fin 1) := fun q => idx2_eq _ q 0 rfl rfl
  have e30 : idx_main_v29 (idx_main_v30 (ix2 r (0 : Fin 1))) = ix1 (0 : Fin 1) :=
    funext fun a => Fin.ext (by match a with | ⟨0, _⟩ => rfl)
  rw [val_main_v31_apply, val_main_v28_apply, val_main_v30_apply, val_main_v29_apply, e30]
  simp only [el, er, ref_hidden_apply]
  rfl

end Cert.KernelIdeal.RegionValue.Encode

end
-- ==== Proof.Encode.lean ====
/-
  From the encoder's blocks to its two output arrays.

  The region runs over ten grid points.  At point t the feature window holds rows 1000 t … 1000 t + 999 of the
  feature array, every parameter window holds its whole array, and the two output windows are written back to
  rows 1000 t … 1000 t + 999 of the hidden array and of the score array.  A block's element sits in its array, on
  each axis, at the block index times the block size plus its coordinate inside the block; the block indices of
  the printed index maps are decided once over the ten points.  So what point t writes back is block t of ONE
  function of the region's input arrays — hidden entry q, or the score, of the node in row r, which is what the
  reference's stages are at (r, q) and (r, 0).  Every row r lies in the block of point r / 1000, so the blocks
  cover both arrays and each array ends holding that function.
-/
import proofs.«103407_j20023137534010_2_alg».proof.Proof.Gen.KernelIdeal.Frame
import proofs.«103407_j20023137534010_2_alg».proof.Proof.Spec
import proofs.«103407_j20023137534010_2_alg».proof.Proof.EncodeArith
import proofs.«103407_j20023137534010_2_alg».proof.Proof.EncodeRef
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue.Encode

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The printed index maps over the grid -/

/-- The three blocked windows (features, hidden rows, scores) move down the rows with the point: block index
    (t, 0). -/
theorem row_facts : ∀ t : Fin cfg0.N, win0_0.index t (0 : Fin 2) = t.val ∧ win0_0.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- Every parameter window stays at block index zero on every axis. -/
theorem whole_facts : ∀ t : Fin cfg0.N, win0_1.index t (0 : Fin 2) = 0
    ∧ win0_1.index t (1 : Fin 2) = 0
    ∧ win0_2.index t (0 : Fin 1) = 0
    ∧ win0_3.index t (0 : Fin 1) = 0
    ∧ win0_4.index t (0 : Fin 1) = 0
    ∧ win0_5.index t (0 : Fin 1) = 0
    ∧ win0_6.index t (0 : Fin 1) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 1) = 0
    ∧ win0_10.index t (0 : Fin 2) = 0
    ∧ win0_10.index t (1 : Fin 2) = 0
    ∧ win0_11.index t (0 : Fin 1) = 0 :=
  (by decide +kernel : ∀ t : Fin grid0.N, _)

/-- Row p of block t is row 1000 t + p of the array, a row of the array. -/
theorem row_lt (t : Fin cfg0.N) (p : Fin 1000) : t.val * 1000 + p.val < 10000 := by
  have hN : cfg0.N = 10 := N_0
  have ht : t.val < cfg0.N := t.isLt
  have hp : p.val < 1000 := p.isLt
  omega

/-! ## Each input block as a piece of its array -/

/-- The feature block at point t is rows 1000 t … 1000 t + 999 of the feature array. -/
theorem blk0_apply (c : Dev nD) (t : Fin cfg0.N) (p : Fin 1000) (j : Fin 9) :
    (iblk0 V c 0 t : Vec Ideal S1000x9 .f32) (ix2 p j)
      = (V c main_arg0 : S10000x9.Idx → EReal) (ix2 ⟨t.val * 1000 + p.val, row_lt t p⟩ j) := by
  obtain ⟨e0, e1, -, -, -, -⟩ := row_facts t
  show V c main_arg0 (((cfg0.win 0).blk t).view.emb (ix2 p j)) = V c main_arg0 (ix2 ⟨t.val * 1000 + p.val, row_lt t p⟩ j)
  have h : ((cfg0.win 0).blk t).view.emb (ix2 p j) = ix2 ⟨t.val * 1000 + p.val, row_lt t p⟩ j := by
    funext a; apply Fin.ext
    match a with
    | ⟨0, _⟩ => show win0_0.index t (0 : Fin 2) * 1000 + 1 * p.val = t.val * 1000 + p.val; rw [e0]; omega
    | ⟨1, _⟩ => show win0_0.index t (1 : Fin 2) * 9 + 1 * j.val = j.val; rw [e1]; omega
  rw [h]

/-- Window 1 is not blocked: at every point its block is the whole array. -/
theorem blk1 (c : Dev nD) (t : Fin cfg0.N) :
    (iblk0 V c 1 t : Vec Ideal S9x32 .f32) = (V c main_arg5 : S9x32.Idx → EReal) := by
  obtain ⟨f1_0, f1_1, f2_0, f3_0, f4_0, f5_0, f6_0, f7_0, f7_1, f8_0, f8_1, f9_0, f10_0, f10_1, f11_0⟩ := whole_facts t
  funext y
  show V c main_arg5 (((cfg0.win 1).blk t).view.emb y) = V c main_arg5 y
  have h : ((cfg0.win 1).blk t).view.emb y = y := by
    funext a; apply Fin.ext
    match a with
    | ⟨0, _⟩ => show win0_1.index t (0 : Fin 2) * 9 + 1 * (y 0).val = (y 0).val; rw [f1_0]; omega
    | ⟨1, _⟩ => show win0_1.index t (1 : Fin 2) * 32 + 1 * (y 1).val = (y 1).val; rw [f1_1]; omega
  rw [h]

/-- Window 2 is not blocked: at every point its block is the whole array. -/
theorem blk2 (c : Dev nD) (t : Fin cfg0.N) :
    (iblk0 V c 2 t : Vec Ideal S32 .f32) = (V c main_arg6 : S32.Idx → EReal) := by
  obtain ⟨f1_0, f1_1, f2_0, f3_0, f4_0, f5_0, f6_0, f7_0, f7_1, f8_0, f8_1, f9_0, f10_0, f10_1, f11_0⟩ := whole_facts t
  funext y
  show V c main_arg6 (((cfg0.win 2).blk t).view.emb y) = V c main_arg6 y
  have h : ((cfg0.win 2).blk t).view.emb y = y := by
    funext a; apply Fin.ext
    match a with
    | ⟨0, _⟩ => show win0_2.index t (0 : Fin 1) * 32 + 1 * (y 0).val = (y 0).val; rw [f2_0]; omega
  rw [h]

/-- Window 3 is not blocked: at every point its block is the whole array. -/
theorem blk3 (c : Dev nD) (t : Fin cfg0.N) :
    (iblk0 V c 3 t : Vec Ideal S32 .f32) = (V c main_arg7 : S32.Idx → EReal) := by
  obtain ⟨f1_0, f1_1, f2_0, f3_0, f4_0, f5_0, f6_0, f7_0, f7_1, f8_0, f8_1, f9_0, f10_0, f10_1, f11_0⟩ := whole_facts t
  funext y
  show V c main_arg7 (((cfg0.win 3).blk t).view.emb y) = V c main_arg7 y
  have h : ((cfg0.win 3).blk t).view.emb y = y := by
    funext a; apply Fin.ext
    match a with
    | ⟨0, _⟩ => show win0_3.index t (0 : Fin 1) * 32 + 1 * (y 0).val = (y 0).val; rw [f3_0]; omega
  rw [h]

/-- Window 4 is not blocked: at every point its block is the whole array. -/
theorem blk4 (c : Dev nD) (t : Fin cfg0.N) :
    (iblk0 V c 4 t : Vec Ideal S32 .f32) = (V c main_arg8 : S32.Idx → EReal) := by
  obtain ⟨f1_0, f1_1, f2_0, f3_0, f4_0, f5_0, f6_0, f7_0, f7_1, f8_0, f8_1, f9_0, f10_0, f10_1, f11_0⟩ := whole_facts t
  funext y
  show V c main_arg8 (((cfg0.win 4).blk t).view.emb y) = V c main_arg8 y
  have h : ((cfg0.win 4).blk t).view.emb y = y := by
    funext a; apply Fin.ext
    match a with
    | ⟨0, _⟩ => show win0_4.index t (0 : Fin 1) * 32 + 1 * (y 0).val = (y 0).val; rw [f4_0]; omega
  rw [h]

/-- Window 5 is not blocked: at every point its block is the whole array. -/
theorem blk5 (c : Dev nD) (t : Fin cfg0.N) :
    (iblk0 V c 5 t : Vec Ideal S32 .f32) = (V c main_arg9 : S32.Idx → EReal) := by
  obtain ⟨f1_0, f1_1, f2_0, f3_0, f4_0, f5_0, f6_0, f7_0, f7_1, f8_0, f8_1, f9_0, f10_0, f10_1, f11_0⟩ := whole_facts t
  funext y
  show V c main_arg9 (((cfg0.win 5).blk t).view.emb y) = V c main_arg9 y
  have h : ((cfg0.win 5).blk t).view.emb y = y := by
    funext a; apply Fin.ext
    match a with
    | ⟨0, _⟩ => show win0_5.index t (0 : Fin 1) * 32 + 1 * (y 0).val = (y 0).val; rw [f5_0]; omega
  rw [h]

/-- Window 6 is not blocked: at every point its block is the whole array. -/
theorem blk6 (c : Dev nD) (t : Fin cfg0.N) :
    (iblk0 V c 6 t : Vec Ideal S32 .f32) = (V c main_arg10 : S32.Idx → EReal) := by
  obtain ⟨f1_0, f1_1, f2_0, f3_0, f4_0, f5_0, f6_0, f7_0, f7_1, f8_0, f8_1, f9_0, f10_0, f10_1, f11_0⟩ := whole_facts t
  funext y
  show V c main_arg10 (((cfg0.win 6).blk t).view.emb y) = V c main_arg10 y
  have h : ((cfg0.win 6).blk t).view.emb y = y := by
    funext a; apply Fin.ext
    match a with
    | ⟨0, _⟩ => show win0_6.index t (0 : Fin 1) * 32 + 1 * (y 0).val = (y 0).val; rw [f6_0]; omega
  rw [h]

/-- Window 7 is not blocked: at every point its block is the whole array. -/
theorem blk7 (c : Dev nD) (t : Fin cfg0.N) :
    (iblk0 V c 7 t : Vec Ideal S1x1 .f32) = (V c main_v0 : S1x1.Idx → EReal) := by
  obtain ⟨f1_0, f1_1, f2_0, f3_0, f4_0, f5_0, f6_0, f7_0, f7_1, f8_0, f8_1, f9_0, f10_0, f10_1, f11_0⟩ := whole_facts t
  funext y
  show V c main_v0 (((cfg0.win 7).blk t).view.emb y) = V c main_v0 y
  have h : ((cfg0.win 7).blk t).view.emb y = y := by
    funext a; apply Fin.ext
    match a with
    | ⟨0, _⟩ => show win0_7.index t (0 : Fin 2) * 1 + 1 * (y 0).val = (y 0).val; rw [f7_0]; omega
    | ⟨1, _⟩ => show win0_7.index t (1 : Fin 2) * 1 + 1 * (y 1).val = (y 1).val; rw [f7_1]; omega
  rw [h]

/-- Window 8 is not blocked: at every point its block is the whole array. -/
theorem blk8 (c : Dev nD) (t : Fin cfg0.N) :
    (iblk0 V c 8 t : Vec Ideal S32x32 .f32) = (V c main_arg12 : S32x32.Idx → EReal) := by
  obtain ⟨f1_0, f1_1, f2_0, f3_0, f4_0, f5_0, f6_0, f7_0, f7_1, f8_0, f8_1, f9_0, f10_0, f10_1, f11_0⟩ := whole_facts t
  funext y
  show V c main_arg12 (((cfg0.win 8).blk t).view.emb y) = V c main_arg12 y
  have h : ((cfg0.win 8).blk t).view.emb y = y := by
    funext a; apply Fin.ext
    match a with
    | ⟨0, _⟩ => show win0_8.index t (0 : Fin 2) * 32 + 1 * (y 0).val = (y 0).val; rw [f8_0]; omega
    | ⟨1, _⟩ => show win0_8.index t (1 : Fin 2) * 32 + 1 * (y 1).val = (y 1).val; rw [f8_1]; omega
  rw [h]

/-- Window 9 is not blocked: at every point its block is the whole array. -/
theorem blk9 (c : Dev nD) (t : Fin cfg0.N) :
    (iblk0 V c 9 t : Vec Ideal S32 .f32) = (V c main_arg13 : S32.Idx → EReal) := by
  obtain ⟨f1_0, f1_1, f2_0, f3_0, f4_0, f5_0, f6_0, f7_0, f7_1, f8_0, f8_1, f9_0, f10_0, f10_1, f11_0⟩ := whole_facts t
  funext y
  show V c main_arg13 (((cfg0.win 9).blk t).view.emb y) = V c main_arg13 y
  have h : ((cfg0.win 9).blk t).view.emb y = y := by
    funext a; apply Fin.ext
    match a with
    | ⟨0, _⟩ => show win0_9.index t (0 : Fin 1) * 32 + 1 * (y 0).val = (y 0).val; rw [f9_0]; omega
  rw [h]

/-- Window 10 is not blocked: at every point its block is the whole array. -/
theorem blk10 (c : Dev nD) (t : Fin cfg0.N) :
    (iblk0 V c 10 t : Vec Ideal S32x1 .f32) = (V c main_arg14 : S32x1.Idx → EReal) := by
  obtain ⟨f1_0, f1_1, f2_0, f3_0, f4_0, f5_0, f6_0, f7_0, f7_1, f8_0, f8_1, f9_0, f10_0, f10_1, f11_0⟩ := whole_facts t
  funext y
  show V c main_arg14 (((cfg0.win 10).blk t).view.emb y) = V c main_arg14 y
  have h : ((cfg0.win 10).blk t).view.emb y = y := by
    funext a; apply Fin.ext
    match a with
    | ⟨0, _⟩ => show win0_10.index t (0 : Fin 2) * 32 + 1 * (y 0).val = (y 0).val; rw [f10_0]; omega
    | ⟨1, _⟩ => show win0_10.index t (1 : Fin 2) * 1 + 1 * (y 1).val = (y 1).val; rw [f10_1]; omega
  rw [h]

/-- Window 11 is not blocked: at every point its block is the whole array. -/
theorem blk11 (c : Dev nD) (t : Fin cfg0.N) :
    (iblk0 V c 11 t : Vec Ideal S1 .f32) = (V c main_arg15 : S1.Idx → EReal) := by
  obtain ⟨f1_0, f1_1, f2_0, f3_0, f4_0, f5_0, f6_0, f7_0, f7_1, f8_0, f8_1, f9_0, f10_0, f10_1, f11_0⟩ := whole_facts t
  funext y
  show V c main_arg15 (((cfg0.win 11).blk t).view.emb y) = V c main_arg15 y
  have h : ((cfg0.win 11).blk t).view.emb y = y := by
    funext a; apply Fin.ext
    match a with
    | ⟨0, _⟩ => show win0_11.index t (0 : Fin 1) * 1 + 1 * (y 0).val = (y 0).val; rw [f11_0]; omega
  rw [h]

/-- The slope the body extracts from its 1 × 1 block is the scalar argument: the 1 × 1 array is that scalar
    reshaped, and a scalar has one index. -/
theorem slope_eq (c : Dev nD) (a : Buf (Elt Ideal) ((c : Thread nD τ).loc main_arg11))
    (ha : V c main_v0 = shapeCast S1x1 a shapeCasts_S_S1x1) (t : Fin cfg0.N) :
    extractAt ![0, 0] (iblk0 V c 7 t : Vec Ideal S1x1 .f32) inpos_S1x1_p0_0 = (a : S_.Idx → EReal) ix0 := by
  rw [blk7 V c t, ha]
  exact congrArg a (funext fun d => d.elim0)

/-! ## What a point writes back -/

/-- Where an element of output block t sits in the hidden array. -/
theorem emb12 (t : Fin cfg0.N) (p : Fin 1000) (q : Fin 32) :
    ((cfg0.win 12).blk t).view.emb (ix2 p q) = (ix2 ⟨t.val * 1000 + p.val, row_lt t p⟩ q : S10000x32.Idx) := by
  obtain ⟨-, -, e0, e1, -, -⟩ := row_facts t
  funext a; apply Fin.ext
  match a with
  | ⟨0, _⟩ => show win0_12.index t (0 : Fin 2) * 1000 + 1 * p.val = t.val * 1000 + p.val; rw [e0]; omega
  | ⟨1, _⟩ => show win0_12.index t (1 : Fin 2) * 32 + 1 * q.val = q.val; rw [e1]; omega

/-- Where an element of output block t sits in the score array. -/
theorem emb13 (t : Fin cfg0.N) (p : Fin 1000) :
    ((cfg0.win 13).blk t).view.emb (ix2 p (0 : Fin 1)) = (ix2 ⟨t.val * 1000 + p.val, row_lt t p⟩ (0 : Fin 1) : S10000x1.Idx) := by
  obtain ⟨-, -, -, -, e0, e1⟩ := row_facts t
  funext a; apply Fin.ext
  match a with
  | ⟨0, _⟩ => show win0_13.index t (0 : Fin 2) * 1000 + 1 * p.val = t.val * 1000 + p.val; rw [e0]; omega
  | ⟨1, _⟩ => show win0_13.index t (1 : Fin 2) * 1 + 1 * 0 = 0; rw [e1]

/-- The hidden rows as one function of the region's input arrays: the reference's hidden stage. -/
abbrev hiddenOf (c : Dev nD) (a : Buf (Elt Ideal) ((c : Thread nD τ).loc main_arg11)) :=
  Cert.ReferenceIdeal.Read.val_main_v27 (F := Ideal) (V c main_arg0) (V c main_arg5) (V c main_arg6)
    (V c main_arg7) (V c main_arg8) (V c main_arg9) (V c main_arg10) a (V c main_arg12) (V c main_arg13)

/-- The node scores as one function of the region's input arrays: the reference's score stage. -/
abbrev scoreOf (c : Dev nD) (a : Buf (Elt Ideal) ((c : Thread nD τ).loc main_arg11)) :=
  Cert.ReferenceIdeal.Read.val_main_v31 (F := Ideal) (V c main_arg0) (V c main_arg5) (V c main_arg6)
    (V c main_arg7) (V c main_arg8) (V c main_arg9) (V c main_arg10) a (V c main_arg12) (V c main_arg13)
    (V c main_arg14) (V c main_arg15)

/-- WHAT POINT t WRITES BACK to the hidden array is block t of the reference's hidden stage. -/
theorem flushed12_eq (c : Dev nD) (a : Buf (Elt Ideal) ((c : Thread nD τ).loc main_arg11))
    (ha : V c main_v0 = shapeCast S1x1 a shapeCasts_S_S1x1) (t : Fin cfg0.N) :
    (dat0 V c).flushed 12 t = ((cfg0.win 12).blk t).view.read (Elt Ideal) (hiddenOf V c a) := by
  show (cfg0.win 12).cut (grid0.coords t) ((dat0 V c).after 12 t) = _
  rw [after0_12]
  unfold out0_12
  rw [View.canon_unit_zero hz2]
  simp only [View.ld_unit_zero (S := S1000x9) hz2, View.ld_unit_zero (S := S9x32) hz2, View.ld_unit_zero (S := S32) hz1,
    View.ld_unit_zero (S := S1x1) hz2, View.ld_unit_zero (S := S32x32) hz2]
  funext y
  obtain ⟨p, q, rfl⟩ : ∃ (p : Fin 1000) (q : Fin 32), y = ix2 p q := ⟨y 0, y 1, eq_ix2 y⟩
  show (k0_pay1 (k0_pay3 (iblk0 V c 0 t) (iblk0 V c 1 t) (iblk0 V c 2 t) (iblk0 V c 3 t) (iblk0 V c 4 t) (iblk0 V c 5 t) (iblk0 V c 6 t) (iblk0 V c 7 t) (iblk0 V c 8 t)) (k0_pay4 (iblk0 V c 9 t)) : Vec Ideal S1000x32 .f32) (ix2 p q)
    = hiddenOf V c a (((cfg0.win 12).blk t).view.emb (ix2 p q))
  rw [emb12 t p q]
  refine (hidden_block_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p q).trans ?_
  refine Eq.trans ?_ (ref_hidden_apply (V c main_arg0) (V c main_arg5) (V c main_arg6) (V c main_arg7) (V c main_arg8)
    (V c main_arg9) (V c main_arg10) a (V c main_arg12) (V c main_arg13) ⟨t.val * 1000 + p.val, row_lt t p⟩ q).symm
  rw [slope_eq V c a ha t, blk1 V c t, blk2 V c t, blk3 V c t, blk4 V c t, blk5 V c t, blk6 V c t, blk8 V c t, blk9 V c t,
    funext fun j => blk0_apply V c t p j]

/-- An index of the hidden array is in point t's block iff each coordinate is in the block's range on its axis. -/
theorem mem_blk12 (t : Fin cfg0.N) (i : S10000x32.Idx) :
    i ∈ ((cfg0.win 12).blk t).view.set ↔ ∀ a : Fin 2, win0_12.index t a * S1000x32.size a ≤ (i a).val ∧ (i a).val < win0_12.index t a * S1000x32.size a + S1000x32.size a := by
  show i ∈ ((View.whole main_v1_0).slice (win0_12.rect t)).set ↔ _
  rw [View.set_slice_whole, Rect.mem_set_unit]
  exact Iff.rfl

/-- Row r of the hidden array lies in the block of point r / 1000: the ten blocks tile the array. -/
theorem cover12 (i : S10000x32.Idx) :
    ∃ t : Fin cfg0.N, (cfg0.win 12).flush t = true ∧ i ∈ ((cfg0.win 12).blk t).view.set := by
  have hi0 : (i 0).val < 10000 := (i 0).isLt
  have hi1 : (i 1).val < 32 := (i 1).isLt
  have hN : cfg0.N = 10 := N_0
  have hlt : (i 0).val / 1000 < cfg0.N := by rw [hN]; omega
  obtain ⟨-, -, e0, e1, -, -⟩ := row_facts ⟨(i 0).val / 1000, hlt⟩
  refine ⟨⟨(i 0).val / 1000, hlt⟩, flush0_12 _, ?_⟩
  rw [mem_blk12]
  intro a
  match a with
  | ⟨0, _⟩ =>
    show win0_12.index ⟨(i 0).val / 1000, hlt⟩ (0 : Fin 2) * 1000 ≤ (i 0).val ∧ (i 0).val < win0_12.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win0_12.index ⟨(i 0).val / 1000, hlt⟩ (1 : Fin 2) * 32 ≤ (i 1).val ∧ (i 1).val < win0_12.index ⟨(i 0).val / 1000, hlt⟩ (1 : Fin 2) * 32 + 32
    rw [e1]; omega

/-- WHAT POINT t WRITES BACK to the score array is block t of the reference's score stage. -/
theorem flushed13_eq (c : Dev nD) (a : Buf (Elt Ideal) ((c : Thread nD τ).loc main_arg11))
    (ha : V c main_v0 = shapeCast S1x1 a shapeCasts_S_S1x1) (t : Fin cfg0.N) :
    (dat0 V c).flushed 13 t = ((cfg0.win 13).blk t).view.read (Elt Ideal) (scoreOf V c a) := by
  show (cfg0.win 13).cut (grid0.coords t) ((dat0 V c).after 13 t) = _
  rw [after0_13]
  unfold out0_13
  rw [View.canon_unit_zero hz2]
  simp only [View.ld_unit_zero (S := S1000x9) hz2, View.ld_unit_zero (S := S9x32) hz2, View.ld_unit_zero (S := S32) hz1,
    View.ld_unit_zero (S := S1x1) hz2, View.ld_unit_zero (S := S32x32) hz2, View.ld_unit_zero (S := S32x1) hz2,
    View.ld_unit_zero (S := S1) hz1]
  funext y
  obtain ⟨p, z, rfl⟩ : ∃ (p : Fin 1000) (z : Fin 1), y = ix2 p z := ⟨y 0, y 1, eq_ix2 y⟩
  obtain rfl : z = 0 := Fin.fin_one_eq_zero z
  show (k0_pay2 (k0_pay3 (iblk0 V c 0 t) (iblk0 V c 1 t) (iblk0 V c 2 t) (iblk0 V c 3 t) (iblk0 V c 4 t) (iblk0 V c 5 t) (iblk0 V c 6 t) (iblk0 V c 7 t) (iblk0 V c 8 t)) (k0_pay4 (iblk0 V c 9 t)) (iblk0 V c 10 t) (iblk0 V c 11 t) : Vec Ideal S1000x1 .f32) (ix2 p (0 : Fin 1))
    = scoreOf V c a (((cfg0.win 13).blk t).view.emb (ix2 p (0 : Fin 1)))
  rw [emb13 t p]
  refine (score_block_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) p).trans ?_
  refine Eq.trans ?_ (ref_score_apply (V c main_arg0) (V c main_arg5) (V c main_arg6) (V c main_arg7) (V c main_arg8)
    (V c main_arg9) (V c main_arg10) a (V c main_arg12) (V c main_arg13) (V c main_arg14) (V c main_arg15)
    ⟨t.val * 1000 + p.val, row_lt t p⟩).symm
  rw [slope_eq V c a ha t, blk1 V c t, blk2 V c t, blk3 V c t, blk4 V c t, blk5 V c t, blk6 V c t, blk8 V c t, blk9 V c t,
    blk10 V c t, blk11 V c t, funext fun j => blk0_apply V c t p j]

/-- An index of the score array is in point t's block iff each coordinate is in the block's range on its axis. -/
theorem mem_blk13 (t : Fin cfg0.N) (i : S10000x1.Idx) :
    i ∈ ((cfg0.win 13).blk t).view.set ↔ ∀ a : Fin 2, win0_13.index t a * S1000x1.size a ≤ (i a).val ∧ (i a).val < win0_13.index t a * S1000x1.size a + S1000x1.size a := by
  show i ∈ ((View.whole main_v1_1).slice (win0_13.rect t)).set ↔ _
  rw [View.set_slice_whole, Rect.mem_set_unit]
  exact Iff.rfl

/-- Row r of the score array lies in the block of point r / 1000. -/
theorem cover13 (i : S10000x1.Idx) :
    ∃ t : Fin cfg0.N, (cfg0.win 13).flush t = true ∧ i ∈ ((cfg0.win 13).blk t).view.set := by
  have hi0 : (i 0).val < 10000 := (i 0).isLt
  have hi1 : (i 1).val < 1 := (i 1).isLt
  have hN : cfg0.N = 10 := N_0
  have hlt : (i 0).val / 1000 < cfg0.N := by rw [hN]; omega
  obtain ⟨-, -, -, -, e0, e1⟩ := row_facts ⟨(i 0).val / 1000, hlt⟩
  refine ⟨⟨(i 0).val / 1000, hlt⟩, flush0_13 _, ?_⟩
  rw [mem_blk13]
  intro a
  match a with
  | ⟨0, _⟩ =>
    show win0_13.index ⟨(i 0).val / 1000, hlt⟩ (0 : Fin 2) * 1000 ≤ (i 0).val ∧ (i 0).val < win0_13.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win0_13.index ⟨(i 0).val / 1000, hlt⟩ (1 : Fin 2) * 1 ≤ (i 1).val ∧ (i 1).val < win0_13.index ⟨(i 0).val / 1000, hlt⟩ (1 : Fin 2) * 1 + 1
    rw [e1]; omega

end Cert.KernelIdeal.RegionValue.Encode

namespace Cert.KernelIdeal.RegionValue

open Idealize.ShloMosaic Idealize.ShloMosaic.TcCoe Idealize.SL.Sem
open Cert.KernelIdeal Cert.KernelIdeal.Gen
open Idealize.ShloMosaic.Pipeline (Dat)
open Cert.KernelIdeal.RegionValue.Encode

variable (V : (c : Dev nD) → (b : Ref sig .tc) → Buf (Elt Ideal) ((c : Thread nD τ).loc b))

/-- THE HIDDEN ARRAY after the region is the reference's hidden stage of the region's input arrays. -/
theorem encode_hidden (c : Dev nD) (a : Buf (Elt Ideal) ((c : Thread nD τ).loc main_arg11))
    (ha : V c main_v0 = shapeCast S1x1 a shapeCasts_S_S1x1) :
    (dat0 V c).arrAt 12 cfg0.N = Cert.ReferenceIdeal.Read.val_main_v27 (F := Ideal) (V c main_arg0) (V c main_arg5) (V c main_arg6)
      (V c main_arg7) (V c main_arg8) (V c main_arg9) (V c main_arg10) a (V c main_arg12) (V c main_arg13) :=
  (dat0 V c).arrAt_eq_of_cover 12 (hiddenOf V c a) (fun t _ => flushed12_eq V c a ha t) cover12

/-- THE SCORE ARRAY after the region is the reference's score stage of the region's input arrays. -/
theorem encode_score (c : Dev nD) (a : Buf (Elt Ideal) ((c : Thread nD τ).loc main_arg11))
    (ha : V c main_v0 = shapeCast S1x1 a shapeCasts_S_S1x1) :
    (dat0 V c).arrAt 13 cfg0.N = Cert.ReferenceIdeal.Read.val_main_v31 (F := Ideal) (V c main_arg0) (V c main_arg5) (V c main_arg6)
      (V c main_arg7) (V c main_arg8) (V c main_arg9) (V c main_arg10) a (V c main_arg12) (V c main_arg13) (V c main_arg14) (V c main_arg15) :=
  (dat0 V c).arrAt_eq_of_cover 13 (scoreOf V c a) (fun t _ => flushed13_eq V c a ha t) cover13

end Cert.KernelIdeal.RegionValue

end
-- ==== Proof.LibRowSum.lean ====
/-
  Rows of a matrix summed along the lanes, and the column that sum is kept as.

  A reduction of an [a, b] array along its second axis is read at a row as the sum of that row's b entries, both
  when a vector unit does it (a multi-reduction with add) and when the host does it (a reduce with an add body from a zero
  initial value).  The result, a vector of a entries, is usually kept as a column [a, 1] and spread back over b lanes;
  the column forms of the layout operations are read here at an index given by coordinates: a vector [a] cast or
  broadcast to the column [a, 1], and the column [a, 1] broadcast to [a, b].  Every lemma is over arbitrary extents and
  mentions no program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibRowSum

open Idealize.ShloMosaic Idealize.ShloMosaic.ValueIdx

variable {α : Type}

/-! ## The column forms of the layout operations -/

/-- A vector [a] cast to the column [a, 1] reads, at (i, u), the vector at i: the two row-major positions are
    i and i * 1 + 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b lanes reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a vector [a] into the column [a, 1] along axis 0 reads, at (i, u), the vector at i. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The host's broadcast of a column [a, 1] to [a, b] along both axes reads, at (p, c), the column's entry of row p. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's sum -/

/-- The source index a lane reduction reads for row r and lane k is (r, k). -/
theorem lift_lane {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A vector unit's add reduction of an [a, b] array along the lanes, read at row r at the ideal values, is the sum of the
    row's entries.  The accumulator's word is any word that is the sum's neutral one. -/
theorem multiReduction_lane_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_lane h r k)

/-- The host's reduce of an [a, b] array along the lanes with an add body, read at row r at the ideal values, is the
    initial value plus the sum of the row's entries. -/
theorem hostReduceAdd_lane_apply {a b : ℕ} {φ : FTy} {u : Shape} (x : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_lane h r k))

end Cert.LibRowSum

end
-- ==== Proof.NormalizePayload.lean ====
/-
  The normalizing body read at one entry.

  A block of rows goes through the body whole, and the body scales every row to unit length: entry (p, q) of its result
  is entry (p, q) of the block times the reciprocal square root of the sum of the squares of row p plus a small constant.
  The row's sum is taken along the lanes, kept as a column of one entry per row and spread back over the lanes; each of
  those three steps is read at an index by a lemma of its own, and the operations between them act entry by entry.
-/
import proofs.«103407_j20023137534010_2_alg».proof.Proof.Gen.KernelIdeal.Skeleton
import proofs.«103407_j20023137534010_2_alg».proof.Proof.LibRowSum

noncomputable section

open scoped BigOperators

namespace Cert.KernelIdeal.RegionValue

open Idealize.ShloMosaic Idealize.ShloMosaic.ValueIdx
open Cert.KernelIdeal Cert.KernelIdeal.Gen Cert.LibRowSum

/-- The normalizing body on a block of 400 rows of 2048 lanes: entry (p, q) is the block's entry times the reciprocal
    square root of row p's sum of squares plus the constant. -/
theorem k1_pay1_apply (x0 : Vec Ideal S400x2048 .f32) (p : Fin 400) (q : Fin 2048) :
    k1_pay1 (F := Ideal) x0 (ix2 p q)
      = x0 (ix2 p q) * Ideal.rsqrt ((∑ k : Fin 2048, x0 (ix2 p k) * x0 (ix2 p k)) + Ideal.ofBits .f32 0x322BCC77#32) := by
  unfold k1_pay1
  refine congrArg (x0 (ix2 p q) * ·) ?_
  refine (broadcastTo_a1_ab_apply _ broadcasts_S400x1_S400x2048 p q).trans ?_
  refine congrArg (fun s => Ideal.rsqrt (s + Ideal.ofBits .f32 0x322BCC77#32)) ?_
  refine (shapeCast_a_a1_apply _ shapeCasts_S400_S400x1 p 0).trans ?_
  exact multiReduction_lane_apply (mulf x0 x0) 0x00000000#32 reduces_S400x2048_S400 (.inl rfl) rfl p

/-- The same body on a block of 2000 rows of 256 lanes. -/
theorem k2_pay1_apply (x0 : Vec Ideal S2000x256 .f32) (p : Fin 2000) (q : Fin 256) :
    k2_pay1 (F := Ideal) x0 (ix2 p q)
      = x0 (ix2 p q) * Ideal.rsqrt ((∑ k : Fin 256, x0 (ix2 p k) * x0 (ix2 p k)) + Ideal.ofBits .f32 0x322BCC77#32) := by
  unfold k2_pay1
  refine congrArg (x0 (ix2 p q) * ·) ?_
  refine (broadcastTo_a1_ab_apply _ broadcasts_S2000x1_S2000x256 p q).trans ?_
  refine congrArg (fun s => Ideal.rsqrt (s + Ideal.ofBits .f32 0x322BCC77#32)) ?_
  refine (shapeCast_a_a1_apply _ shapeCasts_S2000_S2000x1 p 0).trans ?_
  exact multiReduction_lane_apply (mulf x0 x0) 0x00000000#32 reduces_S2000x256_S2000 (.inl rfl) rfl p

end Cert.KernelIdeal.RegionValue

end
-- ==== Proof.NormalizeReference.lean ====
/-
  The reference's normalized visual rows read at one entry.

  The reference squares the array entry by entry, sums each row from a zero initial value, keeps the sums as a column,
  adds a small constant, takes the reciprocal square root and multiplies the array by that column spread over the
  lanes.  Read at entry (r, q) through the stage-by-stage reading lemmas, that is the array's entry times the reciprocal
  square root of row r's sum of squares plus the constant; the zero initial value drops out of the sum.
-/
import proofs.«103407_j20023137534010_2_alg».proof.Proof.Spec
import proofs.«103407_j20023137534010_2_alg».proof.Proof.LibRowSum

noncomputable section

open scoped BigOperators

namespace Cert.KernelIdeal.RegionValue

open Idealize.ShloMosaic Idealize.ShloMosaic.ValueIdx
open Cert.LibRowSum

/-- Entry (r, q) of the normalized array of 2048 lanes. -/
theorem val_main_v44_ix (x1 : (⟨Cert.ReferenceIdeal.S10000x2048, .f32⟩ : BufTy).Contents (Elt Ideal)) (r : Fin 10000) (q : Fin 2048) :
    Cert.ReferenceIdeal.Read.val_main_v44 (F := Ideal) x1 (ix2 r q)
      = x1 (ix2 r q) * Ideal.rsqrt ((∑ k : Fin 2048, x1 (ix2 r k) * x1 (ix2 r k)) + Ideal.ofBits .f32 0x322BCC77#32) := by
  have hidx : ∀ k : Fin 2048, Cert.ReferenceIdeal.Read.idx_main_v38 (Cert.ReferenceIdeal.Read.idx_main_v39
      (Cert.ReferenceIdeal.Read.idx_main_v43 (ix2 r q))) k = ix2 r k :=
    fun k => funext fun a => Fin.ext (by match a with | ⟨0, _⟩ => rfl | ⟨1, _⟩ => rfl)
  rw [Cert.ReferenceIdeal.Read.val_main_v44_apply, Cert.ReferenceIdeal.Read.val_main_v43_apply,
    Cert.ReferenceIdeal.Read.val_main_v42_apply, Cert.ReferenceIdeal.Read.val_main_v41_apply,
    Cert.ReferenceIdeal.Read.val_main_v39_apply, Cert.ReferenceIdeal.Read.val_main_v40_apply,
    Cert.ReferenceIdeal.Read.val_main_cst_2_apply, Cert.ReferenceIdeal.Read.val_main_v38_apply,
    Cert.ReferenceIdeal.Read.val_main_cst_1_apply]
  simp only [Cert.ReferenceIdeal.Read.val_main_v37_apply, hidx, Ideal.mulf_def, Ideal.addf_def,
    Ideal.hostUnary_rsqrt_def]
  show x1 (ix2 r q) * Ideal.rsqrt ((Ideal.ofBits .f32 0x00000000#32 + _) + Ideal.ofBits .f32 0x322BCC77#32) = _
  rw [Ideal.ofBits_zero_f32, zero_add]

/-- Entry (r, q) of the normalized array of 256 lanes. -/
theorem val_main_v89_ix (x2 : (⟨Cert.ReferenceIdeal.S10000x256, .f32⟩ : BufTy).Contents (Elt Ideal)) (r : Fin 10000) (q : Fin 256) :
    Cert.ReferenceIdeal.Read.val_main_v89 (F := Ideal) x2 (ix2 r q)
      = x2 (ix2 r q) * Ideal.rsqrt ((∑ k : Fin 256, x2 (ix2 r k) * x2 (ix2 r k)) + Ideal.ofBits .f32 0x322BCC77#32) := by
  have hidx : ∀ k : Fin 256, Cert.ReferenceIdeal.Read.idx_main_v83 (Cert.ReferenceIdeal.Read.idx_main_v84
      (Cert.ReferenceIdeal.Read.idx_main_v88 (ix2 r q))) k = ix2 r k :=
    fun k => funext fun a => Fin.ext (by match a with | ⟨0, _⟩ => rfl | ⟨1, _⟩ => rfl)
  rw [Cert.ReferenceIdeal.Read.val_main_v89_apply, Cert.ReferenceIdeal.Read.val_main_v88_apply,
    Cert.ReferenceIdeal.Read.val_main_v87_apply, Cert.ReferenceIdeal.Read.val_main_v86_apply,
    Cert.ReferenceIdeal.Read.val_main_v84_apply, Cert.ReferenceIdeal.Read.val_main_v85_apply,
    Cert.ReferenceIdeal.Read.val_main_cst_11_apply, Cert.ReferenceIdeal.Read.val_main_v83_apply,
    Cert.ReferenceIdeal.Read.val_main_cst_10_apply]
  simp only [Cert.ReferenceIdeal.Read.val_main_v82_apply, hidx, Ideal.mulf_def, Ideal.addf_def,
    Ideal.hostUnary_rsqrt_def]
  show x2 (ix2 r q) * Ideal.rsqrt ((Ideal.ofBits .f32 0x00000000#32 + _) + Ideal.ofBits .f32 0x322BCC77#32) = _
  rw [Ideal.ofBits_zero_f32, zero_add]

end Cert.KernelIdeal.RegionValue

end
-- ==== Proof.NormalizeWide.lean ====
/-
  Region 1: the visual rows of 2048 lanes, normalized, as one array.

  The region runs over 25 points.  At point t the body sees rows 400 t … 400 t + 399 of the input array, every lane,
  and writes its result to the same rows of the output array.  Entry (p, q) of the body's result depends on row p of
  its block only, and that row is a whole row of the array, so each block written back is the corresponding block of
  one function of the whole input array: the reference's normalized array.  The 25 blocks tile the 10000 rows, so the
  output array is that function everywhere.
-/
import proofs.«103407_j20023137534010_2_alg».proof.Proof.Gen.KernelIdeal.Frame
import proofs.«103407_j20023137534010_2_alg».proof.Proof.NormalizePayload
import proofs.«103407_j20023137534010_2_alg».proof.Proof.NormalizeReference
import Idealize.ShloMosaic.Lib.Pipeline.Value

noncomputable section

open scoped BigOperators

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: at point t both windows sit at block row t and block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row p of point t's block is row 400 t + p of the array. -/
abbrev row1 (t : Fin cfg1.N) (p : Fin 400) : Fin 10000 :=
  ⟨t.val * 400 + p.val, by have := t.isLt; have hN : cfg1.N = 25 := N_1; have := p.isLt; omega⟩

/-- The input block at point t is rows 400 t … 400 t + 399 of the input array, every lane. -/
theorem iblk1_0_apply (c : Dev nD) (t : Fin cfg1.N) (p : Fin 400) (k : Fin 2048) :
    (iblk1 V c 0 t : Vec Ideal S400x2048 .f32) (ix2 p k) = (V c main_arg1 : S10000x2048.Idx → EReal) (ix2 (row1 t p) k) := by
  obtain ⟨e0, e1, -, -⟩ := idx_facts1 t
  unfold iblk1
  rw [View.read_apply]
  show V c main_arg1 _ = V c main_arg1 _
  congr 1
  funext a
  apply Fin.ext
  match a with
  | ⟨0, _⟩ => show win1_0.index t (0 : Fin 2) * 400 + 1 * p.val = t.val * 400 + p.val; rw [e0]; omega
  | ⟨1, _⟩ => show win1_0.index t (1 : Fin 2) * 2048 + 1 * k.val = k.val; rw [e1]; omega

/-- What point t writes back is block t of the reference's normalized array of the input array: the body's entry
    (p, q) is a function of row p of the input block alone, and that row is row 400 t + p of the array. -/
theorem flushed1_eq (c : Dev nD) (t : Fin cfg1.N) :
    (dat1 V c).flushed 1 t
      = ((cfg1.win 1).blk t).view.read (Elt Ideal) (Cert.ReferenceIdeal.Read.val_main_v44 (F := Ideal) (V c main_arg1)) := by
  show (cfg1.win 1).cut (grid1.coords t) ((dat1 V c).after 1 t) = _
  rw [after1_1]
  unfold out1_1
  rw [View.canon_unit_zero hz1]
  simp only [View.ld_unit_zero (S := S400x2048) hz1]
  obtain ⟨-, -, e2, e3⟩ := idx_facts1 t
  funext j
  obtain ⟨p, q, rfl⟩ : ∃ (p : Fin 400) (q : Fin 2048), j = ix2 p q := ⟨j 0, j 1, eq_ix2 j⟩
  show k1_pay1 (F := Ideal) (iblk1 V c 0 t) (ix2 p q)
    = Cert.ReferenceIdeal.Read.val_main_v44 (F := Ideal) (V c main_arg1) (((cfg1.win 1).blk t).view.emb (ix2 p q))
  have hemb : ((cfg1.win 1).blk t).view.emb (ix2 p q) = ix2 (row1 t p) q := by
    funext a
    apply Fin.ext
    match a with
    | ⟨0, _⟩ => show win1_1.index t (0 : Fin 2) * 400 + 1 * p.val = t.val * 400 + p.val; rw [e2]; omega
    | ⟨1, _⟩ => show win1_1.index t (1 : Fin 2) * 2048 + 1 * q.val = q.val; rw [e3]; omega
  rw [hemb, val_main_v44_ix]
  refine (k1_pay1_apply (iblk1 V c 0 t) p q).trans ?_
  simp only [iblk1_0_apply V c t p]

/-- An index of the output array is in point t's block iff each coordinate is in the block's range on its axis. -/
theorem mem_blk1 (t : Fin cfg1.N) (i : S10000x2048.Idx) :
    i ∈ ((cfg1.win 1).blk t).view.set ↔ ∀ a : Fin 2, win1_1.index t a * S400x2048.size a ≤ (i a).val
      ∧ (i a).val < win1_1.index t a * S400x2048.size a + S400x2048.size a := by
  show i ∈ ((View.whole main_v2).slice (win1_1.rect t)).set ↔ _
  rw [View.set_slice_whole, Rect.mem_set_unit]
  exact Iff.rfl

/-- The blocks tile the array: row r lies in the block of point r / 400. -/
theorem cover1 (i : S10000x2048.Idx) :
    ∃ t : Fin cfg1.N, (cfg1.win 1).flush t = true ∧ i ∈ ((cfg1.win 1).blk t).view.set := by
  have hi0 : (i 0).val < 10000 := (i 0).isLt
  have hi1 : (i 1).val < 2048 := (i 1).isLt
  have hN : cfg1.N = 25 := N_1
  have ht : (i 0).val / 400 < cfg1.N := by rw [hN]; omega
  obtain ⟨-, -, e2, e3⟩ := idx_facts1 ⟨(i 0).val / 400, ht⟩
  refine ⟨⟨(i 0).val / 400, ht⟩, flush1_1 _, ?_⟩
  rw [mem_blk1]
  intro a
  match a with
  | ⟨0, _⟩ =>
    show win1_1.index ⟨(i 0).val / 400, ht⟩ (0 : Fin 2) * 400 ≤ (i 0).val
      ∧ (i 0).val < win1_1.index ⟨(i 0).val / 400, ht⟩ (0 : Fin 2) * 400 + 400
    rw [e2]
    show (i 0).val / 400 * 400 ≤ (i 0).val ∧ (i 0).val < (i 0).val / 400 * 400 + 400
    omega
  | ⟨1, _⟩ =>
    show win1_1.index ⟨(i 0).val / 400, ht⟩ (1 : Fin 2) * 2048 ≤ (i 1).val
      ∧ (i 1).val < win1_1.index ⟨(i 0).val / 400, ht⟩ (1 : Fin 2) * 2048 + 2048
    rw [e3]
    omega

/-- The output array after the region: the reference's normalized array of the input array as the region finds it. -/
theorem normalize_wide (c : Dev nD) :
    (dat1 V c).arrAt 1 cfg1.N = Cert.ReferenceIdeal.Read.val_main_v44 (F := Ideal) (V c main_arg1) :=
  (dat1 V c).arrAt_eq_of_cover 1 _ (fun t _ => flushed1_eq V c t) (cover1)

end Cert.KernelIdeal.RegionValue

end
-- ==== Proof.NormalizeNarrow.lean ====
/-
  Region 2: the visual rows of 256 lanes, normalized, as one array.

  The region runs over 5 points.  At point t the body sees rows 2000 t … 2000 t + 1999 of the input array, every lane,
  and writes its result to the same rows of the output array.  Entry (p, q) of the body's result depends on row p of
  its block only, and that row is a whole row of the array, so each block written back is the corresponding block of
  one function of the whole input array: the reference's normalized array.  The 5 blocks tile the 10000 rows, so the
  output array is that function everywhere.
-/
import proofs.«103407_j20023137534010_2_alg».proof.Proof.Gen.KernelIdeal.Frame
import proofs.«103407_j20023137534010_2_alg».proof.Proof.NormalizePayload
import proofs.«103407_j20023137534010_2_alg».proof.Proof.NormalizeReference
import Idealize.ShloMosaic.Lib.Pipeline.Value

noncomputable section

open scoped BigOperators

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: at point t both windows sit at block row t and block column 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Row p of point t's block is row 2000 t + p of the array. -/
abbrev row2 (t : Fin cfg2.N) (p : Fin 2000) : Fin 10000 :=
  ⟨t.val * 2000 + p.val, by have := t.isLt; have hN : cfg2.N = 5 := N_2; have := p.isLt; omega⟩

/-- The input block at point t is rows 2000 t … 2000 t + 1999 of the input array, every lane. -/
theorem iblk2_0_apply (c : Dev nD) (t : Fin cfg2.N) (p : Fin 2000) (k : Fin 256) :
    (iblk2 V c 0 t : Vec Ideal S2000x256 .f32) (ix2 p k) = (V c main_arg2 : S10000x256.Idx → EReal) (ix2 (row2 t p) k) := by
  obtain ⟨e0, e1, -, -⟩ := idx_facts2 t
  unfold iblk2
  rw [View.read_apply]
  show V c main_arg2 _ = V c main_arg2 _
  congr 1
  funext a
  apply Fin.ext
  match a with
  | ⟨0, _⟩ => show win2_0.index t (0 : Fin 2) * 2000 + 1 * p.val = t.val * 2000 + p.val; rw [e0]; omega
  | ⟨1, _⟩ => show win2_0.index t (1 : Fin 2) * 256 + 1 * k.val = k.val; rw [e1]; omega

/-- What point t writes back is block t of the reference's normalized array of the input array: the body's entry
    (p, q) is a function of row p of the input block alone, and that row is row 2000 t + p of the array. -/
theorem flushed2_eq (c : Dev nD) (t : Fin cfg2.N) :
    (dat2 V c).flushed 1 t
      = ((cfg2.win 1).blk t).view.read (Elt Ideal) (Cert.ReferenceIdeal.Read.val_main_v89 (F := Ideal) (V c main_arg2)) := by
  show (cfg2.win 1).cut (grid2.coords t) ((dat2 V c).after 1 t) = _
  rw [after2_1]
  unfold out2_1
  rw [View.canon_unit_zero hz2]
  simp only [View.ld_unit_zero (S := S2000x256) hz2]
  obtain ⟨-, -, e2, e3⟩ := idx_facts2 t
  funext j
  obtain ⟨p, q, rfl⟩ : ∃ (p : Fin 2000) (q : Fin 256), j = ix2 p q := ⟨j 0, j 1, eq_ix2 j⟩
  show k2_pay1 (F := Ideal) (iblk2 V c 0 t) (ix2 p q)
    = Cert.ReferenceIdeal.Read.val_main_v89 (F := Ideal) (V c main_arg2) (((cfg2.win 1).blk t).view.emb (ix2 p q))
  have hemb : ((cfg2.win 1).blk t).view.emb (ix2 p q) = ix2 (row2 t p) q := by
    funext a
    apply Fin.ext
    match a with
    | ⟨0, _⟩ => show win2_1.index t (0 : Fin 2) * 2000 + 1 * p.val = t.val * 2000 + p.val; rw [e2]; omega
    | ⟨1, _⟩ => show win2_1.index t (1 : Fin 2) * 256 + 1 * q.val = q.val; rw [e3]; omega
  rw [hemb, val_main_v89_ix]
  refine (k2_pay1_apply (iblk2 V c 0 t) p q).trans ?_
  simp only [iblk2_0_apply V c t p]

/-- An index of the output array is in point t's block iff each coordinate is in the block's range on its axis. -/
theorem mem_blk2 (t : Fin cfg2.N) (i : S10000x256.Idx) :
    i ∈ ((cfg2.win 1).blk t).view.set ↔ ∀ a : Fin 2, win2_1.index t a * S2000x256.size a ≤ (i a).val
      ∧ (i a).val < win2_1.index t a * S2000x256.size a + S2000x256.size a := by
  show i ∈ ((View.whole main_v3).slice (win2_1.rect t)).set ↔ _
  rw [View.set_slice_whole, Rect.mem_set_unit]
  exact Iff.rfl

/-- The blocks tile the array: row r lies in the block of point r / 2000. -/
theorem cover2 (i : S10000x256.Idx) :
    ∃ t : Fin cfg2.N, (cfg2.win 1).flush t = true ∧ i ∈ ((cfg2.win 1).blk t).view.set := by
  have hi0 : (i 0).val < 10000 := (i 0).isLt
  have hi1 : (i 1).val < 256 := (i 1).isLt
  have hN : cfg2.N = 5 := N_2
  have ht : (i 0).val / 2000 < cfg2.N := by rw [hN]; omega
  obtain ⟨-, -, e2, e3⟩ := idx_facts2 ⟨(i 0).val / 2000, ht⟩
  refine ⟨⟨(i 0).val / 2000, ht⟩, flush2_1 _, ?_⟩
  rw [mem_blk2]
  intro a
  match a with
  | ⟨0, _⟩ =>
    show win2_1.index ⟨(i 0).val / 2000, ht⟩ (0 : Fin 2) * 2000 ≤ (i 0).val
      ∧ (i 0).val < win2_1.index ⟨(i 0).val / 2000, ht⟩ (0 : Fin 2) * 2000 + 2000
    rw [e2]
    show (i 0).val / 2000 * 2000 ≤ (i 0).val ∧ (i 0).val < (i 0).val / 2000 * 2000 + 2000
    omega
  | ⟨1, _⟩ =>
    show win2_1.index ⟨(i 0).val / 2000, ht⟩ (1 : Fin 2) * 256 ≤ (i 1).val
      ∧ (i 1).val < win2_1.index ⟨(i 0).val / 2000, ht⟩ (1 : Fin 2) * 256 + 256
    rw [e3]
    omega

/-- The output array after the region: the reference's normalized array of the input array as the region finds it. -/
theorem normalize_narrow (c : Dev nD) :
    (dat2 V c).arrAt 1 cfg2.N = Cert.ReferenceIdeal.Read.val_main_v89 (F := Ideal) (V c main_arg2) :=
  (dat2 V c).arrAt_eq_of_cover 1 _ (fun t _ => flushed2_eq V c t) (cover2)

end Cert.KernelIdeal.RegionValue

end
-- ==== Proof.EdgeWeightPayload.lean ====
/-
  The edge-weight body read at one entry.

  Blocks of rows go through the body whole, and the body weighs a row of hidden features by an inner product: entry
  (p, j) of its result is the inner product of row p of its two wide blocks times entry (p, j) of its narrow block.  The
  inner product is the lane sum of the entrywise product, kept as a column of one entry per row and spread over the
  narrow block's lanes; each of those three steps is read at an index by a lemma of its own.
-/
import proofs.«103407_j20023137534010_2_alg».proof.Proof.Gen.KernelIdeal.Skeleton
import proofs.«103407_j20023137534010_2_alg».proof.Proof.LibRowSum

noncomputable section

open scoped BigOperators

namespace Cert.KernelIdeal.RegionValue

open Idealize.ShloMosaic Idealize.ShloMosaic.ValueIdx
open Cert.KernelIdeal Cert.KernelIdeal.Gen Cert.LibRowSum

/-- The edge-weight body on blocks of 400 rows (two of 2048 lanes, one of 32): entry (p, j) is the inner product of
    row p of the two wide blocks times the narrow block's entry. -/
theorem k3_pay1_apply (x0 x2 : Vec Ideal S400x2048 .f32) (x7 : Vec Ideal S400x32 .f32) (p : Fin 400) (j : Fin 32) :
    k3_pay1 (F := Ideal) x0 x2 x7 (ix2 p j) = (∑ k : Fin 2048, x0 (ix2 p k) * x2 (ix2 p k)) * x7 (ix2 p j) := by
  unfold k3_pay1
  simp only [shapeCast_self]
  refine congrArg (· * x7 (ix2 p j)) ?_
  refine (broadcastTo_a1_ab_apply _ broadcasts_S400x1_S400x32 p j).trans ?_
  refine (shapeCast_a_a1_apply _ shapeCasts_S400_S400x1 p 0).trans ?_
  exact multiReduction_lane_apply (mulf x0 x2) 0x00000000#32 reduces_S400x2048_S400 (.inl rfl) rfl p

/-- The same body on blocks of 4000 rows (two of 256 lanes, one of 32). -/
theorem k4_pay1_apply (x0 x2 : Vec Ideal S4000x256 .f32) (x7 : Vec Ideal S4000x32 .f32) (p : Fin 4000) (j : Fin 32) :
    k4_pay1 (F := Ideal) x0 x2 x7 (ix2 p j) = (∑ k : Fin 256, x0 (ix2 p k) * x2 (ix2 p k)) * x7 (ix2 p j) := by
  unfold k4_pay1
  simp only [shapeCast_self]
  refine congrArg (· * x7 (ix2 p j)) ?_
  refine (broadcastTo_a1_ab_apply _ broadcasts_S4000x1_S4000x32 p j).trans ?_
  refine (shapeCast_a_a1_apply _ shapeCasts_S4000_S4000x1 p 0).trans ?_
  exact multiReduction_lane_apply (mulf x0 x2) 0x00000000#32 reduces_S4000x256_S4000 (.inl rfl) rfl p

end Cert.KernelIdeal.RegionValue

end
-- ==== Proof.EdgeWeightReference.lean ====
/-
  The edge messages as the reference spells them, read at one entry.

  For each edge the reference multiplies the two gathered visual rows entry by entry, sums the products along the
  lanes from a zero initial value, keeps the sums as a column, spreads the column over the 32 hidden lanes and multiplies
  the gathered hidden rows by it.  Read at entry (e, j), that is the hidden entry times the inner product of edge e's
  two visual rows; the zero initial value drops out of the sum.
-/
import proofs.«103407_j20023137534010_2_alg».proof.Proof.Spec
import proofs.«103407_j20023137534010_2_alg».proof.Proof.LibRowSum

noncomputable section

open scoped BigOperators

namespace Cert.KernelIdeal.RegionValue

open Idealize.ShloMosaic Idealize.ShloMosaic.ValueIdx
open Cert.LibRowSum

/-- Entry (e, j) of the first edge list's messages (visual rows of 2048 lanes). -/
theorem edgeMsg0_ix (vs vd : (⟨Cert.ReferenceIdeal.S80000x2048, .f32⟩ : BufTy).Contents (Elt Ideal))
    (hs : (⟨Cert.ReferenceIdeal.S80000x32, .f32⟩ : BufTy).Contents (Elt Ideal)) (e : Fin 80000) (j : Fin 32) :
    Cert.Spec.edgeMsg0 (F := Ideal) vs vd hs (ix2 e j) = hs (ix2 e j) * ∑ k : Fin 2048, vs (ix2 e k) * vd (ix2 e k) := by
  unfold Cert.Spec.edgeMsg0
  refine congrArg (hs (ix2 e j) * ·) ?_
  refine (broadcastInDim_a1_ab_apply _ Cert.ReferenceIdeal.Gen.bcast_S80000x1_S80000x32_0_1 e j).trans ?_
  refine (broadcastInDim_a_a1_apply _ Cert.ReferenceIdeal.Gen.bcast_S80000_S80000x1_0 e 0).trans ?_
  refine (hostReduceAdd_lane_apply (mulf vs vd) _ Cert.ReferenceIdeal.Gen.reducesTo_S80000x2048_S80000_d1
    Cert.ReferenceIdeal.Gen.h_S_ (by decide) e).trans ?_
  show Ideal.ofBits .f32 0x00000000#32 + _ = _
  rw [Ideal.ofBits_zero_f32, zero_add]
  rfl

/-- Entry (e, j) of the second edge list's messages (visual rows of 256 lanes). -/
theorem edgeMsg1_ix (vs vd : (⟨Cert.ReferenceIdeal.S80000x256, .f32⟩ : BufTy).Contents (Elt Ideal))
    (hs : (⟨Cert.ReferenceIdeal.S80000x32, .f32⟩ : BufTy).Contents (Elt Ideal)) (e : Fin 80000) (j : Fin 32) :
    Cert.Spec.edgeMsg1 (F := Ideal) vs vd hs (ix2 e j) = hs (ix2 e j) * ∑ k : Fin 256, vs (ix2 e k) * vd (ix2 e k) := by
  unfold Cert.Spec.edgeMsg1
  refine congrArg (hs (ix2 e j) * ·) ?_
  refine (broadcastInDim_a1_ab_apply _ Cert.ReferenceIdeal.Gen.bcast_S80000x1_S80000x32_0_1 e j).trans ?_
  refine (broadcastInDim_a_a1_apply _ Cert.ReferenceIdeal.Gen.bcast_S80000_S80000x1_0 e 0).trans ?_
  refine (hostReduceAdd_lane_apply (mulf vs vd) _ Cert.ReferenceIdeal.Gen.reducesTo_S80000x256_S80000_d1
    Cert.ReferenceIdeal.Gen.h_S_ (by decide) e).trans ?_
  show Ideal.ofBits .f32 0x00000000#32 + _ = _
  rw [Ideal.ofBits_zero_f32, zero_add]
  rfl

end Cert.KernelIdeal.RegionValue

end
-- ==== Proof.EdgeWeightWide.lean ====
/-
  Region 3: the messages of the first edge list, as one array.

  The region runs over 200 points.  At point t the body sees rows 400 t … 400 t + 399 of three arrays with one row per
  edge — the source nodes' visual rows, the destination nodes' visual rows (2048 lanes each) and the source nodes'
  hidden rows (32 lanes) — and writes its result to the same rows of the messages' array.  Entry (p, j) of the body's
  result depends on row p of the three blocks only, and those are whole rows of the arrays, so each block written back
  is the corresponding block of one function of the three whole arrays: the edge messages as the reference spells
  them.  The 200 blocks tile the 80000 rows, so the output array is that function everywhere.
-/
import proofs.«103407_j20023137534010_2_alg».proof.Proof.Gen.KernelIdeal.Frame
import proofs.«103407_j20023137534010_2_alg».proof.Proof.EdgeWeightPayload
import proofs.«103407_j20023137534010_2_alg».proof.Proof.EdgeWeightReference
import Idealize.ShloMosaic.Lib.Pipeline.Value

noncomputable section

open scoped BigOperators

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: at point t all four windows sit at block row t and block column 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row p of point t's blocks is edge 400 t + p. -/
abbrev row3 (t : Fin cfg3.N) (p : Fin 400) : Fin 80000 :=
  ⟨t.val * 400 + p.val, by have := t.isLt; have hN : cfg3.N = 200 := N_3; have := p.isLt; omega⟩

/-- The first wide block at point t is rows 400 t … 400 t + 399 of the source rows' array, every lane. -/
theorem iblk3_0_apply (c : Dev nD) (t : Fin cfg3.N) (p : Fin 400) (k : Fin 2048) :
    (iblk3 V c 0 t : Vec Ideal S400x2048 .f32) (ix2 p k) = (V c main_v18 : S80000x2048.Idx → EReal) (ix2 (row3 t p) k) := by
  obtain ⟨e0, e1, -⟩ := idx_facts3 t
  unfold iblk3
  rw [View.read_apply]
  show V c main_v18 _ = V c main_v18 _
  congr 1
  funext a
  apply Fin.ext
  match a with
  | ⟨0, _⟩ => show win3_0.index t (0 : Fin 2) * 400 + 1 * p.val = t.val * 400 + p.val; rw [e0]; omega
  | ⟨1, _⟩ => show win3_0.index t (1 : Fin 2) * 2048 + 1 * k.val = k.val; rw [e1]; omega

/-- The second wide block at point t is the same rows of the destination rows' array. -/
theorem iblk3_1_apply (c : Dev nD) (t : Fin cfg3.N) (p : Fin 400) (k : Fin 2048) :
    (iblk3 V c 1 t : Vec Ideal S400x2048 .f32) (ix2 p k) = (V c main_v25 : S80000x2048.Idx → EReal) (ix2 (row3 t p) k) := by
  obtain ⟨-, -, e0, e1, -⟩ := idx_facts3 t
  unfold iblk3
  rw [View.read_apply]
  show V c main_v25 _ = V c main_v25 _
  congr 1
  funext a
  apply Fin.ext
  match a with
  | ⟨0, _⟩ => show win3_1.index t (0 : Fin 2) * 400 + 1 * p.val = t.val * 400 + p.val; rw [e0]; omega
  | ⟨1, _⟩ => show win3_1.index t (1 : Fin 2) * 2048 + 1 * k.val = k.val; rw [e1]; omega

/-- The narrow block at point t is the same rows of the hidden rows' array, all 32 lanes. -/
theorem iblk3_2_apply (c : Dev nD) (t : Fin cfg3.N) (p : Fin 400) (j : Fin 32) :
    (iblk3 V c 2 t : Vec Ideal S400x32 .f32) (ix2 p j) = (V c main_v32 : S80000x32.Idx → EReal) (ix2 (row3 t p) j) := by
  obtain ⟨-, -, -, -, e0, e1, -⟩ := idx_facts3 t
  unfold iblk3
  rw [View.read_apply]
  show V c main_v32 _ = V c main_v32 _
  congr 1
  funext a
  apply Fin.ext
  match a with
  | ⟨0, _⟩ => show win3_2.index t (0 : Fin 2) * 400 + 1 * p.val = t.val * 400 + p.val; rw [e0]; omega
  | ⟨1, _⟩ => show win3_2.index t (1 : Fin 2) * 32 + 1 * j.val = j.val; rw [e1]; omega

/-- What point t writes back is block t of the edge messages of the three input arrays: the body's entry (p, j) is a
    function of row p of its three blocks, and those are row 400 t + p of the three arrays.  The body multiplies the inner
    product by the hidden entry, the reference the hidden entry by the inner product: the product commutes. -/
theorem flushed3_eq (c : Dev nD) (t : Fin cfg3.N) :
    (dat3 V c).flushed 3 t
      = ((cfg3.win 3).blk t).view.read (Elt Ideal) (Cert.Spec.edgeMsg0 (F := Ideal) (V c main_v18) (V c main_v25) (V c main_v32)) := by
  show (cfg3.win 3).cut (grid3.coords t) ((dat3 V c).after 3 t) = _
  rw [after3_3]
  unfold out3_3
  rw [View.canon_unit_zero hz3]
  simp only [View.ld_unit_zero (S := S400x2048) hz3, View.ld_unit_zero (S := S400x32) hz3]
  obtain ⟨-, -, -, -, -, -, e6, e7⟩ := idx_facts3 t
  funext j
  obtain ⟨p, q, rfl⟩ : ∃ (p : Fin 400) (q : Fin 32), j = ix2 p q := ⟨j 0, j 1, eq_ix2 j⟩
  show k3_pay1 (F := Ideal) (iblk3 V c 0 t) (iblk3 V c 1 t) (iblk3 V c 2 t) (ix2 p q)
    = Cert.Spec.edgeMsg0 (F := Ideal) (V c main_v18) (V c main_v25) (V c main_v32) (((cfg3.win 3).blk t).view.emb (ix2 p q))
  have hemb : ((cfg3.win 3).blk t).view.emb (ix2 p q) = ix2 (row3 t p) q := by
    funext a
    apply Fin.ext
    match a with
    | ⟨0, _⟩ => show win3_3.index t (0 : Fin 2) * 400 + 1 * p.val = t.val * 400 + p.val; rw [e6]; omega
    | ⟨1, _⟩ => show win3_3.index t (1 : Fin 2) * 32 + 1 * q.val = q.val; rw [e7]; omega
  rw [hemb, edgeMsg0_ix]
  refine (k3_pay1_apply (iblk3 V c 0 t) (iblk3 V c 1 t) (iblk3 V c 2 t) p q).trans ?_
  simp only [iblk3_0_apply V c t p, iblk3_1_apply V c t p, iblk3_2_apply V c t p]
  exact mul_comm _ _

/-- An index of the output array is in point t's block iff each coordinate is in the block's range on its axis. -/
theorem mem_blk3 (t : Fin cfg3.N) (i : S80000x32.Idx) :
    i ∈ ((cfg3.win 3).blk t).view.set ↔ ∀ a : Fin 2, win3_3.index t a * S400x32.size a ≤ (i a).val
      ∧ (i a).val < win3_3.index t a * S400x32.size a + S400x32.size a := by
  show i ∈ ((View.whole main_v54).slice (win3_3.rect t)).set ↔ _
  rw [View.set_slice_whole, Rect.mem_set_unit]
  exact Iff.rfl

/-- The blocks tile the array: edge e lies in the block of point e / 400. -/
theorem cover3 (i : S80000x32.Idx) :
    ∃ t : Fin cfg3.N, (cfg3.win 3).flush t = true ∧ i ∈ ((cfg3.win 3).blk t).view.set := by
  have hi0 : (i 0).val < 80000 := (i 0).isLt
  have hi1 : (i 1).val < 32 := (i 1).isLt
  have hN : cfg3.N = 200 := N_3
  have ht : (i 0).val / 400 < cfg3.N := by rw [hN]; omega
  obtain ⟨-, -, -, -, -, -, e6, e7⟩ := idx_facts3 ⟨(i 0).val / 400, ht⟩
  refine ⟨⟨(i 0).val / 400, ht⟩, flush3_3 _, ?_⟩
  rw [mem_blk3]
  intro a
  match a with
  | ⟨0, _⟩ =>
    show win3_3.index ⟨(i 0).val / 400, ht⟩ (0 : Fin 2) * 400 ≤ (i 0).val
      ∧ (i 0).val < win3_3.index ⟨(i 0).val / 400, ht⟩ (0 : Fin 2) * 400 + 400
    rw [e6]
    show (i 0).val / 400 * 400 ≤ (i 0).val ∧ (i 0).val < (i 0).val / 400 * 400 + 400
    omega
  | ⟨1, _⟩ =>
    show win3_3.index ⟨(i 0).val / 400, ht⟩ (1 : Fin 2) * 32 ≤ (i 1).val
      ∧ (i 1).val < win3_3.index ⟨(i 0).val / 400, ht⟩ (1 : Fin 2) * 32 + 32
    rw [e7]
    omega

/-- The output array after the region: the edge messages of the three input arrays as the region finds them. -/
theorem edge_messages_wide (c : Dev nD) :
    (dat3 V c).arrAt 3 cfg3.N = Cert.Spec.edgeMsg0 (F := Ideal) (V c main_v18) (V c main_v25) (V c main_v32) :=
  (dat3 V c).arrAt_eq_of_cover 3 _ (fun t _ => flushed3_eq V c t) (cover3)

end Cert.KernelIdeal.RegionValue

end
-- ==== Proof.EdgeWeightNarrow.lean ====
/-
  Region 4: the messages of the second edge list, as one array.

  The region runs over 20 points.  At point t the body sees rows 4000 t … 4000 t + 3999 of three arrays with one row per
  edge — the source nodes' visual rows, the destination nodes' visual rows (256 lanes each) and the source nodes'
  hidden rows (32 lanes) — and writes its result to the same rows of the messages' array.  Entry (p, j) of the body's
  result depends on row p of the three blocks only, and those are whole rows of the arrays, so each block written back
  is the corresponding block of one function of the three whole arrays: the edge messages as the reference spells
  them.  The 20 blocks tile the 80000 rows, so the output array is that function everywhere.
-/
import proofs.«103407_j20023137534010_2_alg».proof.Proof.Gen.KernelIdeal.Frame
import proofs.«103407_j20023137534010_2_alg».proof.Proof.EdgeWeightPayload
import proofs.«103407_j20023137534010_2_alg».proof.Proof.EdgeWeightReference
import Idealize.ShloMosaic.Lib.Pipeline.Value

noncomputable section

open scoped BigOperators

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: at point t all four windows sit at block row t and block column 0. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Row p of point t's blocks is edge 4000 t + p. -/
abbrev row4 (t : Fin cfg4.N) (p : Fin 4000) : Fin 80000 :=
  ⟨t.val * 4000 + p.val, by have := t.isLt; have hN : cfg4.N = 20 := N_4; have := p.isLt; omega⟩

/-- The first wide block at point t is rows 4000 t … 4000 t + 3999 of the source rows' array, every lane. -/
theorem iblk4_0_apply (c : Dev nD) (t : Fin cfg4.N) (p : Fin 4000) (k : Fin 256) :
    (iblk4 V c 0 t : Vec Ideal S4000x256 .f32) (ix2 p k) = (V c main_v39 : S80000x256.Idx → EReal) (ix2 (row4 t p) k) := by
  obtain ⟨e0, e1, -⟩ := idx_facts4 t
  unfold iblk4
  rw [View.read_apply]
  show V c main_v39 _ = V c main_v39 _
  congr 1
  funext a
  apply Fin.ext
  match a with
  | ⟨0, _⟩ => show win4_0.index t (0 : Fin 2) * 4000 + 1 * p.val = t.val * 4000 + p.val; rw [e0]; omega
  | ⟨1, _⟩ => show win4_0.index t (1 : Fin 2) * 256 + 1 * k.val = k.val; rw [e1]; omega

/-- The second wide block at point t is the same rows of the destination rows' array. -/
theorem iblk4_1_apply (c : Dev nD) (t : Fin cfg4.N) (p : Fin 4000) (k : Fin 256) :
    (iblk4 V c 1 t : Vec Ideal S4000x256 .f32) (ix2 p k) = (V c main_v46 : S80000x256.Idx → EReal) (ix2 (row4 t p) k) := by
  obtain ⟨-, -, e0, e1, -⟩ := idx_facts4 t
  unfold iblk4
  rw [View.read_apply]
  show V c main_v46 _ = V c main_v46 _
  congr 1
  funext a
  apply Fin.ext
  match a with
  | ⟨0, _⟩ => show win4_1.index t (0 : Fin 2) * 4000 + 1 * p.val = t.val * 4000 + p.val; rw [e0]; omega
  | ⟨1, _⟩ => show win4_1.index t (1 : Fin 2) * 256 + 1 * k.val = k.val; rw [e1]; omega

/-- The narrow block at point t is the same rows of the hidden rows' array, all 32 lanes. -/
theorem iblk4_2_apply (c : Dev nD) (t : Fin cfg4.N) (p : Fin 4000) (j : Fin 32) :
    (iblk4 V c 2 t : Vec Ideal S4000x32 .f32) (ix2 p j) = (V c main_v53 : S80000x32.Idx → EReal) (ix2 (row4 t p) j) := by
  obtain ⟨-, -, -, -, e0, e1, -⟩ := idx_facts4 t
  unfold iblk4
  rw [View.read_apply]
  show V c main_v53 _ = V c main_v53 _
  congr 1
  funext a
  apply Fin.ext
  match a with
  | ⟨0, _⟩ => show win4_2.index t (0 : Fin 2) * 4000 + 1 * p.val = t.val * 4000 + p.val; rw [e0]; omega
  | ⟨1, _⟩ => show win4_2.index t (1 : Fin 2) * 32 + 1 * j.val = j.val; rw [e1]; omega

/-- What point t writes back is block t of the edge messages of the three input arrays: the body's entry (p, j) is a
    function of row p of its three blocks, and those are row 4000 t + p of the three arrays.  The body multiplies the inner
    product by the hidden entry, the reference the hidden entry by the inner product: the product commutes. -/
theorem flushed4_eq (c : Dev nD) (t : Fin cfg4.N) :
    (dat4 V c).flushed 3 t
      = ((cfg4.win 3).blk t).view.read (Elt Ideal) (Cert.Spec.edgeMsg1 (F := Ideal) (V c main_v39) (V c main_v46) (V c main_v53)) := by
  show (cfg4.win 3).cut (grid4.coords t) ((dat4 V c).after 3 t) = _
  rw [after4_3]
  unfold out4_3
  rw [View.canon_unit_zero hz4]
  simp only [View.ld_unit_zero (S := S4000x256) hz4, View.ld_unit_zero (S := S4000x32) hz4]
  obtain ⟨-, -, -, -, -, -, e6, e7⟩ := idx_facts4 t
  funext j
  obtain ⟨p, q, rfl⟩ : ∃ (p : Fin 4000) (q : Fin 32), j = ix2 p q := ⟨j 0, j 1, eq_ix2 j⟩
  show k4_pay1 (F := Ideal) (iblk4 V c 0 t) (iblk4 V c 1 t) (iblk4 V c 2 t) (ix2 p q)
    = Cert.Spec.edgeMsg1 (F := Ideal) (V c main_v39) (V c main_v46) (V c main_v53) (((cfg4.win 3).blk t).view.emb (ix2 p q))
  have hemb : ((cfg4.win 3).blk t).view.emb (ix2 p q) = ix2 (row4 t p) q := by
    funext a
    apply Fin.ext
    match a with
    | ⟨0, _⟩ => show win4_3.index t (0 : Fin 2) * 4000 + 1 * p.val = t.val * 4000 + p.val; rw [e6]; omega
    | ⟨1, _⟩ => show win4_3.index t (1 : Fin 2) * 32 + 1 * q.val = q.val; rw [e7]; omega
  rw [hemb, edgeMsg1_ix]
  refine (k4_pay1_apply (iblk4 V c 0 t) (iblk4 V c 1 t) (iblk4 V c 2 t) p q).trans ?_
  simp only [iblk4_0_apply V c t p, iblk4_1_apply V c t p, iblk4_2_apply V c t p]
  exact mul_comm _ _

/-- An index of the output array is in point t's block iff each coordinate is in the block's range on its axis. -/
theorem mem_blk4 (t : Fin cfg4.N) (i : S80000x32.Idx) :
    i ∈ ((cfg4.win 3).blk t).view.set ↔ ∀ a : Fin 2, win4_3.index t a * S4000x32.size a ≤ (i a).val
      ∧ (i a).val < win4_3.index t a * S4000x32.size a + S4000x32.size a := by
  show i ∈ ((View.whole main_v55).slice (win4_3.rect t)).set ↔ _
  rw [View.set_slice_whole, Rect.mem_set_unit]
  exact Iff.rfl

/-- The blocks tile the array: edge e lies in the block of point e / 4000. -/
theorem cover4 (i : S80000x32.Idx) :
    ∃ t : Fin cfg4.N, (cfg4.win 3).flush t = true ∧ i ∈ ((cfg4.win 3).blk t).view.set := by
  have hi0 : (i 0).val < 80000 := (i 0).isLt
  have hi1 : (i 1).val < 32 := (i 1).isLt
  have hN : cfg4.N = 20 := N_4
  have ht : (i 0).val / 4000 < cfg4.N := by rw [hN]; omega
  obtain ⟨-, -, -, -, -, -, e6, e7⟩ := idx_facts4 ⟨(i 0).val / 4000, ht⟩
  refine ⟨⟨(i 0).val / 4000, ht⟩, flush4_3 _, ?_⟩
  rw [mem_blk4]
  intro a
  match a with
  | ⟨0, _⟩ =>
    show win4_3.index ⟨(i 0).val / 4000, ht⟩ (0 : Fin 2) * 4000 ≤ (i 0).val
      ∧ (i 0).val < win4_3.index ⟨(i 0).val / 4000, ht⟩ (0 : Fin 2) * 4000 + 4000
    rw [e6]
    show (i 0).val / 4000 * 4000 ≤ (i 0).val ∧ (i 0).val < (i 0).val / 4000 * 4000 + 4000
    omega
  | ⟨1, _⟩ =>
    show win4_3.index ⟨(i 0).val / 4000, ht⟩ (1 : Fin 2) * 32 ≤ (i 1).val
      ∧ (i 1).val < win4_3.index ⟨(i 0).val / 4000, ht⟩ (1 : Fin 2) * 32 + 32
    rw [e7]
    omega

/-- The output array after the region: the edge messages of the three input arrays as the region finds them. -/
theorem edge_messages_narrow (c : Dev nD) :
    (dat4 V c).arrAt 3 cfg4.N = Cert.Spec.edgeMsg1 (F := Ideal) (V c main_v39) (V c main_v46) (V c main_v53) :=
  (dat4 V c).arrAt_eq_of_cover 3 _ (fun t _ => flushed4_eq V c t) (cover4)

end Cert.KernelIdeal.RegionValue

end
-- ==== Proof.ProjForm.lean ====
/-
  One scoring head of the projection, for one node, as a number.

  A head takes the node's row of 32 aggregated message entries, maps it through an affine map 32 → 32 (a weight
  matrix and a bias vector), and scores the result by a second affine map 32 → 1 (a weight column and one bias):

      head row = (Σ_k ((Σ_l row l · Wc (l, k)) + bc k) · wp (k, 0)) + bp 0.

  Both programs compute exactly this number for every node and head; they differ only in how the bias vector is laid
  along the rows before it is added.  This module states the number once, and reads at an index the two ways a vector
  is laid along every row of a matrix: a one-row reshape followed by a broadcast down the rows, and a broadcast of the
  vector into one row followed by a broadcast of that row down the rows.  It mentions neither program.
-/
import Idealize.ShloMosaic.Lib.Pipeline.Value
import Idealize.ShloMosaic.Lib.ValueIdx
import Idealize.ShloMosaic.Lib.StackMember
import Idealize.ShloMosaic.PureOps.Ideal.Laws

noncomputable section

namespace Cert.KernelIdeal.RegionValue.Proj

open Idealize.ShloMosaic Idealize.ShloMosaic.ValueIdx
open scoped BigOperators

/-- The score one head gives one node, from the node's row of aggregated messages and the head's four parameters. -/
def headAt (row : Fin 32 → EReal) (wc : FVec Ideal ⟨2, ![32, 32]⟩ .f32) (bc : FVec Ideal ⟨1, ![32]⟩ .f32)
    (wp : FVec Ideal ⟨2, ![32, 1]⟩ .f32) (bp : FVec Ideal ⟨1, ![1]⟩ .f32) : EReal :=
  (∑ k : Fin 32, ((∑ l : Fin 32, row l * wc (ix2 l k)) + bc (ix1 k)) * wp (ix2 k (0 : Fin 1))) + bp (ix1 (0 : Fin 1))

/-- A head's number depends on the row and on the parameters only through the entries it reads. -/
theorem headAt_congr {row row' : Fin 32 → EReal} {wc wc' : FVec Ideal ⟨2, ![32, 32]⟩ .f32} {bc bc' : FVec Ideal ⟨1, ![32]⟩ .f32}
    {wp wp' : FVec Ideal ⟨2, ![32, 1]⟩ .f32} {bp bp' : FVec Ideal ⟨1, ![1]⟩ .f32}
    (hrow : ∀ l, row l = row' l) (hwc : ∀ l k, wc (ix2 l k) = wc' (ix2 l k)) (hbc : ∀ k, bc (ix1 k) = bc' (ix1 k))
    (hwp : ∀ k, wp (ix2 k (0 : Fin 1)) = wp' (ix2 k (0 : Fin 1))) (hbp : bp (ix1 (0 : Fin 1)) = bp' (ix1 (0 : Fin 1))) :
    headAt row wc bc wp bp = headAt row' wc' bc' wp' bp' := by
  unfold headAt
  rw [hbp]
  refine congrArg (· + bp' (ix1 (0 : Fin 1))) (Finset.sum_congr rfl fun k _ => ?_)
  rw [hwp k, hbc k]
  refine congrArg (fun s => (s + bc' (ix1 k)) * wp' (ix2 k (0 : Fin 1))) (Finset.sum_congr rfl fun l _ => ?_)
  rw [hrow l, hwc l k]

section Rows
variable {α : Type}

/-- A vector of `n` entries reshaped to one row and broadcast down `m` rows holds, at (p, k), the vector's entry `k`:
    the broadcast keeps the column and reads row 0, and the one-row reshape keeps the row-major position. -/
theorem broadcastTo_oneRow_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (k : Fin n) :
    broadcastTo ⟨2, ![m, n]⟩ (shapeCast ⟨2, ![1, n]⟩ x h1) hb (ix2 p k) = x (ix1 k) := by
  have e1 := broadcastTo_apply (shapeCast ⟨2, ![1, n]⟩ x h1) hb (ix2 p k) (ix2 (0 : Fin 1) k) (by
    intro a
    match a with
    | ⟨0, _⟩ => rfl
    | ⟨1, _⟩ =>
      show k.val = if n = 1 then 0 else k.val
      split
      · have := k.isLt; omega
      · rfl)
  have e2 := shapeCast_apply x h1 (ix2 (0 : Fin 1) k) (ix1 k) (by
    rw [Shape.rowMajor_val_two, Shape.rowMajor_val_one]; show k.val = 0 * n + k.val; omega)
  exact e1.trans e2

/-- A vector of `n` entries broadcast into one row, and that row broadcast down `m` rows, holds at (r, t) the vector's
    entry `t`: each broadcast keeps the column. -/
theorem broadcastInDim_oneRow_vec_apply {m n : Nat}
    (hd : (⟨1, ![n]⟩ : Shape).BroadcastsInDim ⟨2, ![1, n]⟩ ![1])
    (hbc : (⟨2, ![1, n]⟩ : Shape).BroadcastsInDim ⟨2, ![m, n]⟩ ![0, 1])
    (x : (⟨1, ![n]⟩ : Shape).Idx → α) (r : Fin m) (t : Fin n) :
    broadcastInDim ⟨2, ![m, n]⟩ ![0, 1] hbc (broadcastInDim ⟨2, ![1, n]⟩ ![1] hd x) (ix2 r t) = x (ix1 t) := by
  have e1 := broadcastInDim_apply ![0, 1] hbc (broadcastInDim ⟨2, ![1, n]⟩ ![1] hd x) (ix2 r t) (ix2 (0 : Fin 1) t) (by
    intro a
    match a with
    | ⟨0, _⟩ => rfl
    | ⟨1, _⟩ =>
      show t.val = if n = 1 then 0 else t.val
      split
      · have := t.isLt; omega
      · rfl)
  have e2 := broadcastInDim_apply ![1] hd x (ix2 (0 : Fin 1) t) (ix1 t) (by
    intro a
    match a with
    | ⟨0, _⟩ =>
      show t.val = if n = 1 then 0 else t.val
      split
      · have := t.isLt; omega
      · rfl)
  exact e1.trans e2

end Rows

end Cert.KernelIdeal.RegionValue.Proj

end
-- ==== Proof.ProjKernel.lean ====
/-
  The projection body's payload, read at one row of a block.

  The body holds a block of 2000 nodes: the two blocks of aggregated messages, the block of node scores, and the two
  heads' parameters whole.  Per head it forms the hidden block (the messages times the 32 × 32 weights, into a zero
  accumulator, plus the bias vector laid along the rows), scores it (times the 32 × 1 weights, into a zero
  accumulator, plus the one bias laid along the rows), and stores node score + first head + second head.

  At the exact values the format changes around the matrix unit are the identity, a product accumulated into zero is
  the plain product, and a plain product at (p, k) is the sum over the contracted coordinate.  So row p of the stored
  block is the node's score plus the two heads' numbers of row p of the message blocks.
-/
import proofs.«103407_j20023137534010_2_alg».proof.Proof.Gen.KernelIdeal.Skeleton
import proofs.«103407_j20023137534010_2_alg».proof.Proof.ProjForm
import Idealize.ShloMosaic.Lib.KernelVsHost

noncomputable section

namespace Cert.KernelIdeal.RegionValue.Proj

open Idealize.ShloMosaic Idealize.ShloMosaic.ValueIdx Idealize.ShloMosaic.StackMember
open Cert.KernelIdeal Cert.KernelIdeal.Gen
open scoped BigOperators

/-- The body's two products are the plain products of their extents: the same dimension numbers, contract the left
    operand's columns against the right operand's rows. -/
theorem dot_hidden_eq : dot_S2000x32_S32x32_S2000x32_1_0_0_1_n_n = DotDims.plain 2000 32 32 := rfl
theorem dot_score_eq : dot_S2000x32_S32x1_S2000x1_1_0_0_1_n_n = DotDims.plain 2000 32 1 := rfl

/-- The hidden block of one head at (p, k): row p of the messages against column k of the weights, plus bias k. -/
theorem hidden_apply (x0 : Vec Ideal S2000x32 .f32) (x3 : Vec Ideal S32x32 .f32) (x6 : Vec Ideal S32 .f32)
    (p : Fin 2000) (k : Fin 32) :
    addf (matmul dot_S2000x32_S32x32_S2000x32_1_0_0_1_n_n none
        (truncf .bf16 (shapeCast S2000x32 x0 shapeCasts_S2000x32_S2000x32) bitsLt_bf16_f32 : FVec Ideal S2000x32 .bf16)
        (truncf .bf16 x3 bitsLt_bf16_f32 : FVec Ideal S32x32 .bf16) (constant S2000x32 .f32 0x00000000#32))
      (broadcastTo S2000x32 (shapeCast S1x32 x6 shapeCasts_S32_S1x32) broadcasts_S1x32_S2000x32) (ix2 p k)
      = (∑ l : Fin 32, x0 (ix2 p l) * x3 (ix2 l k)) + x6 (ix1 k) := by
  rw [addf_apply, matmul_zero_eq_dotGeneral, dot_hidden_eq, dotGeneral_plain_apply, shapeCast_self,
    broadcastTo_oneRow_apply]
  rfl

/-- The first head's score block at (p, 0): the hidden block's row p against the scoring weights, plus the one bias —
    the head's number of row p of the message block. -/
theorem pay2_apply (x0 : Vec Ideal S2000x32 .f32) (x3 : Vec Ideal S32x32 .f32) (x6 : Vec Ideal S32 .f32)
    (x20 : Vec Ideal S32x1 .f32) (x24 : Vec Ideal S1 .f32) (p : Fin 2000) :
    k5_pay2 (F := Ideal) x0 x3 x6 x20 x24 (ix2 p (0 : Fin 1)) = headAt (fun l => x0 (ix2 p l)) x3 x6 x20 x24 := by
  unfold k5_pay2 headAt
  dsimp only
  rw [addf_apply, matmul_zero_eq_dotGeneral, dot_score_eq, dotGeneral_plain_apply, broadcastTo_oneRow_apply]
  congr 1
  refine Finset.sum_congr rfl fun k _ => ?_
  exact congrArg (· * x20 (ix2 k (0 : Fin 1))) (hidden_apply x0 x3 x6 p k)

/-- The second head's payload is the same function of its own operands. -/
theorem pay3_apply (x10 : Vec Ideal S2000x32 .f32) (x13 : Vec Ideal S32x32 .f32) (x16 : Vec Ideal S32 .f32)
    (x28 : Vec Ideal S32x1 .f32) (x32 : Vec Ideal S1 .f32) (p : Fin 2000) :
    k5_pay3 (F := Ideal) x10 x13 x16 x28 x32 (ix2 p (0 : Fin 1)) = headAt (fun l => x10 (ix2 p l)) x13 x16 x28 x32 :=
  pay2_apply x10 x13 x16 x28 x32 p

/-- The stored block: node score plus first head, plus second head, entry by entry (the reshape to the same shape is
    the identity). -/
theorem pay1_apply (v27 v35 : FVec Ideal S2000x1 .f32) (v36 : Vec Ideal S2000x1 .f32) (j : S2000x1.Idx) :
    k5_pay1 (F := Ideal) v27 v35 v36 j = (v36 j + v27 j) + v35 j := by
  unfold k5_pay1
  rw [addf_apply, addf_apply, shapeCast_self]

/-- Row p of the block the body stores, from row p of its input blocks and the parameters. -/
theorem proj_block_apply (x0 x1 : Vec Ideal S2000x32 .f32) (x2 : Vec Ideal S2000x1 .f32) (x3 : Vec Ideal S32x32 .f32)
    (x4 : Vec Ideal S32 .f32) (x5 : Vec Ideal S32x32 .f32) (x6 : Vec Ideal S32 .f32) (x7 : Vec Ideal S32x1 .f32)
    (x8 : Vec Ideal S1 .f32) (x9 : Vec Ideal S32x1 .f32) (x10 : Vec Ideal S1 .f32) (p : Fin 2000) :
    k5_pay1 (F := Ideal) (k5_pay2 x0 x3 x4 x7 x8) (k5_pay3 x1 x5 x6 x9 x10) x2 (ix2 p (0 : Fin 1))
      = (x2 (ix2 p (0 : Fin 1)) + headAt (fun l => x0 (ix2 p l)) x3 x4 x7 x8)
        + headAt (fun l => x1 (ix2 p l)) x5 x6 x9 x10 := by
  rw [pay1_apply, pay2_apply, pay3_apply]

end Cert.KernelIdeal.RegionValue.Proj

end
-- ==== Proof.ProjRef.lean ====
/-
  The specification's conv head and final column, read at one node.

  The specification spells a head with the host's operations: the aggregated messages times the 32 × 32 weights, plus
  the bias vector broadcast into one row and that row down the 10000 rows; the result times the 32 × 1 weights, plus
  the one bias broadcast the same way.  Each product at (r, k) is the sum over the contracted coordinate, and each
  double broadcast at (r, k) is the vector's entry k.  So the head at node r is the head's number of row r of the
  messages, and the final column at node r is the node's score plus the two heads' numbers, in that grouping.
-/
import proofs.«103407_j20023137534010_2_alg».proof.Proof.Spec
import proofs.«103407_j20023137534010_2_alg».proof.Proof.ProjForm

noncomputable section

namespace Cert.KernelIdeal.RegionValue.Proj

open Idealize.ShloMosaic Idealize.ShloMosaic.ValueIdx Idealize.ShloMosaic.StackMember
open scoped BigOperators

/-- The specification's two products are the plain products of their extents. -/
theorem spec_dot_hidden_eq :
    Cert.ReferenceIdeal.dot_S10000x32_S32x32_S10000x32_1_0_0_1_n_n = DotDims.plain 10000 32 32 := rfl
theorem spec_dot_score_eq :
    Cert.ReferenceIdeal.dot_S10000x32_S32x1_S10000x1_1_0_0_1_n_n = DotDims.plain 10000 32 1 := rfl

/-- A conv head at node r is the head's number of row r of the aggregated messages. -/
theorem convHead_apply (agg : (⟨Cert.ReferenceIdeal.S10000x32, .f32⟩ : BufTy).Contents (Elt Ideal))
    (wc : (⟨Cert.ReferenceIdeal.S32x32, .f32⟩ : BufTy).Contents (Elt Ideal))
    (bc : (⟨Cert.ReferenceIdeal.S32, .f32⟩ : BufTy).Contents (Elt Ideal))
    (wp : (⟨Cert.ReferenceIdeal.S32x1, .f32⟩ : BufTy).Contents (Elt Ideal))
    (bp : (⟨Cert.ReferenceIdeal.S1, .f32⟩ : BufTy).Contents (Elt Ideal)) (r : Fin 10000) :
    Cert.Spec.convHead (F := Ideal) agg wc bc wp bp (ix2 r (0 : Fin 1)) = headAt (fun l => agg (ix2 r l)) wc bc wp bp := by
  unfold Cert.Spec.convHead headAt
  rw [addf_apply, spec_dot_score_eq, dotGeneral_plain_apply, broadcastInDim_oneRow_vec_apply]
  congr 1
  refine Finset.sum_congr rfl fun k _ => ?_
  rw [addf_apply, spec_dot_hidden_eq, dotGeneral_plain_apply, broadcastInDim_oneRow_vec_apply]

/-- The final column at node r: the node's score, plus the first head's number, plus the second head's. -/
theorem projOut_apply (agg0 agg1 : (⟨Cert.ReferenceIdeal.S10000x32, .f32⟩ : BufTy).Contents (Elt Ideal))
    (ns : (⟨Cert.ReferenceIdeal.S10000x1, .f32⟩ : BufTy).Contents (Elt Ideal))
    (wc0 : (⟨Cert.ReferenceIdeal.S32x32, .f32⟩ : BufTy).Contents (Elt Ideal))
    (bc0 : (⟨Cert.ReferenceIdeal.S32, .f32⟩ : BufTy).Contents (Elt Ideal))
    (wc1 : (⟨Cert.ReferenceIdeal.S32x32, .f32⟩ : BufTy).Contents (Elt Ideal))
    (bc1 : (⟨Cert.ReferenceIdeal.S32, .f32⟩ : BufTy).Contents (Elt Ideal))
    (wp0 : (⟨Cert.ReferenceIdeal.S32x1, .f32⟩ : BufTy).Contents (Elt Ideal))
    (bp0 : (⟨Cert.ReferenceIdeal.S1, .f32⟩ : BufTy).Contents (Elt Ideal))
    (wp1 : (⟨Cert.ReferenceIdeal.S32x1, .f32⟩ : BufTy).Contents (Elt Ideal))
    (bp1 : (⟨Cert.ReferenceIdeal.S1, .f32⟩ : BufTy).Contents (Elt Ideal)) (r : Fin 10000) :
    Cert.Spec.projOut (F := Ideal) agg0 agg1 ns wc0 bc0 wc1 bc1 wp0 bp0 wp1 bp1 (ix2 r (0 : Fin 1))
      = (ns (ix2 r (0 : Fin 1)) + headAt (fun l => agg0 (ix2 r l)) wc0 bc0 wp0 bp0)
        + headAt (fun l => agg1 (ix2 r l)) wc1 bc1 wp1 bp1 := by
  unfold Cert.Spec.projOut
  rw [addf_apply, addf_apply, convHead_apply, convHead_apply]

end Cert.KernelIdeal.RegionValue.Proj

end
-- ==== Proof.ProjBlocks.lean ====
/-
  Where an entry of a block sits in its array, for the projection region's eleven input windows.

  The region runs over 5 points.  Point t holds rows 2000·t … 2000·t + 1999 of the three row-blocked inputs (the two
  arrays of aggregated messages, 10000 × 32, and the column of node scores, 10000 × 1) and the eight parameter arrays
  whole.  An entry of a block sits in its array, on each axis, at block index × block size + its coordinate in the
  block.  The index maps are decided once over the 5 points: a row-blocked window is at block t on the rows and block 0
  on the columns, a parameter window at block 0 on every axis.  So row p of point t's block is row 2000·t + p of the
  array, and a parameter block's entry keeps its coordinates.
-/
import proofs.«103407_j20023137534010_2_alg».proof.Proof.Gen.KernelIdeal.Frame
import Idealize.ShloMosaic.Lib.Pipeline.Value
import Idealize.ShloMosaic.Lib.ValueIdx

noncomputable section

namespace Cert.KernelIdeal.RegionValue.Proj

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem proj_hz2 : (![0, 0] : Fin 2 → Nat) = fun _ => 0 := funext fun a => by fin_cases a <;> rfl
theorem proj_hz1 : (![0] : Fin 1 → Nat) = fun _ => 0 := funext fun a => by fin_cases a <;> rfl

/-- The region has 5 points. -/
theorem proj_point_lt (t : Fin cfg5.N) : t.val < 5 := lt_of_lt_of_eq t.isLt N_5

/-- The index maps of the row-blocked windows, decided over the 5 points: block t on the rows, block 0 on the columns. -/
theorem proj_idx_rows : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_11.index t (0 : Fin 2) = t.val ∧ win5_11.index t (1 : Fin 2) = 0) :=
  (by decide +kernel : ∀ t : Fin grid5.N, _)

/-- The index maps of the parameter windows: block 0 on every axis, at every point. -/
theorem proj_idx_whole : ∀ t : Fin cfg5.N,
    (win5_3.index t (0 : Fin 2) = 0 ∧ win5_3.index t (1 : Fin 2) = 0)
    ∧ win5_4.index t (0 : Fin 1) = 0
    ∧ (win5_5.index t (0 : Fin 2) = 0 ∧ win5_5.index t (1 : Fin 2) = 0)
    ∧ win5_6.index t (0 : Fin 1) = 0
    ∧ (win5_7.index t (0 : Fin 2) = 0 ∧ win5_7.index t (1 : Fin 2) = 0)
    ∧ win5_8.index t (0 : Fin 1) = 0
    ∧ (win5_9.index t (0 : Fin 2) = 0 ∧ win5_9.index t (1 : Fin 2) = 0)
    ∧ win5_10.index t (0 : Fin 1) = 0 :=
  (by decide +kernel : ∀ t : Fin grid5.N, _)

/-! ## Where a block's entry sits in its array -/

/-- Row p of point t's block of the first array of aggregated messages is row 2000·t + p of the array. -/
theorem proj_agg0_block (c : Dev nD) (t : Fin cfg5.N) (p : Fin 2000) (l : Fin 32) (hr : t.val * 2000 + p.val < 10000) :
    (iblk5 V c 0 t : Vec Ideal S2000x32 .f32) (ix2 p l)
      = (V c main_v58 : S10000x32.Idx → Elt Ideal .f32) (ix2 (⟨t.val * 2000 + p.val, hr⟩ : Fin 10000) l) := by
  obtain ⟨⟨e0, e1⟩, -⟩ := proj_idx_rows t
  unfold iblk5
  rw [View.read_apply]
  show (V c main_v58 : S10000x32.Idx → Elt Ideal .f32) (((cfg5.win 0).blk t).view.emb (ix2 p l)) = _
  refine congrArg (V c main_v58 : S10000x32.Idx → Elt Ideal .f32) (funext fun a => Fin.ext ?_)
  match a with
  | ⟨0, _⟩ => show win5_0.index t (0 : Fin 2) * 2000 + 1 * p.val = t.val * 2000 + p.val; rw [e0]; omega
  | ⟨1, _⟩ => show win5_0.index t (1 : Fin 2) * 32 + 1 * l.val = l.val; rw [e1]; omega

/-- The same for the second array of aggregated messages. -/
theorem proj_agg1_block (c : Dev nD) (t : Fin cfg5.N) (p : Fin 2000) (l : Fin 32) (hr : t.val * 2000 + p.val < 10000) :
    (iblk5 V c 1 t : Vec Ideal S2000x32 .f32) (ix2 p l)
      = (V c main_v61 : S10000x32.Idx → Elt Ideal .f32) (ix2 (⟨t.val * 2000 + p.val, hr⟩ : Fin 10000) l) := by
  obtain ⟨-, ⟨e0, e1⟩, -⟩ := proj_idx_rows t
  unfold iblk5
  rw [View.read_apply]
  show (V c main_v61 : S10000x32.Idx → Elt Ideal .f32) (((cfg5.win 1).blk t).view.emb (ix2 p l)) = _
  refine congrArg (V c main_v61 : S10000x32.Idx → Elt Ideal .f32) (funext fun a => Fin.ext ?_)
  match a with
  | ⟨0, _⟩ => show win5_1.index t (0 : Fin 2) * 2000 + 1 * p.val = t.val * 2000 + p.val; rw [e0]; omega
  | ⟨1, _⟩ => show win5_1.index t (1 : Fin 2) * 32 + 1 * l.val = l.val; rw [e1]; omega

/-- Row p of point t's block of the node scores is row 2000·t + p of the column. -/
theorem proj_ns_block (c : Dev nD) (t : Fin cfg5.N) (p : Fin 2000) (hr : t.val * 2000 + p.val < 10000) :
    (iblk5 V c 2 t : Vec Ideal S2000x1 .f32) (ix2 p (0 : Fin 1))
      = (V c main_v1_1 : S10000x1.Idx → Elt Ideal .f32) (ix2 (⟨t.val * 2000 + p.val, hr⟩ : Fin 10000) (0 : Fin 1)) := by
  obtain ⟨-, -, ⟨e0, e1⟩, -⟩ := proj_idx_rows t
  unfold iblk5
  rw [View.read_apply]
  show (V c main_v1_1 : S10000x1.Idx → Elt Ideal .f32) (((cfg5.win 2).blk t).view.emb (ix2 p (0 : Fin 1))) = _
  refine congrArg (V c main_v1_1 : S10000x1.Idx → Elt Ideal .f32) (funext fun a => Fin.ext ?_)
  match a with
  | ⟨0, _⟩ => show win5_2.index t (0 : Fin 2) * 2000 + 1 * p.val = t.val * 2000 + p.val; rw [e0]; omega
  | ⟨1, _⟩ => show win5_2.index t (1 : Fin 2) * 1 + 1 * 0 = 0; rw [e1]

/-- A parameter window's block is its array: block 0 on every axis, so an entry keeps its coordinates. -/
theorem proj_wc0_block (c : Dev nD) (t : Fin cfg5.N) (a b : Fin 32) :
    (iblk5 V c 3 t : Vec Ideal S32x32 .f32) (ix2 a b) = (V c main_arg16 : S32x32.Idx → Elt Ideal .f32) (ix2 a b) := by
  obtain ⟨⟨e0, e1⟩, -⟩ := proj_idx_whole t
  unfold iblk5
  rw [View.read_apply]
  show (V c main_arg16 : S32x32.Idx → Elt Ideal .f32) (((cfg5.win 3).blk t).view.emb (ix2 a b)) = _
  refine congrArg (V c main_arg16 : S32x32.Idx → Elt Ideal .f32) (funext fun d => Fin.ext ?_)
  match d with
  | ⟨0, _⟩ => show win5_3.index t (0 : Fin 2) * 32 + 1 * a.val = a.val; rw [e0]; omega
  | ⟨1, _⟩ => show win5_3.index t (1 : Fin 2) * 32 + 1 * b.val = b.val; rw [e1]; omega

theorem proj_bc0_block (c : Dev nD) (t : Fin cfg5.N) (a : Fin 32) :
    (iblk5 V c 4 t : Vec Ideal S32 .f32) (ix1 a) = (V c main_arg17 : S32.Idx → Elt Ideal .f32) (ix1 a) := by
  obtain ⟨-, e0, -⟩ := proj_idx_whole t
  unfold iblk5
  rw [View.read_apply]
  show (V c main_arg17 : S32.Idx → Elt Ideal .f32) (((cfg5.win 4).blk t).view.emb (ix1 a)) = _
  refine congrArg (V c main_arg17 : S32.Idx → Elt Ideal .f32) (funext fun d => Fin.ext ?_)
  match d with
  | ⟨0, _⟩ => show win5_4.index t (0 : Fin 1) * 32 + 1 * a.val = a.val; rw [e0]; omega

theorem proj_wc1_block (c : Dev nD) (t : Fin cfg5.N) (a b : Fin 32) :
    (iblk5 V c 5 t : Vec Ideal S32x32 .f32) (ix2 a b) = (V c main_arg18 : S32x32.Idx → Elt Ideal .f32) (ix2 a b) := by
  obtain ⟨-, -, ⟨e0, e1⟩, -⟩ := proj_idx_whole t
  unfold iblk5
  rw [View.read_apply]
  show (V c main_arg18 : S32x32.Idx → Elt Ideal .f32) (((cfg5.win 5).blk t).view.emb (ix2 a b)) = _
  refine congrArg (V c main_arg18 : S32x32.Idx → Elt Ideal .f32) (funext fun d => Fin.ext ?_)
  match d with
  | ⟨0, _⟩ => show win5_5.index t (0 : Fin 2) * 32 + 1 * a.val = a.val; rw [e0]; omega
  | ⟨1, _⟩ => show win5_5.index t (1 : Fin 2) * 32 + 1 * b.val = b.val; rw [e1]; omega

theorem proj_bc1_block (c : Dev nD) (t : Fin cfg5.N) (a : Fin 32) :
    (iblk5 V c 6 t : Vec Ideal S32 .f32) (ix1 a) = (V c main_arg19 : S32.Idx → Elt Ideal .f32) (ix1 a) := by
  obtain ⟨-, -, -, e0, -⟩ := proj_idx_whole t
  unfold iblk5
  rw [View.read_apply]
  show (V c main_arg19 : S32.Idx → Elt Ideal .f32) (((cfg5.win 6).blk t).view.emb (ix1 a)) = _
  refine congrArg (V c main_arg19 : S32.Idx → Elt Ideal .f32) (funext fun d => Fin.ext ?_)
  match d with
  | ⟨0, _⟩ => show win5_6.index t (0 : Fin 1) * 32 + 1 * a.val = a.val; rw [e0]; omega

theorem proj_wp0_block (c : Dev nD) (t : Fin cfg5.N) (a : Fin 32) :
    (iblk5 V c 7 t : Vec Ideal S32x1 .f32) (ix2 a (0 : Fin 1)) = (V c main_arg20 : S32x1.Idx → Elt Ideal .f32) (ix2 a (0 : Fin 1)) := by
  obtain ⟨-, -, -, -, ⟨e0, e1⟩, -⟩ := proj_idx_whole t
  unfold iblk5
  rw [View.read_apply]
  show (V c main_arg20 : S32x1.Idx → Elt Ideal .f32) (((cfg5.win 7).blk t).view.emb (ix2 a (0 : Fin 1))) = _
  refine congrArg (V c main_arg20 : S32x1.Idx → Elt Ideal .f32) (funext fun d => Fin.ext ?_)
  match d with
  | ⟨0, _⟩ => show win5_7.index t (0 : Fin 2) * 32 + 1 * a.val = a.val; rw [e0]; omega
  | ⟨1, _⟩ => show win5_7.index t (1 : Fin 2) * 1 + 1 * 0 = 0; rw [e1]

theorem proj_bp0_block (c : Dev nD) (t : Fin cfg5.N) :
    (iblk5 V c 8 t : Vec Ideal S1 .f32) (ix1 (0 : Fin 1)) = (V c main_arg21 : S1.Idx → Elt Ideal .f32) (ix1 (0 : Fin 1)) := by
  obtain ⟨-, -, -, -, -, e0, -⟩ := proj_idx_whole t
  unfold iblk5
  rw [View.read_apply]
  show (V c main_arg21 : S1.Idx → Elt Ideal .f32) (((cfg5.win 8).blk t).view.emb (ix1 (0 : Fin 1))) = _
  refine congrArg (V c main_arg21 : S1.Idx → Elt Ideal .f32) (funext fun d => Fin.ext ?_)
  match d with
  | ⟨0, _⟩ => show win5_8.index t (0 : Fin 1) * 1 + 1 * 0 = 0; rw [e0]

theorem proj_wp1_block (c : Dev nD) (t : Fin cfg5.N) (a : Fin 32) :
    (iblk5 V c 9 t : Vec Ideal S32x1 .f32) (ix2 a (0 : Fin 1)) = (V c main_arg22 : S32x1.Idx → Elt Ideal .f32) (ix2 a (0 : Fin 1)) := by
  obtain ⟨-, -, -, -, -, -, ⟨e0, e1⟩, -⟩ := proj_idx_whole t
  unfold iblk5
  rw [View.read_apply]
  show (V c main_arg22 : S32x1.Idx → Elt Ideal .f32) (((cfg5.win 9).blk t).view.emb (ix2 a (0 : Fin 1))) = _
  refine congrArg (V c main_arg22 : S32x1.Idx → Elt Ideal .f32) (funext fun d => Fin.ext ?_)
  match d with
  | ⟨0, _⟩ => show win5_9.index t (0 : Fin 2) * 32 + 1 * a.val = a.val; rw [e0]; omega
  | ⟨1, _⟩ => show win5_9.index t (1 : Fin 2) * 1 + 1 * 0 = 0; rw [e1]

theorem proj_bp1_block (c : Dev nD) (t : Fin cfg5.N) :
    (iblk5 V c 10 t : Vec Ideal S1 .f32) (ix1 (0 : Fin 1)) = (V c main_arg23 : S1.Idx → Elt Ideal .f32) (ix1 (0 : Fin 1)) := by
  obtain ⟨-, -, -, -, -, -, -, e0⟩ := proj_idx_whole t
  unfold iblk5
  rw [View.read_apply]
  show (V c main_arg23 : S1.Idx → Elt Ideal .f32) (((cfg5.win 10).blk t).view.emb (ix1 (0 : Fin 1))) = _
  refine congrArg (V c main_arg23 : S1.Idx → Elt Ideal .f32) (funext fun d => Fin.ext ?_)
  match d with
  | ⟨0, _⟩ => show win5_10.index t (0 : Fin 1) * 1 + 1 * 0 = 0; rw [e0]

/-- Row 2000·t + p is a row of the array: there are 5 points of 2000 rows. -/
theorem proj_row_lt (t : Fin cfg5.N) (p : Fin 2000) : t.val * 2000 + p.val < 10000 := by
  have ht := proj_point_lt t
  have hp := p.isLt
  omega

end Cert.KernelIdeal.RegionValue.Proj

end
-- ==== Proof.Proj.lean ====
/-
  The projection region's output column as one function of its input arrays.

  The body's stored row p is the node's score plus the two heads' numbers of row p of the message blocks and the
  parameter blocks; the specification's final column at node r is the same expression of row r of the arrays.  Row p
  of point t's blocks is row 2000·t + p of the arrays and a parameter block is its array, so each point writes back
  exactly its block of the specification's column.  Every row r of the column lies in the block of point r / 2000 and
  every point writes its block back: the blocks tile the column, and the array ends holding the specification's column.
-/
import proofs.«103407_j20023137534010_2_alg».proof.Proof.Gen.KernelIdeal.Frame
import proofs.«103407_j20023137534010_2_alg».proof.Proof.Spec
import proofs.«103407_j20023137534010_2_alg».proof.Proof.ProjKernel
import proofs.«103407_j20023137534010_2_alg».proof.Proof.ProjRef
import proofs.«103407_j20023137534010_2_alg».proof.Proof.ProjBlocks
import Idealize.ShloMosaic.Lib.Pipeline.Value
import Idealize.ShloMosaic.Lib.ValueIdx

noncomputable section

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

namespace Proj

/-! ## Each point writes back its block of the specification's column -/

/-- What point t writes back is block t of the specification's final column of the region's input arrays. -/
theorem proj_flushed_eq (c : Dev nD) (t : Fin cfg5.N) :
    (dat5 V c).flushed 11 t = ((cfg5.win 11).blk t).view.read (Elt Ideal)
      (Cert.Spec.projOut (F := Ideal) (V c main_v58) (V c main_v61) (V c main_v1_1) (V c main_arg16) (V c main_arg17)
        (V c main_arg18) (V c main_arg19) (V c main_arg20) (V c main_arg21) (V c main_arg22) (V c main_arg23)) := by
  show (cfg5.win 11).cut (grid5.coords t) ((dat5 V c).after 11 t) = _
  rw [after5_11]
  unfold out5_11
  rw [View.canon_unit_zero proj_hz2]
  simp only [View.ld_unit_zero (S := S2000x32) proj_hz2, View.ld_unit_zero (S := S32x32) proj_hz2,
    View.ld_unit_zero (S := S32) proj_hz1, View.ld_unit_zero (S := S32x1) proj_hz2,
    View.ld_unit_zero (S := S1) proj_hz1, View.ld_unit_zero (S := S2000x1) proj_hz2]
  funext j
  obtain ⟨p, q, rfl⟩ : ∃ (p : Fin 2000) (q : Fin 1), j = ix2 p q := ⟨j 0, j 1, eq_ix2 j⟩
  obtain rfl : q = 0 := Subsingleton.elim _ _
  have hr := proj_row_lt t p
  obtain ⟨-, -, -, ⟨e0, e1⟩⟩ := proj_idx_rows t
  -- the block's entry (p, 0) sits at row 2000·t + p of the column
  have hemb : ((cfg5.win 11).blk t).view.emb (ix2 p (0 : Fin 1))
      = (ix2 (⟨t.val * 2000 + p.val, hr⟩ : Fin 10000) (0 : Fin 1) : S10000x1.Idx) := by
    funext a
    apply Fin.ext
    match a with
    | ⟨0, _⟩ => show win5_11.index t (0 : Fin 2) * 2000 + 1 * p.val = t.val * 2000 + p.val; rw [e0]; omega
    | ⟨1, _⟩ => show win5_11.index t (1 : Fin 2) * 1 + 1 * 0 = 0; rw [e1]
  refine (proj_block_apply (iblk5 V c 0 t) (iblk5 V c 1 t) (iblk5 V c 2 t) (iblk5 V c 3 t) (iblk5 V c 4 t) (iblk5 V c 5 t)
    (iblk5 V c 6 t) (iblk5 V c 7 t) (iblk5 V c 8 t) (iblk5 V c 9 t) (iblk5 V c 10 t) p).trans ?_
  refine Eq.trans ?_ (congrArg (Cert.Spec.projOut (F := Ideal) (V c main_v58) (V c main_v61) (V c main_v1_1) (V c main_arg16)
    (V c main_arg17) (V c main_arg18) (V c main_arg19) (V c main_arg20) (V c main_arg21) (V c main_arg22) (V c main_arg23)) hemb).symm
  refine Eq.trans ?_ (projOut_apply (V c main_v58) (V c main_v61) (V c main_v1_1) (V c main_arg16)
    (V c main_arg17) (V c main_arg18) (V c main_arg19) (V c main_arg20) (V c main_arg21) (V c main_arg22) (V c main_arg23)
    ⟨t.val * 2000 + p.val, hr⟩).symm
  exact congrArg₂ (· + ·)
    (congrArg₂ (· + ·) (proj_ns_block V c t p hr)
      (headAt_congr (fun l => proj_agg0_block V c t p l hr) (fun l k => proj_wc0_block V c t l k)
        (fun k => proj_bc0_block V c t k) (fun k => proj_wp0_block V c t k) (proj_bp0_block V c t)))
    (headAt_congr (fun l => proj_agg1_block V c t p l hr) (fun l k => proj_wc1_block V c t l k)
      (fun k => proj_bc1_block V c t k) (fun k => proj_wp1_block V c t k) (proj_bp1_block V c t))

/-! ## The blocks tile the column -/

/-- A row of the column is in point t's block iff it is one of rows 2000·t … 2000·t + 1999. -/
theorem proj_mem_blk (t : Fin cfg5.N) (i : S10000x1.Idx) :
    i ∈ ((cfg5.win 11).blk t).view.set ↔ ∀ a : Fin 2, win5_11.index t a * S2000x1.size a ≤ (i a).val
      ∧ (i a).val < win5_11.index t a * S2000x1.size a + S2000x1.size a := by
  show i ∈ ((View.whole main_v62).slice (win5_11.rect t)).set ↔ _
  rw [View.set_slice_whole, Rect.mem_set_unit]
  exact Iff.rfl

/-- Every row r of the column lies in the block of point r / 2000, and every point writes its block back. -/
theorem proj_cover (i : S10000x1.Idx) :
    ∃ t : Fin cfg5.N, (cfg5.win 11).flush t = true ∧ i ∈ ((cfg5.win 11).blk t).view.set := by
  have hi0 : (i 0).val < 10000 := (i 0).isLt
  have hi1 : (i 1).val < 1 := (i 1).isLt
  have hN : cfg5.N = 5 := N_5
  have htlt : (i 0).val / 2000 < cfg5.N := by rw [hN]; omega
  obtain ⟨-, -, -, ⟨e0, e1⟩⟩ := proj_idx_rows ⟨(i 0).val / 2000, htlt⟩
  refine ⟨⟨(i 0).val / 2000, htlt⟩, flush5_11 _, ?_⟩
  rw [proj_mem_blk]
  intro a
  match a with
  | ⟨0, _⟩ =>
    show win5_11.index ⟨(i 0).val / 2000, htlt⟩ (0 : Fin 2) * 2000 ≤ (i 0).val
      ∧ (i 0).val < win5_11.index ⟨(i 0).val / 2000, htlt⟩ (0 : Fin 2) * 2000 + 2000
    rw [e0]
    show (i 0).val / 2000 * 2000 ≤ (i 0).val ∧ (i 0).val < (i 0).val / 2000 * 2000 + 2000
    omega
  | ⟨1, _⟩ =>
    show win5_11.index ⟨(i 0).val / 2000, htlt⟩ (1 : Fin 2) * 1 ≤ (i 1).val
      ∧ (i 1).val < win5_11.index ⟨(i 0).val / 2000, htlt⟩ (1 : Fin 2) * 1 + 1
    rw [e1]
    omega

end Proj

/-! ## The array after the region -/

/-- The projection's output column after the region is the specification's final column of the region's input arrays. -/
theorem projection (c : Dev nD) :
    (dat5 V c).arrAt 11 cfg5.N = Cert.Spec.projOut (F := Ideal) (V c main_v58) (V c main_v61) (V c main_v1_1) (V c main_arg16) (V c main_arg17)
      (V c main_arg18) (V c main_arg19) (V c main_arg20) (V c main_arg21) (V c main_arg22) (V c main_arg23) :=
  (dat5 V c).arrAt_eq_of_cover 11 _ (fun t _ => Proj.proj_flushed_eq V c t) Proj.proj_cover

end Cert.KernelIdeal.RegionValue

end
-- ==== Proof.Regions.lean ====
/-
  The six regions' output arrays, each as one whole-array function of the region's input arrays.  The modules
  imported here prove them, one region per module: the encoder (hidden rows and node scores), the two
  normalizations of the visual rows, the two edge-message regions and the projection.  Each follows one plan: what a
  grid point writes back is the matching block of ONE function of the whole input arrays, the blocks tile the output
  array, so the array ends holding that function.
-/
import proofs.«103407_j20023137534010_2_alg».proof.Proof.Encode
import proofs.«103407_j20023137534010_2_alg».proof.Proof.NormalizeWide
import proofs.«103407_j20023137534010_2_alg».proof.Proof.NormalizeNarrow
import proofs.«103407_j20023137534010_2_alg».proof.Proof.EdgeWeightWide
import proofs.«103407_j20023137534010_2_alg».proof.Proof.EdgeWeightNarrow
import proofs.«103407_j20023137534010_2_alg».proof.Proof.Proj
-- ==== Proof.FoldA.lean ====
/-
  The contents of the buffers the later regions read, followed through the first half of the program: the launch
  memory, the reshaped rectifier slope, the encoder region (hidden rows and node scores), and the two
  normalizations of the visual rows.  Each buffer is read at the boundary where it is produced and then carried
  unchanged across the segments that do not write it.
-/
import proofs.«103407_j20023137534010_2_alg».proof.Proof.Regions

set_option maxRecDepth 16384

noncomputable section

namespace Cert.KernelIdeal.Fold

open Cert.KernelIdeal Cert.KernelIdeal.Gen Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

/-- A buffer that no operation of a host stretch writes holds after the stretch what it held before: the
    stretch's operations are listed, and the buffer differs from each result buffer. -/
macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## Before the encoder: the arguments as launched, the slope as a 1×1 array -/

theorem W1_arg0 : W1 m ρ c (Proc.devRef .tc main_arg0) = m ((c : Thread nD τ).loc main_arg0) :=
  (show W1 m ρ c (Proc.devRef .tc main_arg0) = W0 m ρ c (Proc.devRef .tc main_arg0) by host_keeps hostOps0).trans rfl
theorem W1_arg1 : W1 m ρ c (Proc.devRef .tc main_arg1) = m ((c : Thread nD τ).loc main_arg1) :=
  (show W1 m ρ c (Proc.devRef .tc main_arg1) = W0 m ρ c (Proc.devRef .tc main_arg1) by host_keeps hostOps0).trans rfl
theorem W1_arg2 : W1 m ρ c (Proc.devRef .tc main_arg2) = m ((c : Thread nD τ).loc main_arg2) :=
  (show W1 m ρ c (Proc.devRef .tc main_arg2) = W0 m ρ c (Proc.devRef .tc main_arg2) by host_keeps hostOps0).trans rfl
theorem W1_arg3 : W1 m ρ c (Proc.devRef .tc main_arg3) = m ((c : Thread nD τ).loc main_arg3) :=
  (show W1 m ρ c (Proc.devRef .tc main_arg3) = W0 m ρ c (Proc.devRef .tc main_arg3) by host_keeps hostOps0).trans rfl
theorem W1_arg4 : W1 m ρ c (Proc.devRef .tc main_arg4) = m ((c : Thread nD τ).loc main_arg4) :=
  (show W1 m ρ c (Proc.devRef .tc main_arg4) = W0 m ρ c (Proc.devRef .tc main_arg4) by host_keeps hostOps0).trans rfl
theorem W1_arg5 : W1 m ρ c (Proc.devRef .tc main_arg5) = m ((c : Thread nD τ).loc main_arg5) :=
  (show W1 m ρ c (Proc.devRef .tc main_arg5) = W0 m ρ c (Proc.devRef .tc main_arg5) by host_keeps hostOps0).trans rfl
theorem W1_arg6 : W1 m ρ c (Proc.devRef .tc main_arg6) = m ((c : Thread nD τ).loc main_arg6) :=
  (show W1 m ρ c (Proc.devRef .tc main_arg6) = W0 m ρ c (Proc.devRef .tc main_arg6) by host_keeps hostOps0).trans rfl
theorem W1_arg7 : W1 m ρ c (Proc.devRef .tc main_arg7) = m ((c : Thread nD τ).loc main_arg7) :=
  (show W1 m ρ c (Proc.devRef .tc main_arg7) = W0 m ρ c (Proc.devRef .tc main_arg7) by host_keeps hostOps0).trans rfl
theorem W1_arg8 : W1 m ρ c (Proc.devRef .tc main_arg8) = m ((c : Thread nD τ).loc main_arg8) :=
  (show W1 m ρ c (Proc.devRef .tc main_arg8) = W0 m ρ c (Proc.devRef .tc main_arg8) by host_keeps hostOps0).trans rfl
theorem W1_arg9 : W1 m ρ c (Proc.devRef .tc main_arg9) = m ((c : Thread nD τ).loc main_arg9) :=
  (show W1 m ρ c (Proc.devRef .tc main_arg9) = W0 m ρ c (Proc.devRef .tc main_arg9) by host_keeps hostOps0).trans rfl
theorem W1_arg10 : W1 m ρ c (Proc.devRef .tc main_arg10) = m ((c : Thread nD τ).loc main_arg10) :=
  (show W1 m ρ c (Proc.devRef .tc main_arg10) = W0 m ρ c (Proc.devRef .tc main_arg10) by host_keeps hostOps0).trans rfl
theorem W1_arg12 : W1 m ρ c (Proc.devRef .tc main_arg12) = m ((c : Thread nD τ).loc main_arg12) :=
  (show W1 m ρ c (Proc.devRef .tc main_arg12) = W0 m ρ c (Proc.devRef .tc main_arg12) by host_keeps hostOps0).trans rfl
theorem W1_arg13 : W1 m ρ c (Proc.devRef .tc main_arg13) = m ((c : Thread nD τ).loc main_arg13) :=
  (show W1 m ρ c (Proc.devRef .tc main_arg13) = W0 m ρ c (Proc.devRef .tc main_arg13) by host_keeps hostOps0).trans rfl
theorem W1_arg14 : W1 m ρ c (Proc.devRef .tc main_arg14) = m ((c : Thread nD τ).loc main_arg14) :=
  (show W1 m ρ c (Proc.devRef .tc main_arg14) = W0 m ρ c (Proc.devRef .tc main_arg14) by host_keeps hostOps0).trans rfl
theorem W1_arg15 : W1 m ρ c (Proc.devRef .tc main_arg15) = m ((c : Thread nD τ).loc main_arg15) :=
  (show W1 m ρ c (Proc.devRef .tc main_arg15) = W0 m ρ c (Proc.devRef .tc main_arg15) by host_keeps hostOps0).trans rfl
theorem W1_arg16 : W1 m ρ c (Proc.devRef .tc main_arg16) = m ((c : Thread nD τ).loc main_arg16) :=
  (show W1 m ρ c (Proc.devRef .tc main_arg16) = W0 m ρ c (Proc.devRef .tc main_arg16) by host_keeps hostOps0).trans rfl
theorem W1_arg17 : W1 m ρ c (Proc.devRef .tc main_arg17) = m ((c : Thread nD τ).loc main_arg17) :=
  (show W1 m ρ c (Proc.devRef .tc main_arg17) = W0 m ρ c (Proc.devRef .tc main_arg17) by host_keeps hostOps0).trans rfl
theorem W1_arg18 : W1 m ρ c (Proc.devRef .tc main_arg18) = m ((c : Thread nD τ).loc main_arg18) :=
  (show W1 m ρ c (Proc.devRef .tc main_arg18) = W0 m ρ c (Proc.devRef .tc main_arg18) by host_keeps hostOps0).trans rfl
theorem W1_arg19 : W1 m ρ c (Proc.devRef .tc main_arg19) = m ((c : Thread nD τ).loc main_arg19) :=
  (show W1 m ρ c (Proc.devRef .tc main_arg19) = W0 m ρ c (Proc.devRef .tc main_arg19) by host_keeps hostOps0).trans rfl
theorem W1_arg20 : W1 m ρ c (Proc.devRef .tc main_arg20) = m ((c : Thread nD τ).loc main_arg20) :=
  (show W1 m ρ c (Proc.devRef .tc main_arg20) = W0 m ρ c (Proc.devRef .tc main_arg20) by host_keeps hostOps0).trans rfl
theorem W1_arg21 : W1 m ρ c (Proc.devRef .tc main_arg21) = m ((c : Thread nD τ).loc main_arg21) :=
  (show W1 m ρ c (Proc.devRef .tc main_arg21) = W0 m ρ c (Proc.devRef .tc main_arg21) by host_keeps hostOps0).trans rfl
theorem W1_arg22 : W1 m ρ c (Proc.devRef .tc main_arg22) = m ((c : Thread nD τ).loc main_arg22) :=
  (show W1 m ρ c (Proc.devRef .tc main_arg22) = W0 m ρ c (Proc.devRef .tc main_arg22) by host_keeps hostOps0).trans rfl
theorem W1_arg23 : W1 m ρ c (Proc.devRef .tc main_arg23) = m ((c : Thread nD τ).loc main_arg23) :=
  (show W1 m ρ c (Proc.devRef .tc main_arg23) = W0 m ρ c (Proc.devRef .tc main_arg23) by host_keeps hostOps0).trans rfl

/-- The rectifier's slope, a scalar argument, enters the encoder as a 1×1 array. -/
theorem W1_slope : W1 m ρ c (Proc.devRef .tc main_v0) = shapeCast S1x1 (m ((c : Thread nD τ).loc main_arg11)) shapeCasts_S_S1x1 := by
  show StableHlo.after hostOps0 (W0 m ρ c) (Proc.devRef .tc main_v0) = _
  dsimp only [hostOps0]
  after_results
  rfl

/-! ## After the encoder -/

/-- The hidden rows: the encoder's first output array is the reference's hidden stage of the arguments. -/
theorem W2_hidden : W2 m ρ c (Proc.devRef .tc main_v1_0)
    = Cert.ReferenceIdeal.Read.val_main_v27 (F := Ideal) (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W2_arr m ρ c 12).trans ?_
  refine (encode_hidden (V1 m ρ) c (m ((c : Thread nD τ).loc main_arg11)) (W1_slope m ρ c)).trans ?_
  show Cert.ReferenceIdeal.Read.val_main_v27 (F := Ideal) (W1 m ρ c (Proc.devRef .tc main_arg0)) (W1 m ρ c (Proc.devRef .tc main_arg5)) (W1 m ρ c (Proc.devRef .tc main_arg6)) (W1 m ρ c (Proc.devRef .tc main_arg7)) (W1 m ρ c (Proc.devRef .tc main_arg8)) (W1 m ρ c (Proc.devRef .tc main_arg9)) (W1 m ρ c (Proc.devRef .tc main_arg10)) _ (W1 m ρ c (Proc.devRef .tc main_arg12)) (W1 m ρ c (Proc.devRef .tc main_arg13)) = _
  rw [W1_arg0, W1_arg5, W1_arg6, W1_arg7, W1_arg8, W1_arg9, W1_arg10, W1_arg12, W1_arg13]

/-- The node scores: the encoder's second output array, a column. -/
theorem W2_score : W2 m ρ c (Proc.devRef .tc main_v1_1)
    = Cert.ReferenceIdeal.Read.val_main_v31 (F := Ideal) (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W2_arr m ρ c 13).trans ?_
  refine (encode_score (V1 m ρ) c (m ((c : Thread nD τ).loc main_arg11)) (W1_slope m ρ c)).trans ?_
  show Cert.ReferenceIdeal.Read.val_main_v31 (F := Ideal) (W1 m ρ c (Proc.devRef .tc main_arg0)) (W1 m ρ c (Proc.devRef .tc main_arg5)) (W1 m ρ c (Proc.devRef .tc main_arg6)) (W1 m ρ c (Proc.devRef .tc main_arg7)) (W1 m ρ c (Proc.devRef .tc main_arg8)) (W1 m ρ c (Proc.devRef .tc main_arg9)) (W1 m ρ c (Proc.devRef .tc main_arg10)) _ (W1 m ρ c (Proc.devRef .tc main_arg12)) (W1 m ρ c (Proc.devRef .tc main_arg13)) (W1 m ρ c (Proc.devRef .tc main_arg14)) (W1 m ρ c (Proc.devRef .tc main_arg15)) = _
  rw [W1_arg0, W1_arg5, W1_arg6, W1_arg7, W1_arg8, W1_arg9, W1_arg10, W1_arg12, W1_arg13, W1_arg14, W1_arg15]

/-- The encoder writes only its two outputs: every other buffer it does not stage is as before it. -/
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg16 : W2 m ρ c (Proc.devRef .tc main_arg16) = m ((c : Thread nD τ).loc main_arg16) :=
  (W2_of_ne m ρ c main_arg16 (by decide)).trans (W1_arg16 m ρ c)
theorem W2_arg17 : W2 m ρ c (Proc.devRef .tc main_arg17) = m ((c : Thread nD τ).loc main_arg17) :=
  (W2_of_ne m ρ c main_arg17 (by decide)).trans (W1_arg17 m ρ c)
theorem W2_arg18 : W2 m ρ c (Proc.devRef .tc main_arg18) = m ((c : Thread nD τ).loc main_arg18) :=
  (W2_of_ne m ρ c main_arg18 (by decide)).trans (W1_arg18 m ρ c)
theorem W2_arg19 : W2 m ρ c (Proc.devRef .tc main_arg19) = m ((c : Thread nD τ).loc main_arg19) :=
  (W2_of_ne m ρ c main_arg19 (by decide)).trans (W1_arg19 m ρ c)
theorem W2_arg20 : W2 m ρ c (Proc.devRef .tc main_arg20) = m ((c : Thread nD τ).loc main_arg20) :=
  (W2_of_ne m ρ c main_arg20 (by decide)).trans (W1_arg20 m ρ c)
theorem W2_arg21 : W2 m ρ c (Proc.devRef .tc main_arg21) = m ((c : Thread nD τ).loc main_arg21) :=
  (W2_of_ne m ρ c main_arg21 (by decide)).trans (W1_arg21 m ρ c)
theorem W2_arg22 : W2 m ρ c (Proc.devRef .tc main_arg22) = m ((c : Thread nD τ).loc main_arg22) :=
  (W2_of_ne m ρ c main_arg22 (by decide)).trans (W1_arg22 m ρ c)
theorem W2_arg23 : W2 m ρ c (Proc.devRef .tc main_arg23) = m ((c : Thread nD τ).loc main_arg23) :=
  (W2_of_ne m ρ c main_arg23 (by decide)).trans (W1_arg23 m ρ c)

/-! ## After the two normalizations -/

/-- The wide visual rows, normalized: the first normalization's output array. -/
theorem W3_visual_wide : W3 m ρ c (Proc.devRef .tc main_v2) = Cert.ReferenceIdeal.Read.val_main_v44 (F := Ideal) (m ((c : Thread nD τ).loc main_arg1)) := by
  refine (W3_arr m ρ c 1).trans ?_
  refine (normalize_wide (V2 m ρ) c).trans ?_
  show Cert.ReferenceIdeal.Read.val_main_v44 (F := Ideal) (W2 m ρ c (Proc.devRef .tc main_arg1)) = _
  rw [W2_arg1]

theorem W3_arg2 : W3 m ρ c (Proc.devRef .tc main_arg2) = m ((c : Thread nD τ).loc main_arg2) :=
  (W3_of_ne m ρ c main_arg2 (by decide)).trans (W2_arg2 m ρ c)
theorem W3_arg3 : W3 m ρ c (Proc.devRef .tc main_arg3) = m ((c : Thread nD τ).loc main_arg3) :=
  (W3_of_ne m ρ c main_arg3 (by decide)).trans (W2_arg3 m ρ c)
theorem W3_arg4 : W3 m ρ c (Proc.devRef .tc main_arg4) = m ((c : Thread nD τ).loc main_arg4) :=
  (W3_of_ne m ρ c main_arg4 (by decide)).trans (W2_arg4 m ρ c)
theorem W3_arg16 : W3 m ρ c (Proc.devRef .tc main_arg16) = m ((c : Thread nD τ).loc main_arg16) :=
  (W3_of_ne m ρ c main_arg16 (by decide)).trans (W2_arg16 m ρ c)
theorem W3_arg17 : W3 m ρ c (Proc.devRef .tc main_arg17) = m ((c : Thread nD τ).loc main_arg17) :=
  (W3_of_ne m ρ c main_arg17 (by decide)).trans (W2_arg17 m ρ c)
theorem W3_arg18 : W3 m ρ c (Proc.devRef .tc main_arg18) = m ((c : Thread nD τ).loc main_arg18) :=
  (W3_of_ne m ρ c main_arg18 (by decide)).trans (W2_arg18 m ρ c)
theorem W3_arg19 : W3 m ρ c (Proc.devRef .tc main_arg19) = m ((c : Thread nD τ).loc main_arg19) :=
  (W3_of_ne m ρ c main_arg19 (by decide)).trans (W2_arg19 m ρ c)
theorem W3_arg20 : W3 m ρ c (Proc.devRef .tc main_arg20) = m ((c : Thread nD τ).loc main_arg20) :=
  (W3_of_ne m ρ c main_arg20 (by decide)).trans (W2_arg20 m ρ c)
theorem W3_arg21 : W3 m ρ c (Proc.devRef .tc main_arg21) = m ((c : Thread nD τ).loc main_arg21) :=
  (W3_of_ne m ρ c main_arg21 (by decide)).trans (W2_arg21 m ρ c)
theorem W3_arg22 : W3 m ρ c (Proc.devRef .tc main_arg22) = m ((c : Thread nD τ).loc main_arg22) :=
  (W3_of_ne m ρ c main_arg22 (by decide)).trans (W2_arg22 m ρ c)
theorem W3_arg23 : W3 m ρ c (Proc.devRef .tc main_arg23) = m ((c : Thread nD τ).loc main_arg23) :=
  (W3_of_ne m ρ c main_arg23 (by decide)).trans (W2_arg23 m ρ c)
theorem W3_hidden : W3 m ρ c (Proc.devRef .tc main_v1_0) = W2 m ρ c (Proc.devRef .tc main_v1_0) := W3_of_ne m ρ c main_v1_0 (by decide)
theorem W3_score : W3 m ρ c (Proc.devRef .tc main_v1_1) = W2 m ρ c (Proc.devRef .tc main_v1_1) := W3_of_ne m ρ c main_v1_1 (by decide)

/-- The narrow visual rows, normalized: the second normalization's output array. -/
theorem W4_visual_narrow : W4 m ρ c (Proc.devRef .tc main_v3) = Cert.ReferenceIdeal.Read.val_main_v89 (F := Ideal) (m ((c : Thread nD τ).loc main_arg2)) := by
  refine (W4_arr m ρ c 1).trans ?_
  refine (normalize_narrow (V3 m ρ) c).trans ?_
  show Cert.ReferenceIdeal.Read.val_main_v89 (F := Ideal) (W3 m ρ c (Proc.devRef .tc main_arg2)) = _
  rw [W3_arg2]

theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg16 : W4 m ρ c (Proc.devRef .tc main_arg16) = m ((c : Thread nD τ).loc main_arg16) :=
  (W4_of_ne m ρ c main_arg16 (by decide)).trans (W3_arg16 m ρ c)
theorem W4_arg17 : W4 m ρ c (Proc.devRef .tc main_arg17) = m ((c : Thread nD τ).loc main_arg17) :=
  (W4_of_ne m ρ c main_arg17 (by decide)).trans (W3_arg17 m ρ c)
theorem W4_arg18 : W4 m ρ c (Proc.devRef .tc main_arg18) = m ((c : Thread nD τ).loc main_arg18) :=
  (W4_of_ne m ρ c main_arg18 (by decide)).trans (W3_arg18 m ρ c)
theorem W4_arg19 : W4 m ρ c (Proc.devRef .tc main_arg19) = m ((c : Thread nD τ).loc main_arg19) :=
  (W4_of_ne m ρ c main_arg19 (by decide)).trans (W3_arg19 m ρ c)
theorem W4_arg20 : W4 m ρ c (Proc.devRef .tc main_arg20) = m ((c : Thread nD τ).loc main_arg20) :=
  (W4_of_ne m ρ c main_arg20 (by decide)).trans (W3_arg20 m ρ c)
theorem W4_arg21 : W4 m ρ c (Proc.devRef .tc main_arg21) = m ((c : Thread nD τ).loc main_arg21) :=
  (W4_of_ne m ρ c main_arg21 (by decide)).trans (W3_arg21 m ρ c)
theorem W4_arg22 : W4 m ρ c (Proc.devRef .tc main_arg22) = m ((c : Thread nD τ).loc main_arg22) :=
  (W4_of_ne m ρ c main_arg22 (by decide)).trans (W3_arg22 m ρ c)
theorem W4_arg23 : W4 m ρ c (Proc.devRef .tc main_arg23) = m ((c : Thread nD τ).loc main_arg23) :=
  (W4_of_ne m ρ c main_arg23 (by decide)).trans (W3_arg23 m ρ c)
theorem W4_visual_wide : W4 m ρ c (Proc.devRef .tc main_v2) = Cert.ReferenceIdeal.Read.val_main_v44 (F := Ideal) (m ((c : Thread nD τ).loc main_arg1)) :=
  (W4_of_ne m ρ c main_v2 (by decide)).trans (W3_visual_wide m ρ c)
theorem W4_hidden : W4 m ρ c (Proc.devRef .tc main_v1_0) = W2 m ρ c (Proc.devRef .tc main_v1_0) :=
  (W4_of_ne m ρ c main_v1_0 (by decide)).trans (W3_hidden m ρ c)
theorem W4_score : W4 m ρ c (Proc.devRef .tc main_v1_1) = W2 m ρ c (Proc.devRef .tc main_v1_1) :=
  (W4_of_ne m ρ c main_v1_1 (by decide)).trans (W3_score m ρ c)

end Cert.KernelIdeal.Fold

end
-- ==== Proof.FoldB.lean ====
/-
  The second half of the program's data flow up to the edge messages: the gathers of normalized visual rows and of
  hidden rows along the two edge lists (host operations on the contents left by the first three regions), and the
  two edge-message regions.  Every buffer is identified with the reference's stage of the same name of the
  arguments: the host operations are the same on both sides, applied to equal operands.
-/
import proofs.«103407_j20023137534010_2_alg».proof.Proof.FoldA

set_option maxRecDepth 16384

noncomputable section

namespace Cert.KernelIdeal.Fold

open Cert.KernelIdeal Cert.KernelIdeal.Gen Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

/-! ## The gathers: the stretch of host operations between the normalizations and the edge-message regions -/

/-- The hidden rows as the gathers find them. -/
theorem W4_hidden_val : W4 m ρ c (Proc.devRef .tc main_v1_0) = Cert.ReferenceIdeal.Read.val_main_v27 (F := Ideal) (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W4_hidden m ρ c).trans (W2_hidden m ρ c)

/-- The destination nodes of the first edge list (the second row of the index array, as a vector). -/
theorem W5_dst0 : W5 m ρ c (Proc.devRef .tc main_v7) = Cert.ReferenceIdeal.Read.val_main_v36 (F := Ideal) (m ((c : Thread nD τ).loc main_arg3)) := by
  show StableHlo.after hostOps3 (W4 m ρ c) (Proc.devRef .tc main_v7) = _
  dsimp only [hostOps3]
  after_results_simp
  rw [W4_arg3]
  rfl

/-- The destination nodes of the second edge list. -/
theorem W5_dst1 : W5 m ρ c (Proc.devRef .tc main_v11) = Cert.ReferenceIdeal.Read.val_main_v81 (F := Ideal) (m ((c : Thread nD τ).loc main_arg4)) := by
  show StableHlo.after hostOps3 (W4 m ρ c) (Proc.devRef .tc main_v11) = _
  dsimp only [hostOps3]
  after_results_simp
  rw [W4_arg4]
  rfl

/-- Normalized wide visual rows gathered at the sources of the first edge list. -/
theorem W5_vis_src0 : W5 m ρ c (Proc.devRef .tc main_v18) = Cert.ReferenceIdeal.Read.val_main_v51 (F := Ideal) (m ((c : Thread nD τ).loc main_arg1)) (m ((c : Thread nD τ).loc main_arg3)) := by
  show StableHlo.after hostOps3 (W4 m ρ c) (Proc.devRef .tc main_v18) = _
  dsimp only [hostOps3]
  after_results_simp
  rw [W4_visual_wide, W4_arg3]
  rfl

/-- Normalized wide visual rows gathered at the destinations of the first edge list. -/
theorem W5_vis_dst0 : W5 m ρ c (Proc.devRef .tc main_v25) = Cert.ReferenceIdeal.Read.val_main_v58 (F := Ideal) (m ((c : Thread nD τ).loc main_arg1)) (m ((c : Thread nD τ).loc main_arg3)) := by
  show StableHlo.after hostOps3 (W4 m ρ c) (Proc.devRef .tc main_v25) = _
  dsimp only [hostOps3]
  after_results_simp
  rw [W4_visual_wide, W4_arg3]
  rfl

/-- Hidden rows gathered at the sources of the first edge list. -/
theorem W5_hid_src0 : W5 m ρ c (Proc.devRef .tc main_v32)
    = Cert.ReferenceIdeal.Read.val_main_v67 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps3 (W4 m ρ c) (Proc.devRef .tc main_v32) = _
  dsimp only [hostOps3]
  after_results_simp
  rw [W4_hidden_val, W4_arg3]
  rfl

/-- Normalized narrow visual rows gathered at the sources of the second edge list. -/
theorem W5_vis_src1 : W5 m ρ c (Proc.devRef .tc main_v39) = Cert.ReferenceIdeal.Read.val_main_v96 (F := Ideal) (m ((c : Thread nD τ).loc main_arg2)) (m ((c : Thread nD τ).loc main_arg4)) := by
  show StableHlo.after hostOps3 (W4 m ρ c) (Proc.devRef .tc main_v39) = _
  dsimp only [hostOps3]
  after_results_simp
  rw [W4_visual_narrow, W4_arg4]
  rfl

/-- Normalized narrow visual rows gathered at the destinations of the second edge list. -/
theorem W5_vis_dst1 : W5 m ρ c (Proc.devRef .tc main_v46) = Cert.ReferenceIdeal.Read.val_main_v103 (F := Ideal) (m ((c : Thread nD τ).loc main_arg2)) (m ((c : Thread nD τ).loc main_arg4)) := by
  show StableHlo.after hostOps3 (W4 m ρ c) (Proc.devRef .tc main_v46) = _
  dsimp only [hostOps3]
  after_results_simp
  rw [W4_visual_narrow, W4_arg4]
  rfl

/-- Hidden rows gathered at the sources of the second edge list. -/
theorem W5_hid_src1 : W5 m ρ c (Proc.devRef .tc main_v53)
    = Cert.ReferenceIdeal.Read.val_main_v112 (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps3 (W4 m ρ c) (Proc.devRef .tc main_v53) = _
  dsimp only [hostOps3]
  after_results_simp
  rw [W4_hidden_val, W4_arg4]
  rfl

/-- The gathers write none of the buffers carried past them. -/
theorem W5_score : W5 m ρ c (Proc.devRef .tc main_v1_1) = W2 m ρ c (Proc.devRef .tc main_v1_1) :=
  (show W5 m ρ c (Proc.devRef .tc main_v1_1) = W4 m ρ c (Proc.devRef .tc main_v1_1) by host_keeps hostOps3).trans (W4_score m ρ c)
theorem W5_arg16 : W5 m ρ c (Proc.devRef .tc main_arg16) = m ((c : Thread nD τ).loc main_arg16) :=
  (show W5 m ρ c (Proc.devRef .tc main_arg16) = W4 m ρ c (Proc.devRef .tc main_arg16) by host_keeps hostOps3).trans (W4_arg16 m ρ c)
theorem W5_arg17 : W5 m ρ c (Proc.devRef .tc main_arg17) = m ((c : Thread nD τ).loc main_arg17) :=
  (show W5 m ρ c (Proc.devRef .tc main_arg17) = W4 m ρ c (Proc.devRef .tc main_arg17) by host_keeps hostOps3).trans (W4_arg17 m ρ c)
theorem W5_arg18 : W5 m ρ c (Proc.devRef .tc main_arg18) = m ((c : Thread nD τ).loc main_arg18) :=
  (show W5 m ρ c (Proc.devRef .tc main_arg18) = W4 m ρ c (Proc.devRef .tc main_arg18) by host_keeps hostOps3).trans (W4_arg18 m ρ c)
theorem W5_arg19 : W5 m ρ c (Proc.devRef .tc main_arg19) = m ((c : Thread nD τ).loc main_arg19) :=
  (show W5 m ρ c (Proc.devRef .tc main_arg19) = W4 m ρ c (Proc.devRef .tc main_arg19) by host_keeps hostOps3).trans (W4_arg19 m ρ c)
theorem W5_arg20 : W5 m ρ c (Proc.devRef .tc main_arg20) = m ((c : Thread nD τ).loc main_arg20) :=
  (show W5 m ρ c (Proc.devRef .tc main_arg20) = W4 m ρ c (Proc.devRef .tc main_arg20) by host_keeps hostOps3).trans (W4_arg20 m ρ c)
theorem W5_arg21 : W5 m ρ c (Proc.devRef .tc main_arg21) = m ((c : Thread nD τ).loc main_arg21) :=
  (show W5 m ρ c (Proc.devRef .tc main_arg21) = W4 m ρ c (Proc.devRef .tc main_arg21) by host_keeps hostOps3).trans (W4_arg21 m ρ c)
theorem W5_arg22 : W5 m ρ c (Proc.devRef .tc main_arg22) = m ((c : Thread nD τ).loc main_arg22) :=
  (show W5 m ρ c (Proc.devRef .tc main_arg22) = W4 m ρ c (Proc.devRef .tc main_arg22) by host_keeps hostOps3).trans (W4_arg22 m ρ c)
theorem W5_arg23 : W5 m ρ c (Proc.devRef .tc main_arg23) = m ((c : Thread nD τ).loc main_arg23) :=
  (show W5 m ρ c (Proc.devRef .tc main_arg23) = W4 m ρ c (Proc.devRef .tc main_arg23) by host_keeps hostOps3).trans (W4_arg23 m ρ c)

/-! ## The edge messages -/

/-- The first edge list's messages: the edge-message region's output array is the reference's message stage. The
    region's three operands are the three gathers above; the reference's stage is the same function of them. -/
theorem W6_msg0 : W6 m ρ c (Proc.devRef .tc main_v54)
    = Cert.ReferenceIdeal.Read.val_main_v70 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W6_arr m ρ c 3).trans ?_
  refine (edge_messages_wide (V5 m ρ) c).trans ?_
  show Cert.Spec.edgeMsg0 (F := Ideal) (W5 m ρ c (Proc.devRef .tc main_v18)) (W5 m ρ c (Proc.devRef .tc main_v25)) (W5 m ρ c (Proc.devRef .tc main_v32)) = _
  rw [W5_vis_src0, W5_vis_dst0, W5_hid_src0]
  rfl

theorem W6_vis_src1 : W6 m ρ c (Proc.devRef .tc main_v39) = Cert.ReferenceIdeal.Read.val_main_v96 (F := Ideal) (m ((c : Thread nD τ).loc main_arg2)) (m ((c : Thread nD τ).loc main_arg4)) :=
  (W6_of_ne m ρ c main_v39 (by decide)).trans (W5_vis_src1 m ρ c)
theorem W6_vis_dst1 : W6 m ρ c (Proc.devRef .tc main_v46) = Cert.ReferenceIdeal.Read.val_main_v103 (F := Ideal) (m ((c : Thread nD τ).loc main_arg2)) (m ((c : Thread nD τ).loc main_arg4)) :=
  (W6_of_ne m ρ c main_v46 (by decide)).trans (W5_vis_dst1 m ρ c)
theorem W6_hid_src1 : W6 m ρ c (Proc.devRef .tc main_v53)
    = Cert.ReferenceIdeal.Read.val_main_v112 (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W6_of_ne m ρ c main_v53 (by decide)).trans (W5_hid_src1 m ρ c)
theorem W6_dst0 : W6 m ρ c (Proc.devRef .tc main_v7) = Cert.ReferenceIdeal.Read.val_main_v36 (F := Ideal) (m ((c : Thread nD τ).loc main_arg3)) :=
  (W6_of_ne m ρ c main_v7 (by decide)).trans (W5_dst0 m ρ c)
theorem W6_dst1 : W6 m ρ c (Proc.devRef .tc main_v11) = Cert.ReferenceIdeal.Read.val_main_v81 (F := Ideal) (m ((c : Thread nD τ).loc main_arg4)) :=
  (W6_of_ne m ρ c main_v11 (by decide)).trans (W5_dst1 m ρ c)
theorem W6_score : W6 m ρ c (Proc.devRef .tc main_v1_1) = W2 m ρ c (Proc.devRef .tc main_v1_1) :=
  (W6_of_ne m ρ c main_v1_1 (by decide)).trans (W5_score m ρ c)
theorem W6_arg16 : W6 m ρ c (Proc.devRef .tc main_arg16) = m ((c : Thread nD τ).loc main_arg16) :=
  (W6_of_ne m ρ c main_arg16 (by decide)).trans (W5_arg16 m ρ c)
theorem W6_arg17 : W6 m ρ c (Proc.devRef .tc main_arg17) = m ((c : Thread nD τ).loc main_arg17) :=
  (W6_of_ne m ρ c main_arg17 (by decide)).trans (W5_arg17 m ρ c)
theorem W6_arg18 : W6 m ρ c (Proc.devRef .tc main_arg18) = m ((c : Thread nD τ).loc main_arg18) :=
  (W6_of_ne m ρ c main_arg18 (by decide)).trans (W5_arg18 m ρ c)
theorem W6_arg19 : W6 m ρ c (Proc.devRef .tc main_arg19) = m ((c : Thread nD τ).loc main_arg19) :=
  (W6_of_ne m ρ c main_arg19 (by decide)).trans (W5_arg19 m ρ c)
theorem W6_arg20 : W6 m ρ c (Proc.devRef .tc main_arg20) = m ((c : Thread nD τ).loc main_arg20) :=
  (W6_of_ne m ρ c main_arg20 (by decide)).trans (W5_arg20 m ρ c)
theorem W6_arg21 : W6 m ρ c (Proc.devRef .tc main_arg21) = m ((c : Thread nD τ).loc main_arg21) :=
  (W6_of_ne m ρ c main_arg21 (by decide)).trans (W5_arg21 m ρ c)
theorem W6_arg22 : W6 m ρ c (Proc.devRef .tc main_arg22) = m ((c : Thread nD τ).loc main_arg22) :=
  (W6_of_ne m ρ c main_arg22 (by decide)).trans (W5_arg22 m ρ c)
theorem W6_arg23 : W6 m ρ c (Proc.devRef .tc main_arg23) = m ((c : Thread nD τ).loc main_arg23) :=
  (W6_of_ne m ρ c main_arg23 (by decide)).trans (W5_arg23 m ρ c)

/-- The second edge list's messages. -/
theorem W7_msg1 : W7 m ρ c (Proc.devRef .tc main_v55)
    = Cert.ReferenceIdeal.Read.val_main_v115 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W7_arr m ρ c 3).trans ?_
  refine (edge_messages_narrow (V6 m ρ) c).trans ?_
  show Cert.Spec.edgeMsg1 (F := Ideal) (W6 m ρ c (Proc.devRef .tc main_v39)) (W6 m ρ c (Proc.devRef .tc main_v46)) (W6 m ρ c (Proc.devRef .tc main_v53)) = _
  rw [W6_vis_src1, W6_vis_dst1, W6_hid_src1]
  rfl

theorem W7_msg0 : W7 m ρ c (Proc.devRef .tc main_v54)
    = Cert.ReferenceIdeal.Read.val_main_v70 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W7_of_ne m ρ c main_v54 (by decide)).trans (W6_msg0 m ρ c)
theorem W7_dst0 : W7 m ρ c (Proc.devRef .tc main_v7) = Cert.ReferenceIdeal.Read.val_main_v36 (F := Ideal) (m ((c : Thread nD τ).loc main_arg3)) :=
  (W7_of_ne m ρ c main_v7 (by decide)).trans (W6_dst0 m ρ c)
theorem W7_dst1 : W7 m ρ c (Proc.devRef .tc main_v11) = Cert.ReferenceIdeal.Read.val_main_v81 (F := Ideal) (m ((c : Thread nD τ).loc main_arg4)) :=
  (W7_of_ne m ρ c main_v11 (by decide)).trans (W6_dst1 m ρ c)
theorem W7_score : W7 m ρ c (Proc.devRef .tc main_v1_1) = W2 m ρ c (Proc.devRef .tc main_v1_1) :=
  (W7_of_ne m ρ c main_v1_1 (by decide)).trans (W6_score m ρ c)
theorem W7_arg16 : W7 m ρ c (Proc.devRef .tc main_arg16) = m ((c : Thread nD τ).loc main_arg16) :=
  (W7_of_ne m ρ c main_arg16 (by decide)).trans (W6_arg16 m ρ c)
theorem W7_arg17 : W7 m ρ c (Proc.devRef .tc main_arg17) = m ((c : Thread nD τ).loc main_arg17) :=
  (W7_of_ne m ρ c main_arg17 (by decide)).trans (W6_arg17 m ρ c)
theorem W7_arg18 : W7 m ρ c (Proc.devRef .tc main_arg18) = m ((c : Thread nD τ).loc main_arg18) :=
  (W7_of_ne m ρ c main_arg18 (by decide)).trans (W6_arg18 m ρ c)
theorem W7_arg19 : W7 m ρ c (Proc.devRef .tc main_arg19) = m ((c : Thread nD τ).loc main_arg19) :=
  (W7_of_ne m ρ c main_arg19 (by decide)).trans (W6_arg19 m ρ c)
theorem W7_arg20 : W7 m ρ c (Proc.devRef .tc main_arg20) = m ((c : Thread nD τ).loc main_arg20) :=
  (W7_of_ne m ρ c main_arg20 (by decide)).trans (W6_arg20 m ρ c)
theorem W7_arg21 : W7 m ρ c (Proc.devRef .tc main_arg21) = m ((c : Thread nD τ).loc main_arg21) :=
  (W7_of_ne m ρ c main_arg21 (by decide)).trans (W6_arg21 m ρ c)
theorem W7_arg22 : W7 m ρ c (Proc.devRef .tc main_arg22) = m ((c : Thread nD τ).loc main_arg22) :=
  (W7_of_ne m ρ c main_arg22 (by decide)).trans (W6_arg22 m ρ c)
theorem W7_arg23 : W7 m ρ c (Proc.devRef .tc main_arg23) = m ((c : Thread nD τ).loc main_arg23) :=
  (W7_of_ne m ρ c main_arg23 (by decide)).trans (W6_arg23 m ρ c)

end Cert.KernelIdeal.Fold

end
-- ==== Proof.FoldC.lean ====
/-
  The end of the program's data flow: the two scatter-adds that sum the edge messages at their destination nodes,
  the projection region, and the final reshape of its column to a vector.  The result is the reference's last
  stage of the arguments: the reference adds the three score vectors after reshaping each column, the kernel
  reshapes the column of their sum, and a reshape from a column to a vector commutes with an entrywise sum.
-/
import proofs.«103407_j20023137534010_2_alg».proof.Proof.FoldB
import Idealize.ShloMosaic.Lib.Pipeline.Value
import Idealize.ShloMosaic.Lib.ValueIdx

set_option maxRecDepth 16384

noncomputable section

namespace Cert.KernelIdeal.Fold

open Cert.KernelIdeal Cert.KernelIdeal.Gen Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

/-! ## The scatter-adds -/

/-- The first edge list's messages summed at their destination nodes. -/
theorem W8_agg0 : W8 m ρ c (Proc.devRef .tc main_v58) = Cert.ReferenceIdeal.Read.val_main_v73 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps5 (W7 m ρ c) (Proc.devRef .tc main_v58) = _
  dsimp only [hostOps5]
  after_results
  rw [W7_dst0, W7_msg0]
  rfl

/-- The second edge list's messages summed at their destination nodes. -/
theorem W8_agg1 : W8 m ρ c (Proc.devRef .tc main_v61) = Cert.ReferenceIdeal.Read.val_main_v118 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps5 (W7 m ρ c) (Proc.devRef .tc main_v61) = _
  dsimp only [hostOps5]
  after_results
  rw [W7_dst1, W7_msg1]
  rfl

theorem W8_score : W8 m ρ c (Proc.devRef .tc main_v1_1) = Cert.ReferenceIdeal.Read.val_main_v31 (F := Ideal) (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (show W8 m ρ c (Proc.devRef .tc main_v1_1) = W7 m ρ c (Proc.devRef .tc main_v1_1) by host_keeps hostOps5).trans
    ((W7_score m ρ c).trans (W2_score m ρ c))
theorem W8_arg16 : W8 m ρ c (Proc.devRef .tc main_arg16) = m ((c : Thread nD τ).loc main_arg16) :=
  (show W8 m ρ c (Proc.devRef .tc main_arg16) = W7 m ρ c (Proc.devRef .tc main_arg16) by host_keeps hostOps5).trans (W7_arg16 m ρ c)
theorem W8_arg17 : W8 m ρ c (Proc.devRef .tc main_arg17) = m ((c : Thread nD τ).loc main_arg17) :=
  (show W8 m ρ c (Proc.devRef .tc main_arg17) = W7 m ρ c (Proc.devRef .tc main_arg17) by host_keeps hostOps5).trans (W7_arg17 m ρ c)
theorem W8_arg18 : W8 m ρ c (Proc.devRef .tc main_arg18) = m ((c : Thread nD τ).loc main_arg18) :=
  (show W8 m ρ c (Proc.devRef .tc main_arg18) = W7 m ρ c (Proc.devRef .tc main_arg18) by host_keeps hostOps5).trans (W7_arg18 m ρ c)
theorem W8_arg19 : W8 m ρ c (Proc.devRef .tc main_arg19) = m ((c : Thread nD τ).loc main_arg19) :=
  (show W8 m ρ c (Proc.devRef .tc main_arg19) = W7 m ρ c (Proc.devRef .tc main_arg19) by host_keeps hostOps5).trans (W7_arg19 m ρ c)
theorem W8_arg20 : W8 m ρ c (Proc.devRef .tc main_arg20) = m ((c : Thread nD τ).loc main_arg20) :=
  (show W8 m ρ c (Proc.devRef .tc main_arg20) = W7 m ρ c (Proc.devRef .tc main_arg20) by host_keeps hostOps5).trans (W7_arg20 m ρ c)
theorem W8_arg21 : W8 m ρ c (Proc.devRef .tc main_arg21) = m ((c : Thread nD τ).loc main_arg21) :=
  (show W8 m ρ c (Proc.devRef .tc main_arg21) = W7 m ρ c (Proc.devRef .tc main_arg21) by host_keeps hostOps5).trans (W7_arg21 m ρ c)
theorem W8_arg22 : W8 m ρ c (Proc.devRef .tc main_arg22) = m ((c : Thread nD τ).loc main_arg22) :=
  (show W8 m ρ c (Proc.devRef .tc main_arg22) = W7 m ρ c (Proc.devRef .tc main_arg22) by host_keeps hostOps5).trans (W7_arg22 m ρ c)
theorem W8_arg23 : W8 m ρ c (Proc.devRef .tc main_arg23) = m ((c : Thread nD τ).loc main_arg23) :=
  (show W8 m ρ c (Proc.devRef .tc main_arg23) = W7 m ρ c (Proc.devRef .tc main_arg23) by host_keeps hostOps5).trans (W7_arg23 m ρ c)

/-! ## The projection and the result -/

/-- The projection region's output column: the node scores plus the two conv heads' scores. -/
theorem W9_out : W9 m ρ c (Proc.devRef .tc main_v62)
    = Cert.Spec.projOut (F := Ideal) (Cert.ReferenceIdeal.Read.val_main_v73 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.ReferenceIdeal.Read.val_main_v118 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
        (Cert.ReferenceIdeal.Read.val_main_v31 (F := Ideal) (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  refine (W9_arr m ρ c 11).trans ?_
  refine (projection (V8 m ρ) c).trans ?_
  show Cert.Spec.projOut (F := Ideal) (W8 m ρ c (Proc.devRef .tc main_v58)) (W8 m ρ c (Proc.devRef .tc main_v61)) (W8 m ρ c (Proc.devRef .tc main_v1_1))
    (W8 m ρ c (Proc.devRef .tc main_arg16)) (W8 m ρ c (Proc.devRef .tc main_arg17)) (W8 m ρ c (Proc.devRef .tc main_arg18)) (W8 m ρ c (Proc.devRef .tc main_arg19))
    (W8 m ρ c (Proc.devRef .tc main_arg20)) (W8 m ρ c (Proc.devRef .tc main_arg21)) (W8 m ρ c (Proc.devRef .tc main_arg22)) (W8 m ρ c (Proc.devRef .tc main_arg23)) = _
  rw [W8_agg0, W8_agg1, W8_score, W8_arg16, W8_arg17, W8_arg18, W8_arg19, W8_arg20, W8_arg21, W8_arg22, W8_arg23]

/-- Reshaping a column of 10000 entries to a vector commutes with an entrywise sum: a reshape only re-indexes, so
    both sides read the two columns at the same entry. -/
theorem reshape_add (h : Cert.ReferenceIdeal.S10000x1.ShapeCasts Cert.ReferenceIdeal.S10000)
    (u v : FVec Ideal Cert.ReferenceIdeal.S10000x1 .f32) :
    shapeCast Cert.ReferenceIdeal.S10000 (addf u v) h
      = addf (shapeCast Cert.ReferenceIdeal.S10000 u h) (shapeCast Cert.ReferenceIdeal.S10000 v h) := by
  funext j
  unfold shapeCast
  rfl

/-- THE KERNEL'S RESULT: the result buffer at the last boundary holds the reference's last stage of the arguments. -/
theorem result_eq : W10 m ρ c (Proc.devRef .tc main_v63) = Cert.ReferenceIdeal.Read.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  show StableHlo.after hostOps6 (W9 m ρ c) (Proc.devRef .tc main_v63) = _
  dsimp only [hostOps6]
  after_results
  rw [W9_out]
  unfold Cert.Spec.projOut
  show shapeCast Cert.ReferenceIdeal.S10000 _ Cert.ReferenceIdeal.Gen.shapeCasts_S10000x1_S10000 = _
  rw [reshape_add, reshape_add]
  rfl

end Cert.KernelIdeal.Fold

end
-- ==== Proof.Claims.lean ====
/-
  The five claims.  The three frames are the generated frame certificates (the reference's is its generated run
  with the result dropped); the idealization rewrote no operation, so it preserves the kernel trivially; and the two
  idealized programs agree because each ends with its result at ONE function of the arguments — the reference's last
  stage: the reference by its generated run, the kernel by following its buffers through its six regions and the
  host operations between them.
-/
import proofs.«103407_j20023137534010_2_alg».proof.Defs
import proofs.«103407_j20023137534010_2_alg».proof.Proof.Gen.Kernel.Frame
import proofs.«103407_j20023137534010_2_alg».proof.Proof.Gen.KernelIdeal.Frame
import proofs.«103407_j20023137534010_2_alg».proof.Proof.Gen.ReferenceIdeal.Run
import proofs.«103407_j20023137534010_2_alg».proof.Proof.Gen.ReferenceIdeal.Read
import proofs.«103407_j20023137534010_2_alg».proof.Proof.Gen.Kernel
import proofs.«103407_j20023137534010_2_alg».proof.Proof.Gen.KernelIdeal
import proofs.«103407_j20023137534010_2_alg».proof.Proof.Gen.ReferenceIdeal
import proofs.«103407_j20023137534010_2_alg».proof.Proof.Gen.Pre_finite_inputs
import proofs.«103407_j20023137534010_2_alg».proof.Proof.KernelRun
import proofs.«103407_j20023137534010_2_alg».proof.Proof.FoldC

noncomputable section

namespace Cert.Proof.Claims

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

set_option maxHeartbeats 4000000 in
/-- Both idealized programs end with the result at the reference's last stage of the argument arrays: the kernel's
    run names its result buffer at the last boundary's contents, which the fold through the regions identifies with
    that stage; the reference's run states the stage's term; and the two memories agree on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v134 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
  · exact (θ_run Cert.KernelIdeal.defs _ _).mono (fun r h c => ⟨(h c).1.trans (Cert.KernelIdeal.Fold.result_eq m ρ c), (h c).2⟩)
      (Cert.KernelIdeal.GenP.run_main m ρ)
  · refine (θ_run Cert.ReferenceIdeal.defs _ _).mono (fun _ h c => ⟨?_, (h c).2⟩) (Cert.ReferenceIdeal.Value.run (F := Ideal) m' ρ')
    obtain ⟨e0, e1, e2, e3, e4, e5, e6, e7, e8, e9, e10, e11, e12, e13, e14, e15, e16, e17, e18, e19, e20, e21, e22, e23⟩ := hagree c
    rw [(h c).1, Cert.ReferenceIdeal.Read.val_main_v134_eq, e0, e1, e2, e3, e4, e5, e6, e7, e8, e9, e10, e11, e12, e13, e14, e15, e16, e17, e18, e19, e20, e21, e22, e23]

end Cert.Proof.Claims

end
-- ==== Proof.lean ====
/- The proof of `Cert.Claim`: a graph network scored node by node — an encoder, two normalizations of visual rows, two
   edge-message steps and a projection, six kernel regions with gathers and scatter-adds between them — against the
   same computation written as plain array operations.  At the exact instance both compute one function of the
   arguments, the reference's last stage (Proof/Gen/ReferenceIdeal/Read.lean).  Each region's output array is that
   region's stage of its input arrays (Proof/Encode*, Normalize*, EdgeWeight*, Proj*: the blocks a region writes are
   the blocks of one whole-array function, and they tile the array); the buffers are followed from the launch to the
   result through the regions and the host operations between them (Proof/FoldA, FoldB, FoldC) under the run that
   names the result buffer (Proof/KernelRun.lean); Proof/Claims.lean sets the five claims beside the generated frames
   and the reference's generated run. -/
import proofs.«103407_j20023137534010_2_alg».proof.Defs
import proofs.«103407_j20023137534010_2_alg».proof.Proof.Claims
import proofs.«103407_j20023137534010_2_alg».proof.Proof.Gen.Kernel
import proofs.«103407_j20023137534010_2_alg».proof.Proof.Gen.Kernel.Skeleton
import proofs.«103407_j20023137534010_2_alg».proof.Proof.Gen.Kernel.Launch
import proofs.«103407_j20023137534010_2_alg».proof.Proof.Gen.Kernel.Points
import proofs.«103407_j20023137534010_2_alg».proof.Proof.Gen.Kernel.Frame
import proofs.«103407_j20023137534010_2_alg».proof.Proof.Gen.KernelIdeal
import proofs.«103407_j20023137534010_2_alg».proof.Proof.Gen.KernelIdeal.Skeleton
import proofs.«103407_j20023137534010_2_alg».proof.Proof.Gen.KernelIdeal.Launch
import proofs.«103407_j20023137534010_2_alg».proof.Proof.Gen.KernelIdeal.Points
import proofs.«103407_j20023137534010_2_alg».proof.Proof.Gen.KernelIdeal.Frame
import proofs.«103407_j20023137534010_2_alg».proof.Proof.Gen.ReferenceIdeal
import proofs.«103407_j20023137534010_2_alg».proof.Proof.Gen.ReferenceIdeal.Run
import proofs.«103407_j20023137534010_2_alg».proof.Proof.Gen.ReferenceIdeal.Read
import proofs.«103407_j20023137534010_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, Claims.preserves, Claims.algebraic⟩

end Cert.Proof

end
